-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S1x800000 : Shape := ⟨2, ![1, 800000]⟩
abbrev S800000 : Shape := ⟨1, ![800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_
  slices_S2x800000_S1x800000_1_0 : S2x800000.Slices ![1, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part1 {F : FTy → Type} [FloatOps F] (main_arg1 : IVec S2x800000 32) (main_arg5 : FVec F S40 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  let main_v24 : IVec S1x800000 32 := (extractStridedSlice S1x800000 ![1, 0] · slices_S2x800000_S1x800000_1_0) main_arg1
  let main_v25 : IVec S800000 32 := shapeCast S800000 main_v24 shapeCasts_S1x800000_S800000
  let main_c_8 : IVec S_ 32 := constantI S_ 32 0#32
  let main_v26 : IVec S800000 32 := broadcastInDim S800000 ![] bcast_S_S800000 main_c_8
  let main_v27 : IVec S800000 1 := cmpi .sge main_v25 main_v26
  let main_c_9 : IVec S_ 1 := constantI S_ 1 1#1
  let main_v28 : IVec S_ 1 := (fun x v => Host.reduce IntOp.andi x v reducesTo_S800000_S_d0 h_S_) main_v27 main_c_9
  let main_v29 : IVec S_ 1 := andi main_v23 main_v28
  main_v29

def fn {F : FTy → Type} [FloatOps F] (main_arg0 : FVec F S50000x128 .f32) (main_arg1 : IVec S2x800000 32) (main_arg2 : FVec F S128x128 .f32) (main_arg3 : FVec F S128 .f32) (main_arg4 : FVec F S128x40 .f32) (main_arg5 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg4
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg1 main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S5000x128 : Shape := ⟨2, ![5000, 128]⟩
abbrev S5000x1 : Shape := ⟨2, ![5000, 1]⟩
abbrev S850000x128 : Shape := ⟨2, ![850000, 128]⟩
abbrev S1x128 : Shape := ⟨2, ![1, 128]⟩
abbrev S50000x40 : Shape := ⟨2, ![50000, 40]⟩
abbrev S5000x40 : Shape := ⟨2, ![5000, 40]⟩
abbrev S850000x40 : Shape := ⟨2, ![850000, 40]⟩
abbrev S1x40 : Shape := ⟨2, ![1, 40]⟩

abbrev nBuf : Space → Nat
  | .hbm => 63
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S50000x128, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000x128, .f32⟩
  | .hbm, ⟨38, _⟩ => ⟨S_, .f32⟩
  | .hbm, ⟨39, _⟩ => ⟨S50000x128, .f32⟩
  | .hbm, ⟨40, _⟩ => ⟨S850000x1, .i32⟩
  | .hbm, ⟨41, _⟩ => ⟨S50000x128, .f32⟩
  | .hbm, ⟨42, _⟩ => ⟨S50000x1, .f32⟩
  | .hbm, ⟨43, _⟩ => ⟨S1x128, .f32⟩
  | .hbm, ⟨44, _⟩ => ⟨S50000x128, .f32⟩
  | .hbm, ⟨45, _⟩ => ⟨S50000x1, .f32⟩
  | .hbm, ⟨46, _⟩ => ⟨S50000x40, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x40, .f32⟩
  | .hbm, ⟨56, _⟩ => ⟨S_, .f32⟩
  | .hbm, ⟨57, _⟩ => ⟨S50000x40, .f32⟩
  | .hbm, ⟨58, _⟩ => ⟨S850000x1, .i32⟩
  | .hbm, ⟨59, _⟩ => ⟨S50000x40, .f32⟩
  | .hbm, ⟨60, _⟩ => ⟨S50000x1, .f32⟩
  | .hbm, ⟨61, _⟩ => ⟨S1x40, .f32⟩
  | .hbm, ⟨62, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x40, .f32⟩
  | .local _ .vmem, ⟨17, _⟩ => ⟨S5000x1, .f32⟩
  | .local _ .vmem, ⟨18, _⟩ => ⟨S5000x1, .f32⟩
  | .local _ .vmem, ⟨19, _⟩ => ⟨S5000x40, .f32⟩
  | .local _ .vmem, ⟨20, _⟩ => ⟨S5000x40, .f32⟩
  | .local _ .vmem, ⟨21, _⟩ => ⟨S5000x40, .f32⟩
  | .local _ .vmem, ⟨22, _⟩ => ⟨S5000x40, .f32⟩
  | .local _ .vmem, ⟨23, _⟩ => ⟨S5000x1, .f32⟩
  | .local _ .vmem, ⟨24, _⟩ => ⟨S5000x1, .f32⟩
  | .local _ .vmem, ⟨25, _⟩ => ⟨S1x40, .f32⟩
  | .local _ .vmem, ⟨26, _⟩ => ⟨S5000x40, .f32⟩
  | .local _ .vmem, ⟨27, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_5 : Ref sig .tc := ⟨.hbm, 47, rfl⟩
abbrev main_v32 : Ref sig .tc := ⟨.hbm, 48, rfl⟩
abbrev main_v33 : Ref sig .tc := ⟨.hbm, 49, rfl⟩
abbrev main_c_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x40 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x40 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x40 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  bcast_S_S50000x40 : S_.BroadcastsInDim S50000x40 (![] : Fin 0 → Fin S50000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  scatter_S50000_S850000x1_S850000_n_0_0_1_wf : ScatterDims.WF S50000 S850000x1 S850000 [] [0] [0] 1
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x40_S5000x40_1_0_0_1_n_n_wf : DotDims.WF S5000x128 S128x40 S5000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x40.size a ≤ S128x40.size a
  hwx2_1 : ∀ i : grid2.Coords, EltTy.bits .f32 = 32 ∨ (Rect.block (s := S128x40) S128x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x40.size a ≤ S50000x40.size a
  hwx2_3 : ∀ i : grid2.Coords, EltTy.bits .f32 = 32 ∨ (Rect.block (s := S50000x40) S5000x40.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x40.size a ≤ S50000x40.size a
  hwx3_0 : ∀ i : grid3.Coords, EltTy.bits .f32 = 32 ∨ (Rect.block (s := S50000x40) S5000x40.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x40.size a ≤ S1x40.size a
  hwx3_2 : ∀ i : grid3.Coords, EltTy.bits .f32 = 32 ∨ (Rect.block (s := S1x40) S1x40.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x40.size a ≤ S50000x40.size a
  hwx3_3 : ∀ i : grid3.Coords, EltTy.bits .f32 = 32 ∨ (Rect.block (s := S50000x40) S5000x40.size (cc3_transform_3 i) (hinb3_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v29) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v30) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v31) S5000x40.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v41) S5000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v42) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v43) S1x40.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v44) S5000x40.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x40 : Shape := ⟨2, ![50000, 40]⟩
abbrev S850000x40 : Shape := ⟨2, ![850000, 40]⟩
abbrev S1x40 : Shape := ⟨2, ![1, 40]⟩

abbrev nBuf : Space → Nat
  | .hbm => 115
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S50000, .f32⟩
  | .hbm, ⟨15, _⟩ => ⟨S_, .i32⟩
  | .hbm, ⟨16, _⟩ => ⟨S850000, .i32⟩
  | .hbm, ⟨17, _⟩ => ⟨S850000, .i1⟩
  | .hbm, ⟨18, _⟩ => ⟨S_, .i32⟩
  | .hbm, ⟨19, _⟩ => ⟨S850000, .i32⟩
  | .hbm, ⟨20, _⟩ => ⟨S850000, .i32⟩
  | .hbm, ⟨21, _⟩ => ⟨S850000, .i32⟩
  | .hbm, ⟨22, _⟩ => ⟨S850000x1, .i32⟩
  | .hbm, ⟨23, _⟩ => ⟨S_, .f32⟩
  | .hbm, ⟨24, _⟩ => ⟨S850000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .i1⟩
  | .hbm, ⟨29, _⟩ => ⟨S50000, .f32⟩
  | .hbm, ⟨30, _⟩ => ⟨S_, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x128, .f32⟩
  | .hbm, ⟨35, _⟩ => ⟨S_, .i32⟩
  | .hbm, ⟨36, _⟩ => ⟨S850000, .i32⟩
  | .hbm, ⟨37, _⟩ => ⟨S850000, .i1⟩
  | .hbm, ⟨38, _⟩ => ⟨S_, .i32⟩
  | .hbm, ⟨39, _⟩ => ⟨S850000, .i32⟩
  | .hbm, ⟨40, _⟩ => ⟨S850000, .i32⟩
  | .hbm, ⟨41, _⟩ => ⟨S850000, .i32⟩
  | .hbm, ⟨42, _⟩ => ⟨S850000x1, .i32⟩
  | .hbm, ⟨43, _⟩ => ⟨S850000, .f32⟩
  | .hbm, ⟨44, _⟩ => ⟨S_, .i32⟩
  | .hbm, ⟨45, _⟩ => ⟨S850000, .i32⟩
  | .hbm, ⟨46, _⟩ => ⟨S850000, .i1⟩
  | .hbm, ⟨47, _⟩ => ⟨S_, .i32⟩
  | .hbm, ⟨48, _⟩ => ⟨S850000, .i32⟩
  | .hbm, ⟨49, _⟩ => ⟨S850000, .i32⟩
  | .hbm, ⟨50, _⟩ => ⟨S850000, .i32⟩
  | .hbm, ⟨51, _⟩ => ⟨S850000x1, .i32⟩
  | .hbm, ⟨52, _⟩ => ⟨S850000, .f32⟩
  | .hbm, ⟨53, _⟩ => ⟨S850000, .f32⟩
  | .hbm, ⟨54, _⟩ => ⟨S_, .i32⟩
  | .hbm, ⟨55, _⟩ => ⟨S850000, .i32⟩
  | .hbm, ⟨56, _⟩ => ⟨S850000, .i1⟩
  | .hbm, ⟨57, _⟩ => ⟨S_, .i32⟩
  | .hbm, ⟨58, _⟩ => ⟨S850000, .i32⟩
  | .hbm, ⟨59, _⟩ => ⟨S850000, .i32⟩
  | .hbm, ⟨60, _⟩ => ⟨S850000, .i32⟩
  | .hbm, ⟨61, _⟩ => ⟨S850000x1, .i32⟩
  | .hbm, ⟨62, _⟩ => ⟨S850000x128, .f32⟩
  | .hbm, ⟨63, _⟩ => ⟨S850000x1, .f32⟩
  | .hbm, ⟨64, _⟩ => ⟨S850000x128, .f32⟩
  | .hbm, ⟨65, _⟩ => ⟨S850000x128, .f32⟩
  | .hbm, ⟨66, _⟩ => ⟨S_, .f32⟩
  | .hbm, ⟨67, _⟩ => ⟨S50000x128, .f32⟩
  | .hbm, ⟨68, _⟩ => ⟨S850000x1, .i32⟩
  | .hbm, ⟨69, _⟩ => ⟨S50000x128, .f32⟩
  | .hbm, ⟨70, _⟩ => ⟨S1x128, .f32⟩
  | .hbm, ⟨71, _⟩ => ⟨S50000x128, .f32⟩
  | .hbm, ⟨72, _⟩ => ⟨S50000x128, .f32⟩
  | .hbm, ⟨73, _⟩ => ⟨S_, .f32⟩
  | .hbm, ⟨74, _⟩ => ⟨S50000x128, .f32⟩
  | .hbm, ⟨75, _⟩ => ⟨S50000x128, .f32⟩
  | .hbm, ⟨76, _⟩ => ⟨S50000x40, .f32⟩
  | .hbm, ⟨77, _⟩ => ⟨S_, .i32⟩
  | .hbm, ⟨78, _⟩ => ⟨S850000, .i32⟩
  | .hbm, ⟨79, _⟩ => ⟨S850000, .i1⟩
  | .hbm, ⟨80, _⟩ => ⟨S_, .i32⟩
  | .hbm, ⟨81, _⟩ => ⟨S850000, .i32⟩
  | .hbm, ⟨82, _⟩ => ⟨S850000, .i32⟩
  | .hbm, ⟨83, _⟩ => ⟨S850000, .i32⟩
  | .hbm, ⟨84, _⟩ => ⟨S850000x1, .i32⟩
  | .hbm, ⟨85, _⟩ => ⟨S850000, .f32⟩
  | .hbm, ⟨86, _⟩ => ⟨S_, .i32⟩
  | .hbm, ⟨87, _⟩ => ⟨S850000, .i32⟩
  | .hbm, ⟨88, _⟩ => ⟨S850000, .i1⟩
  | .hbm, ⟨89, _⟩ => ⟨S_, .i32⟩
  | .hbm, ⟨90, _⟩ => ⟨S850000, .i32⟩
  | .hbm, ⟨91, _⟩ => ⟨S850000, .i32⟩
  | .hbm, ⟨92, _⟩ => ⟨S850000, .i32⟩
  | .hbm, ⟨93, _⟩ => ⟨S850000x1, .i32⟩
  | .hbm, ⟨94, _⟩ => ⟨S850000, .f32⟩
  | .hbm, ⟨95, _⟩ => ⟨S850000, .f32⟩
  | .hbm, ⟨96, _⟩ => ⟨S_, .i32⟩
  | .hbm, ⟨97, _⟩ => ⟨S850000, .i32⟩
  | .hbm, ⟨98, _⟩ => ⟨S850000, .i1⟩
  | .hbm, ⟨99, _⟩ => ⟨S_, .i32⟩
  | .hbm, ⟨100, _⟩ => ⟨S850000, .i32⟩
  | .hbm, ⟨101, _⟩ => ⟨S850000, .i32⟩
  | .hbm, ⟨102, _⟩ => ⟨S850000, .i32⟩
  | .hbm, ⟨103, _⟩ => ⟨S850000x1, .i32⟩
  | .hbm, ⟨104, _⟩ => ⟨S850000x40, .f32⟩
  | .hbm, ⟨105, _⟩ => ⟨S850000x1, .f32⟩
  | .hbm, ⟨106, _⟩ => ⟨S850000x40, .f32⟩
  | .hbm, ⟨107, _⟩ => ⟨S850000x40, .f32⟩
  | .hbm, ⟨108, _⟩ => ⟨S_, .f32⟩
  | .hbm, ⟨109, _⟩ => ⟨S50000x40, .f32⟩
  | .hbm, ⟨110, _⟩ => ⟨S850000x1, .i32⟩
  | .hbm, ⟨111, _⟩ => ⟨S50000x40, .f32⟩
  | .hbm, ⟨112, _⟩ => ⟨S1x40, .f32⟩
  | .hbm, ⟨113, _⟩ => ⟨S50000x40, .f32⟩
  | .hbm, ⟨114, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_c_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_c_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_call1_cst : Ref sig .tc := ⟨.hbm, 73, rfl⟩
abbrev main_call1_v0 : Ref sig .tc := ⟨.hbm, 74, rfl⟩
abbrev main_v52 : Ref sig .tc := ⟨.hbm, 75, rfl⟩
abbrev main_v53 : Ref sig .tc := ⟨.hbm, 76, rfl⟩
abbrev main_c_11 : Ref sig .tc := ⟨.hbm, 77, rfl⟩
abbrev main_v54 : Ref sig .tc := ⟨.hbm, 78, rfl⟩
abbrev main_v55 : Ref sig .tc := ⟨.hbm, 79, rfl⟩
abbrev main_c_12 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_c_13 : Ref sig .tc := ⟨.hbm, 86, rfl⟩
abbrev main_v61 : Ref sig .tc := ⟨.hbm, 87, rfl⟩
abbrev main_v62 : Ref sig .tc := ⟨.hbm, 88, rfl⟩
abbrev main_c_14 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_c_15 : Ref sig .tc := ⟨.hbm, 96, rfl⟩
abbrev main_v69 : Ref sig .tc := ⟨.hbm, 97, rfl⟩
abbrev main_v70 : Ref sig .tc := ⟨.hbm, 98, rfl⟩
abbrev main_c_16 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_17 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S_S850000 : S_.BroadcastsInDim S850000 (![] : Fin 0 → Fin S850000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S850000x1_S850000_n_0_0_1_wf : ScatterDims.WF S50000 S850000x1 S850000 [] [0] [0] 1
  dot_S50000x128_S128x128_S50000x128_1_0_0_1_n_n_wf : DotDims.WF S50000x128 S128x128 S50000x128 [1] [0] [0] [1] [] []
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x40_S50000x40_1_0_0_1_n_n_wf : DotDims.WF S50000x128 S128x40 S50000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

class Facts : Prop extends Facts₀ where

variable [Facts]
-- ==== Proof.KernelRun.lean ====
/-
  The kernel program's run with its result named. Every weakly fair execution of the program terminates without a
  fault; its final memory holds, at the result buffer, what the last stage's boundary holds there (the contents after
  the fourth tiled stage, as a fold through the program's ten segments from the launch memory), and the six argument
  arrays as launched. The run itself is the launch of the program's segments — three stretches of host operations, then
  four tiled stages with a stretch of host operations between each two — and the final memory is read against the
  last boundary's contents at every buffer that outlives the program, the result buffer among them.
-/
import proofs.«182121_j28802050687441_2_alg».proof.Proof.Gen.KernelIdeal.Frame

set_option maxRecDepth 16384

noncomputable section

namespace Cert.KernelIdeal.Named

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer at the last boundary's contents and the arguments as launched. -/
theorem run_result : θ_run defs (onTc (τ := τ) (main (F := F))) ⟨m, fun _ => 0, ρ⟩ (fun r => ∀ c : Dev nD,
      r.2.mem ((c.tc : Thread nD τ).loc main_v44) = W10 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v44 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c)⟩)

end Cert.KernelIdeal.Named

end
-- ==== Proof.LibPlainDot.lean ====
/-
  A plain matrix product at the exact extended reals: for dimension numbers that contract the left operand's
  second axis against the right operand's first (no batch axis), the contraction sum at the output entry (p, q)
  is the sum over k of left (p, k) times right (k, q). From that, two readings of "rows times columns plus a row
  vector": a matrix unit's product into a zero accumulator with the vector re-laid as one row and repeated down the
  rows, and a host contraction with the vector broadcast in two steps. Both are the function `affine`. Also: the
  logistic function is one over one plus the exponential of the negated argument, on every extended real.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibPlainDot

open Idealize.ShloMosaic Idealize.ShloMosaic.ValueIdx

/-- The output entry (p, q) of rows-times-columns plus a row vector: the sum over k of x (p, k) · w (k, q), plus b q. -/
def affine {M K N : ℕ} (x : FVec Ideal ⟨2, ![M, K]⟩ .f32) (w : FVec Ideal ⟨2, ![K, N]⟩ .f32) (b : FVec Ideal ⟨1, ![N]⟩ .f32) :
    FVec Ideal ⟨2, ![M, N]⟩ .f32 :=
  fun i => (∑ k : Fin K, x (ix2 (n0 := M) (i 0) k) * w (ix2 (n1 := N) k (i 1))) + b (ix1 (n := N) (i 1))

theorem affine_apply {M K N : ℕ} (x : FVec Ideal ⟨2, ![M, K]⟩ .f32) (w : FVec Ideal ⟨2, ![K, N]⟩ .f32) (b : FVec Ideal ⟨1, ![N]⟩ .f32)
    (p : Fin M) (q : Fin N) : affine x w b (ix2 p q) = (∑ k : Fin K, x (ix2 p k) * w (ix2 k q)) + b (ix1 q) := rfl

/-- A block of T rows of `affine`: when x holds rows r … r + T − 1 of X, and w and b are W and B, the block's entry at y
    is `affine X W B` at the array index i whose row is r plus y's row and whose column is y's. -/
theorem affine_rows {M K N T : ℕ} (X : FVec Ideal ⟨2, ![M, K]⟩ .f32) (W : FVec Ideal ⟨2, ![K, N]⟩ .f32) (B : FVec Ideal ⟨1, ![N]⟩ .f32)
    (x : FVec Ideal ⟨2, ![T, K]⟩ .f32) (w : FVec Ideal ⟨2, ![K, N]⟩ .f32) (b : FVec Ideal ⟨1, ![N]⟩ .f32) (r : ℕ)
    (hx : ∀ (p : Fin T) (k : Fin K) (hp : r + p.val < M), x (ix2 p k) = X (ix2 ⟨r + p.val, hp⟩ k))
    (hw : ∀ z, w z = W z) (hb : ∀ z, b z = B z)
    (y : (⟨2, ![T, N]⟩ : Shape).Idx) (i : (⟨2, ![M, N]⟩ : Shape).Idx)
    (hi0 : (i 0).val = r + (y 0).val) (hi1 : (i 1).val = (y 1).val) :
    affine x w b y = affine X W B i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [affine_apply, affine_apply, hb]
  refine congrArg (· + B (ix1 q')) (Finset.sum_congr rfl fun k _ => ?_)
  rw [hx p k (h0 ▸ p'.isLt), hw, ← hp']

/-- The contraction index of a plain product is its one coordinate, so the contraction sum is a sum over `Fin K`. -/
theorem plain_sum {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  simp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have c1 : D.lhsContracting = [1] := by subst hD; rfl
  have c2 : D.rhsContracting = [0] := by subst hD; rfl
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ =>
      subst hD
      unfold DotDims.lhsIdx
      split
      · rename_i hb; exact absurd hb List.not_mem_nil
      · split
        · rfl
        · rename_i hn; exact absurd (List.mem_singleton.mpr rfl) hn
    | ⟨1, _⟩ => exact (D.lhsIdx_val_of_single c1 _ _).trans hk)
  have er : D.rhsIdx (ix2 p q) ((contrEquiv1 D K hr hs).symm k) = ix2 k q := funext fun a => Fin.ext (by
    match a with
    | ⟨0, _⟩ => exact (D.rhsIdx_val_of_single c2 _ _).trans hk
    | ⟨1, _⟩ =>
      subst hD
      unfold DotDims.rhsIdx
      split
      · rename_i hb; exact absurd hb List.not_mem_nil
      · split
        · rfl
        · rename_i hn; exact absurd (List.mem_singleton.mpr rfl) hn)
  rw [el, er]

/-- A matrix unit's product of two operands narrowed to bf16 into a zero accumulator, plus a vector re-laid as one
    row and repeated down the rows: at (p, q) it is `affine`. Narrowing is the identity on exact values. -/
theorem matmul_bias_apply {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hb : FTy.bf16.bits < FTy.f32.bits)
    (hc : (⟨1, ![N]⟩ : Shape).ShapeCasts ⟨2, ![1, N]⟩) (hbc : (⟨2, ![1, N]⟩ : Shape).Broadcasts ⟨2, ![M, N]⟩)
    (p : Fin M) (q : Fin N) :
    addf (matmul d none (truncf .bf16 x hb) (truncf .bf16 w hb) (constant ⟨2, ![M, N]⟩ .f32 0x00000000#32))
        (broadcastTo ⟨2, ![M, N]⟩ (shapeCast ⟨2, ![1, N]⟩ b hc) hbc) (ix2 p q)
      = affine x w b (ix2 p q) := by
  rw [affine_apply, addf_apply, broadcastTo_1b_ab_apply, shapeCast_a_1a_apply]
  refine congrArg (· + b (ix1 q)) ?_
  refine (Ideal.matmul_constant_zero_apply d none _ _ (ix2 p q)).trans ?_
  exact plain_sum d h1 h2 h3 h4 h5 h6 x w p q

/-- A vector broadcast to one row reads, at (u, i), the vector at i. -/
theorem bcast_a_1a_apply {a : ℕ} (x : (⟨1, ![a]⟩ : Shape).Idx → EReal)
    (h : (⟨1, ![a]⟩ : Shape).BroadcastsInDim ⟨2, ![1, a]⟩ ![1]) (u : Fin 1) (i : Fin a) :
    broadcastInDim ⟨2, ![1, a]⟩ ![1] h x (ix2 u i) = x (ix1 i) :=
  broadcastInDim_apply _ h x _ _ (fun ax => match ax with
    | ⟨0, _⟩ => by
      show i.val = if a = 1 then 0 else i.val
      split
      · have := i.isLt; omega
      · rfl)

/-- One row broadcast down the rows reads, at (p, c), the row at c. -/
theorem bcast_1b_ab_apply {a b : ℕ} (v : (⟨2, ![1, b]⟩ : Shape).Idx → EReal)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v _ (ix2 (0 : Fin 1) c) (fun ax => match ax with
    | ⟨0, _⟩ => by
      show (0 : ℕ) = if (1 : ℕ) = 1 then 0 else p.val
      rw [if_pos rfl]
    | ⟨1, _⟩ => by
      show c.val = if b = 1 then 0 else c.val
      split
      · have := c.isLt; omega
      · rfl)

/-- A host contraction of the same kind plus the vector broadcast to one row and then down the rows: `affine`. -/
theorem dot_bias_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1]) :
    addf (Host.dotGeneral (F := Ideal) d none x w)
        (broadcastInDim ⟨2, ![M, N]⟩ ![0, 1] hbc (broadcastInDim ⟨2, ![1, N]⟩ ![1] hr b))
      = affine x w b := by
  funext j
  obtain ⟨p, q, rfl⟩ : ∃ (p : Fin M) (q : Fin N), j = ix2 p q := ⟨j 0, j 1, eq_ix2 j⟩
  rw [affine_apply, addf_apply, bcast_1b_ab_apply, bcast_a_1a_apply]
  refine congrArg (· + b (ix1 q)) ?_
  simp only [Host.dotGeneral]
  rw [Ideal.dotGeneral_apply]
  exact plain_sum d h1 h2 h3 h4 h5 h6 x w p q

/-- The float word of 1.0 denotes the extended real one. -/
theorem one_f32 : Ideal.ofBits .f32 0x3F800000#32 = 1 := IdealRules.sign_bit.ideal_onePat .f32

/-- The host's spelling of the logistic function — one over (one plus the exponential of the negation), the ones
    broadcast constants — is, entry by entry, the logistic function a vector unit applies. -/
theorem host_sigmoid_eq {s : Shape} (y : FVec Ideal s .f32) (h : (⟨0, ![]⟩ : Shape).BroadcastsInDim s ![]) :
    Host.divf (F := Ideal) (broadcastInDim s ![] h (constant (F := Ideal) ⟨0, ![]⟩ .f32 0x3F800000#32))
        (addf (broadcastInDim s ![] h (constant (F := Ideal) ⟨0, ![]⟩ .f32 0x3F800000#32)) (Host.exp (F := Ideal) (Host.negf (F := Ideal) y)))
      = logistic y := by
  funext i
  simp only [Host.divf, Host.exp, Host.negf, addf, logistic, broadcastInDim, constant, Ideal.hostDivf_def, Ideal.logistic_def,
    Ideal.ofBits_def, one_f32, Ideal.logistic, Ideal.addf_def, Ideal.hostUnary_exp_def, Ideal.hostNegf_def, Ideal.negf_def]

/-- One graph layer's update of the node features: the logistic function of (features plus aggregated neighbours) times
    the weights plus the bias. -/
def ginLayer {M K N : ℕ} (h n : FVec Ideal ⟨2, ![M, K]⟩ .f32) (w : FVec Ideal ⟨2, ![K, N]⟩ .f32) (b : FVec Ideal ⟨1, ![N]⟩ .f32) :
    FVec Ideal ⟨2, ![M, N]⟩ .f32 :=
  fun i => Ideal.logistic (affine (fun j => h j + n j) w b i)

/-- The vector unit's form: the two operands (each through an identity re-lay) added, narrowed, multiplied into a zero
    accumulator, the bias row added, the logistic function applied. -/
theorem gin_pay_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x n : FVec Ideal ⟨2, ![M, K]⟩ .f32) (w : FVec Ideal ⟨2, ![K, N]⟩ .f32) (b : FVec Ideal ⟨1, ![N]⟩ .f32)
    (hb : FTy.bf16.bits < FTy.f32.bits) (hs : (⟨2, ![M, K]⟩ : Shape).ShapeCasts ⟨2, ![M, K]⟩)
    (hc : (⟨1, ![N]⟩ : Shape).ShapeCasts ⟨2, ![1, N]⟩) (hbc : (⟨2, ![1, N]⟩ : Shape).Broadcasts ⟨2, ![M, N]⟩) :
    logistic (addf (matmul d none (truncf .bf16 (addf (shapeCast ⟨2, ![M, K]⟩ x hs) (shapeCast ⟨2, ![M, K]⟩ n hs)) hb) (truncf .bf16 w hb)
        (constant ⟨2, ![M, N]⟩ .f32 0x00000000#32)) (broadcastTo ⟨2, ![M, N]⟩ (shapeCast ⟨2, ![1, N]⟩ b hc) hbc))
      = ginLayer x n w b := by
  funext j
  obtain ⟨p, q, rfl⟩ : ∃ (p : Fin M) (q : Fin N), j = ix2 p q := ⟨j 0, j 1, eq_ix2 j⟩
  rw [shapeCast_self, shapeCast_self]
  show Ideal.logistic _ = Ideal.logistic _
  exact congrArg Ideal.logistic (matmul_bias_apply d h1 h2 h3 h4 h5 h6 (addf x n) w b hb hc hbc p q)

/-- A block of T rows of a layer's update, as `affine_rows`. -/
theorem ginLayer_rows {M K N T : ℕ} (H Nb : FVec Ideal ⟨2, ![M, K]⟩ .f32) (W : FVec Ideal ⟨2, ![K, N]⟩ .f32) (B : FVec Ideal ⟨1, ![N]⟩ .f32)
    (x n : FVec Ideal ⟨2, ![T, K]⟩ .f32) (w : FVec Ideal ⟨2, ![K, N]⟩ .f32) (b : FVec Ideal ⟨1, ![N]⟩ .f32) (r : ℕ)
    (hx : ∀ (p : Fin T) (k : Fin K) (hp : r + p.val < M), x (ix2 p k) = H (ix2 ⟨r + p.val, hp⟩ k))
    (hn : ∀ (p : Fin T) (k : Fin K) (hp : r + p.val < M), n (ix2 p k) = Nb (ix2 ⟨r + p.val, hp⟩ k))
    (hw : ∀ z, w z = W z) (hb : ∀ z, b z = B z)
    (y : (⟨2, ![T, N]⟩ : Shape).Idx) (i : (⟨2, ![M, N]⟩ : Shape).Idx)
    (hi0 : (i 0).val = r + (y 0).val) (hi1 : (i 1).val = (y 1).val) :
    ginLayer x n w b y = ginLayer H Nb W B i :=
  congrArg Ideal.logistic (affine_rows (fun j => H j + Nb j) W B (fun j => x j + n j) w b r
    (fun p k hp => by show x (ix2 p k) + n (ix2 p k) = _; rw [hx p k hp, hn p k hp]) hw hb y i hi0 hi1)

/-- The host's form: the contraction of the sum with the weights, the bias broadcast in two steps, and the logistic
    function spelt as one over one plus the exponential of the negation. -/
theorem host_gin_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (h n : FVec Ideal ⟨2, ![M, K]⟩ .f32) (w : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1])
    (hone : (⟨0, ![]⟩ : Shape).BroadcastsInDim ⟨2, ![M, N]⟩ ![]) :
    Host.divf (F := Ideal) (broadcastInDim ⟨2, ![M, N]⟩ ![] hone (constant (F := Ideal) ⟨0, ![]⟩ .f32 0x3F800000#32))
        (addf (broadcastInDim ⟨2, ![M, N]⟩ ![] hone (constant (F := Ideal) ⟨0, ![]⟩ .f32 0x3F800000#32))
          (Host.exp (F := Ideal) (Host.negf (F := Ideal) (addf (Host.dotGeneral (F := Ideal) d none (addf h n) w)
            (broadcastInDim ⟨2, ![M, N]⟩ ![0, 1] hbc (broadcastInDim ⟨2, ![1, N]⟩ ![1] hr b))))))
      = ginLayer h n w b := by
  rw [host_sigmoid_eq, dot_bias_eq d h1 h2 h3 h4 h5 h6 (addf h n) w b hr hbc]
  rfl

end Cert.LibPlainDot

end
-- ==== Proof.LibMatProd.lean ====
/-
  The product of two matrices over the extended reals, entry by entry: entry (p, q) of x times w is the sum over k of
  x (p, k) · w (k, q). Three readings of it. A host contraction of x's second axis with w's first axis is this product.
  A matrix unit's product of the two operands narrowed to bf16, accumulated into zeros, is this product, since
  narrowing changes nothing on exact values. And a band of consecutive rows of the product is the product of that band
  of rows of x with w, which is what one block of a row-tiled computation holds.
-/
import proofs.«182121_j28802050687441_2_alg».proof.Proof.LibPlainDot

noncomputable section

namespace Cert.LibMatProd

open Idealize.ShloMosaic Idealize.ShloMosaic.ValueIdx Cert.LibPlainDot

/-- Entry (p, q) of rows times columns: the sum over k of x (p, k) · w (k, q). -/
def matProd {M K N : ℕ} (x : FVec Ideal ⟨2, ![M, K]⟩ .f32) (w : FVec Ideal ⟨2, ![K, N]⟩ .f32) : FVec Ideal ⟨2, ![M, N]⟩ .f32 :=
  fun i => ∑ k : Fin K, x (ix2 (n0 := M) (i 0) k) * w (ix2 (n1 := N) k (i 1))

theorem matProd_apply {M K N : ℕ} (x : FVec Ideal ⟨2, ![M, K]⟩ .f32) (w : FVec Ideal ⟨2, ![K, N]⟩ .f32) (p : Fin M) (q : Fin N) :
    matProd x w (ix2 p q) = ∑ k : Fin K, x (ix2 p k) * w (ix2 k q) := rfl

/-- A host contraction of the left operand's second axis with the right operand's first axis is the matrix product. -/
theorem host_dot_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) :
    Host.dotGeneral (F := Ideal) d none x w = matProd x w := by
  funext j
  obtain ⟨p, q, rfl⟩ : ∃ (p : Fin M) (q : Fin N), j = ix2 p q := ⟨j 0, j 1, eq_ix2 j⟩
  rw [matProd_apply]
  simp only [Host.dotGeneral]
  rw [Ideal.dotGeneral_apply]
  exact plain_sum d h1 h2 h3 h4 h5 h6 x w p q

/-- A matrix unit's product of two operands narrowed to bf16, accumulated into zeros, is the matrix product of the
    operands themselves: on exact values narrowing is the identity and the zero accumulator adds nothing. -/
theorem matmul_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (hb : FTy.bf16.bits < FTy.f32.bits) :
    matmul d none (truncf .bf16 x hb) (truncf .bf16 w hb) (constant ⟨2, ![M, N]⟩ .f32 0x00000000#32) = matProd x w := by
  funext j
  obtain ⟨p, q, rfl⟩ : ∃ (p : Fin M) (q : Fin N), j = ix2 p q := ⟨j 0, j 1, eq_ix2 j⟩
  rw [matProd_apply]
  refine (Ideal.matmul_constant_zero_apply d none _ _ (ix2 p q)).trans ?_
  exact plain_sum d h1 h2 h3 h4 h5 h6 x w p q

/-- Rows r, …, r + T − 1 of a product: when x holds those rows of X and w is W, the entry of x times w at y is the entry
    of X times W at the index whose row is r plus y's row and whose column is y's. -/
theorem matProd_rows {M K N T : ℕ} (X : FVec Ideal ⟨2, ![M, K]⟩ .f32) (W : FVec Ideal ⟨2, ![K, N]⟩ .f32)
    (x : FVec Ideal ⟨2, ![T, K]⟩ .f32) (w : FVec Ideal ⟨2, ![K, N]⟩ .f32) (r : ℕ)
    (hx : ∀ (p : Fin T) (k : Fin K) (hp : r + p.val < M), x (ix2 p k) = X (ix2 ⟨r + p.val, hp⟩ k))
    (hw : ∀ z, w z = W z)
    (y : (⟨2, ![T, N]⟩ : Shape).Idx) (i : (⟨2, ![M, N]⟩ : Shape).Idx)
    (hi0 : (i 0).val = r + (y 0).val) (hi1 : (i 1).val = (y 1).val) :
    matProd x w y = matProd X W i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [matProd_apply, matProd_apply]
  refine Finset.sum_congr rfl fun k _ => ?_
  rw [hx p k (h0 ▸ p'.isLt), hw, ← hp']

end Cert.LibMatProd

end
-- ==== Proof.LibRowScale.lean ====
/-
  A matrix scaled row by row: entry (p, q) of `rowScale x s` is x (p, q) · s (p, 0), where s is a one-column matrix.
  Two spellings of it: a vector unit's product of x with the column repeated along the rows, and a host product of x
  with the column broadcast along the rows. A band of consecutive rows of a row-scaled matrix is the band of x scaled
  by the band of s. Also: a vector viewed as one column by a reshape is the vector broadcast into one column, and a
  vector viewed as one row by a reshape is the vector broadcast into one row.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibRowScale

open Idealize.ShloMosaic Idealize.ShloMosaic.ValueIdx

/-- Entry (p, q) of x scaled row by row by the one-column s: x (p, q) · s (p, 0). -/
def rowScale {M N : ℕ} (x : FVec Ideal ⟨2, ![M, N]⟩ .f32) (s : FVec Ideal ⟨2, ![M, 1]⟩ .f32) : FVec Ideal ⟨2, ![M, N]⟩ .f32 :=
  fun i => x i * s (ix2 (n0 := M) (n1 := 1) (i 0) (0 : Fin 1))

theorem rowScale_apply {M N : ℕ} (x : FVec Ideal ⟨2, ![M, N]⟩ .f32) (s : FVec Ideal ⟨2, ![M, 1]⟩ .f32) (p : Fin M) (q : Fin N) :
    rowScale x s (ix2 p q) = x (ix2 p q) * s (ix2 p (0 : Fin 1)) := rfl

/-- A one-column matrix repeated along the rows reads, at (p, c), its entry (p, 0). -/
theorem broadcastTo_col_apply {M N : ℕ} (v : FVec Ideal ⟨2, ![M, 1]⟩ .f32) (h : (⟨2, ![M, 1]⟩ : Shape).Broadcasts ⟨2, ![M, N]⟩)
    (p : Fin M) (c : Fin N) : broadcastTo ⟨2, ![M, N]⟩ v h (ix2 p c) = v (ix2 p (0 : Fin 1)) := by
  refine broadcastTo_apply v h (ix2 p c) (ix2 p (0 : Fin 1)) fun ax => ?_
  match ax with
  | ⟨0, _⟩ =>
    show p.val = if M = 1 then 0 else p.val
    split
    · have := p.isLt; omega
    · rfl
  | ⟨1, _⟩ => rfl

/-- A one-column matrix broadcast along the rows by the host reads, at (p, c), its entry (p, 0). -/
theorem broadcastInDim_col_apply {M N : ℕ} (v : FVec Ideal ⟨2, ![M, 1]⟩ .f32)
    (h : (⟨2, ![M, 1]⟩ : Shape).BroadcastsInDim ⟨2, ![M, N]⟩ ![0, 1]) (p : Fin M) (c : Fin N) :
    broadcastInDim ⟨2, ![M, N]⟩ ![0, 1] h v (ix2 p c) = v (ix2 p (0 : Fin 1)) :=
  broadcastInDim_apply _ h v _ (ix2 p (0 : Fin 1)) (fun ax => match ax with
    | ⟨0, _⟩ => by
      show p.val = if M = 1 then 0 else p.val
      split
      · have := p.isLt; omega
      · rfl
    | ⟨1, _⟩ => by
      show (0 : ℕ) = if (1 : ℕ) = 1 then 0 else c.val
      rw [if_pos rfl])

/-- The vector unit's spelling: x and s each through an identity re-lay, s repeated along the rows, the product. -/
theorem mul_broadcastTo_eq {M N : ℕ} (x : FVec Ideal ⟨2, ![M, N]⟩ .f32) (s : FVec Ideal ⟨2, ![M, 1]⟩ .f32)
    (h1 : (⟨2, ![M, N]⟩ : Shape).ShapeCasts ⟨2, ![M, N]⟩) (h2 : (⟨2, ![M, 1]⟩ : Shape).ShapeCasts ⟨2, ![M, 1]⟩)
    (hb : (⟨2, ![M, 1]⟩ : Shape).Broadcasts ⟨2, ![M, N]⟩) :
    mulf (shapeCast ⟨2, ![M, N]⟩ x h1) (broadcastTo ⟨2, ![M, N]⟩ (shapeCast ⟨2, ![M, 1]⟩ s h2) hb) = rowScale x s := by
  funext j
  obtain ⟨p, q, rfl⟩ : ∃ (p : Fin M) (q : Fin N), j = ix2 p q := ⟨j 0, j 1, eq_ix2 j⟩
  rw [shapeCast_self, shapeCast_self, mulf_apply, broadcastTo_col_apply, rowScale_apply]

/-- The host's spelling: the product of x with s broadcast along the rows. -/
theorem mul_broadcastInDim_eq {M N : ℕ} (x : FVec Ideal ⟨2, ![M, N]⟩ .f32) (s : FVec Ideal ⟨2, ![M, 1]⟩ .f32)
    (hb : (⟨2, ![M, 1]⟩ : Shape).BroadcastsInDim ⟨2, ![M, N]⟩ ![0, 1]) :
    mulf x (broadcastInDim ⟨2, ![M, N]⟩ ![0, 1] hb s) = rowScale x s := by
  funext j
  obtain ⟨p, q, rfl⟩ : ∃ (p : Fin M) (q : Fin N), j = ix2 p q := ⟨j 0, j 1, eq_ix2 j⟩
  rw [mulf_apply, broadcastInDim_col_apply, rowScale_apply]

/-- Rows r, …, r + T − 1 of a row-scaled matrix: when x holds those rows of X and s those rows of S, the entry of
    `rowScale x s` at y is the entry of `rowScale X S` at the index whose row is r plus y's row and whose column is y's. -/
theorem rowScale_rows {M N T : ℕ} (X : FVec Ideal ⟨2, ![M, N]⟩ .f32) (S : FVec Ideal ⟨2, ![M, 1]⟩ .f32)
    (x : FVec Ideal ⟨2, ![T, N]⟩ .f32) (s : FVec Ideal ⟨2, ![T, 1]⟩ .f32) (r : ℕ)
    (hx : ∀ (p : Fin T) (q : Fin N) (hp : r + p.val < M), x (ix2 p q) = X (ix2 ⟨r + p.val, hp⟩ q))
    (hs : ∀ (p : Fin T) (hp : r + p.val < M), s (ix2 p (0 : Fin 1)) = S (ix2 ⟨r + p.val, hp⟩ (0 : Fin 1)))
    (y : (⟨2, ![T, N]⟩ : Shape).Idx) (i : (⟨2, ![M, N]⟩ : Shape).Idx)
    (hi0 : (i 0).val = r + (y 0).val) (hi1 : (i 1).val = (y 1).val) :
    rowScale x s y = rowScale X S i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [rowScale_apply, rowScale_apply, hx p q' (h0 ▸ p'.isLt), hs p (h0 ▸ p'.isLt), ← hp']

/-- A vector re-laid as one column is the vector broadcast into one column. -/
theorem col_cast_eq_bcast {a : ℕ} {α : Type} (v : (⟨1, ![a]⟩ : Shape).Idx → α) (hc : (⟨1, ![a]⟩ : Shape).ShapeCasts ⟨2, ![a, 1]⟩)
    (hb : (⟨1, ![a]⟩ : Shape).BroadcastsInDim ⟨2, ![a, 1]⟩ ![0]) :
    shapeCast ⟨2, ![a, 1]⟩ v hc = broadcastInDim ⟨2, ![a, 1]⟩ ![0] hb v := by
  funext j
  obtain ⟨i, u, rfl⟩ : ∃ (i : Fin a) (u : Fin 1), j = ix2 i u := ⟨j 0, j 1, eq_ix2 j⟩
  have e1 : shapeCast ⟨2, ![a, 1]⟩ v hc (ix2 i u) = v (ix1 i) :=
    shapeCast_apply v hc _ _ (by
      have hu : u.val = 0 := by omega
      rw [Shape.rowMajor_val_two, Shape.rowMajor_val_one]
      show i.val = i.val * 1 + u.val
      rw [hu, Nat.mul_one, Nat.add_zero])
  have e2 : broadcastInDim ⟨2, ![a, 1]⟩ ![0] hb v (ix2 i u) = v (ix1 i) :=
    broadcastInDim_apply _ hb v _ (ix1 i) (fun ax => match ax with
      | ⟨0, _⟩ => by
        show i.val = if a = 1 then 0 else i.val
        split
        · have := i.isLt; omega
        · rfl)
  rw [e1, e2]

/-- A vector re-laid as one row is the vector broadcast into one row. -/
theorem row_cast_eq_bcast {a : ℕ} {α : Type} (v : (⟨1, ![a]⟩ : Shape).Idx → α) (hc : (⟨1, ![a]⟩ : Shape).ShapeCasts ⟨2, ![1, a]⟩)
    (hb : (⟨1, ![a]⟩ : Shape).BroadcastsInDim ⟨2, ![1, a]⟩ ![1]) :
    shapeCast ⟨2, ![1, a]⟩ v hc = broadcastInDim ⟨2, ![1, a]⟩ ![1] hb v := by
  funext j
  obtain ⟨u, i, rfl⟩ : ∃ (u : Fin 1) (i : Fin a), j = ix2 u i := ⟨j 0, j 1, eq_ix2 j⟩
  have e1 : shapeCast ⟨2, ![1, a]⟩ v hc (ix2 u i) = v (ix1 i) :=
    shapeCast_apply v hc _ _ (by
      have hu : u.val = 0 := by omega
      rw [Shape.rowMajor_val_two, Shape.rowMajor_val_one]
      show i.val = u.val * a + i.val
      rw [hu, Nat.zero_mul, Nat.zero_add])
  have e2 : broadcastInDim ⟨2, ![1, a]⟩ ![1] hb v (ix2 u i) = v (ix1 i) :=
    broadcastInDim_apply _ hb v _ (ix1 i) (fun ax => match ax with
      | ⟨0, _⟩ => by
        show i.val = if a = 1 then 0 else i.val
        split
        · have := i.isLt; omega
        · rfl)
  rw [e1, e2]

end Cert.LibRowScale

end
-- ==== Proof.GcnTiles.lean ====
/-
  What the four tiled stages of the network compute, as functions of whole matrices, and the band-of-rows law of each.

  * `scaledProd x w s`: entry (p, q) is (∑ k, x (p, k) · w (k, q)) · s (p, 0) — a matrix product whose rows are then
    scaled by a one-column factor. A vector unit spells it as a product accumulated into zeros, times the column
    repeated along the rows.
  * `affine a s b`: entry (p, q) is a (p, q) · s (p, 0) + b (0, q) — rows scaled by a one-column factor, then a
    one-row offset added; `affineRelu` clamps that at zero from below.
  Each depends, at row p, only on row p of its first operand and of the column, so a band of consecutive rows of the
  result is the same function of that band of rows: what one block of a row-tiled computation holds is the whole
  function read at the block's place.
-/
import proofs.«182121_j28802050687441_2_alg».proof.Proof.LibMatProd
import proofs.«182121_j28802050687441_2_alg».proof.Proof.LibRowScale
import Idealize.ShloMosaic.Lib.ValueLayout

noncomputable section

open scoped BigOperators

namespace Cert.GcnTiles

open Idealize.ShloMosaic Idealize.ShloMosaic.ValueIdx Cert.LibMatProd Cert.LibRowScale Cert.LibPlainDot

/-- A matrix product with its rows scaled by a one-column factor. -/
def scaledProd {M K N : ℕ} (x : FVec Ideal ⟨2, ![M, K]⟩ .f32) (w : FVec Ideal ⟨2, ![K, N]⟩ .f32)
    (s : FVec Ideal ⟨2, ![M, 1]⟩ .f32) : FVec Ideal ⟨2, ![M, N]⟩ .f32 := rowScale (matProd x w) s

theorem scaledProd_apply {M K N : ℕ} (x : FVec Ideal ⟨2, ![M, K]⟩ .f32) (w : FVec Ideal ⟨2, ![K, N]⟩ .f32)
    (s : FVec Ideal ⟨2, ![M, 1]⟩ .f32) (p : Fin M) (q : Fin N) :
    scaledProd x w s (ix2 p q) = (∑ k : Fin K, x (ix2 p k) * w (ix2 k q)) * s (ix2 p (0 : Fin 1)) := rfl

/-- The vector unit's spelling: the product accumulated into zeros, times the column repeated along the rows. -/
theorem matmul_mul_col_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (s : FVec Ideal ⟨2, ![M, 1]⟩ .f32)
    (hc : (⟨2, ![M, 1]⟩ : Shape).ShapeCasts ⟨2, ![M, 1]⟩) (hb : (⟨2, ![M, 1]⟩ : Shape).Broadcasts ⟨2, ![M, N]⟩) :
    mulf (matmul d none x w (constant ⟨2, ![M, N]⟩ .f32 0x00000000#32))
        (broadcastTo ⟨2, ![M, N]⟩ (shapeCast ⟨2, ![M, 1]⟩ s hc) hb) = scaledProd x w s := by
  funext j
  obtain ⟨p, q, rfl⟩ : ∃ (p : Fin M) (q : Fin N), j = ix2 p q := ⟨j 0, j 1, eq_ix2 j⟩
  rw [mulf_apply, broadcastTo_col_apply, shapeCast_self, scaledProd_apply]
  exact congrArg (· * s (ix2 p (0 : Fin 1)))
    ((Ideal.matmul_constant_zero_apply d none x w (ix2 p q)).trans (plain_sum d h1 h2 h3 h4 h5 h6 x w p q))

/-- Rows r, …, r + T − 1 of a scaled product are the scaled product of those rows. -/
theorem scaledProd_rows {M K N T : ℕ} (X : FVec Ideal ⟨2, ![M, K]⟩ .f32) (W : FVec Ideal ⟨2, ![K, N]⟩ .f32)
    (S : FVec Ideal ⟨2, ![M, 1]⟩ .f32) (x : FVec Ideal ⟨2, ![T, K]⟩ .f32) (w : FVec Ideal ⟨2, ![K, N]⟩ .f32)
    (s : FVec Ideal ⟨2, ![T, 1]⟩ .f32) (r : ℕ)
    (hx : ∀ (p : Fin T) (k : Fin K) (hp : r + p.val < M), x (ix2 p k) = X (ix2 ⟨r + p.val, hp⟩ k))
    (hw : ∀ z, w z = W z)
    (hs : ∀ (p : Fin T) (hp : r + p.val < M), s (ix2 p (0 : Fin 1)) = S (ix2 ⟨r + p.val, hp⟩ (0 : Fin 1)))
    (y : (⟨2, ![T, N]⟩ : Shape).Idx) (i : (⟨2, ![M, N]⟩ : Shape).Idx)
    (hi0 : (i 0).val = r + (y 0).val) (hi1 : (i 1).val = (y 1).val) :
    scaledProd x w s y = scaledProd X W S i :=
  rowScale_rows (matProd X W) S (matProd x w) s r
    (fun p q hp => matProd_rows X W x w r hx hw (ix2 p q) (ix2 ⟨r + p.val, hp⟩ q) rfl rfl) hs y i hi0 hi1

/-- Rows scaled by a one-column factor, then a one-row offset added. -/
def affine {M N : ℕ} (a : FVec Ideal ⟨2, ![M, N]⟩ .f32) (s : FVec Ideal ⟨2, ![M, 1]⟩ .f32)
    (b : FVec Ideal ⟨2, ![1, N]⟩ .f32) : FVec Ideal ⟨2, ![M, N]⟩ .f32 :=
  fun i => a i * s (ix2 (n0 := M) (n1 := 1) (i 0) (0 : Fin 1)) + b (ix2 (n0 := 1) (n1 := N) (0 : Fin 1) (i 1))

theorem affine_apply {M N : ℕ} (a : FVec Ideal ⟨2, ![M, N]⟩ .f32) (s : FVec Ideal ⟨2, ![M, 1]⟩ .f32)
    (b : FVec Ideal ⟨2, ![1, N]⟩ .f32) (p : Fin M) (q : Fin N) :
    affine a s b (ix2 p q) = a (ix2 p q) * s (ix2 p (0 : Fin 1)) + b (ix2 (0 : Fin 1) q) := rfl

/-- The same clamped at zero from below. -/
def affineRelu {M N : ℕ} (a : FVec Ideal ⟨2, ![M, N]⟩ .f32) (s : FVec Ideal ⟨2, ![M, 1]⟩ .f32)
    (b : FVec Ideal ⟨2, ![1, N]⟩ .f32) : FVec Ideal ⟨2, ![M, N]⟩ .f32 := fun i => max (affine a s b i) 0

theorem affineRelu_apply {M N : ℕ} (a : FVec Ideal ⟨2, ![M, N]⟩ .f32) (s : FVec Ideal ⟨2, ![M, 1]⟩ .f32)
    (b : FVec Ideal ⟨2, ![1, N]⟩ .f32) (p : Fin M) (q : Fin N) :
    affineRelu a s b (ix2 p q) = max (a (ix2 p q) * s (ix2 p (0 : Fin 1)) + b (ix2 (0 : Fin 1) q)) 0 := rfl

/-- The vector unit's spelling of `affine`: the block times the column repeated along the rows, plus the row repeated
    down the columns. -/
theorem mul_col_add_row_eq {M N : ℕ} (a : FVec Ideal ⟨2, ![M, N]⟩ .f32) (s : FVec Ideal ⟨2, ![M, 1]⟩ .f32)
    (b : FVec Ideal ⟨2, ![1, N]⟩ .f32)
    (ha : (⟨2, ![M, N]⟩ : Shape).ShapeCasts ⟨2, ![M, N]⟩) (hs : (⟨2, ![M, 1]⟩ : Shape).ShapeCasts ⟨2, ![M, 1]⟩)
    (hsb : (⟨2, ![M, 1]⟩ : Shape).Broadcasts ⟨2, ![M, N]⟩) (hb : (⟨2, ![1, N]⟩ : Shape).ShapeCasts ⟨2, ![1, N]⟩)
    (hbb : (⟨2, ![1, N]⟩ : Shape).Broadcasts ⟨2, ![M, N]⟩) :
    addf (mulf (shapeCast ⟨2, ![M, N]⟩ a ha) (broadcastTo ⟨2, ![M, N]⟩ (shapeCast ⟨2, ![M, 1]⟩ s hs) hsb))
        (broadcastTo ⟨2, ![M, N]⟩ (shapeCast ⟨2, ![1, N]⟩ b hb) hbb) = affine a s b := by
  funext j
  obtain ⟨p, q, rfl⟩ : ∃ (p : Fin M) (q : Fin N), j = ix2 p q := ⟨j 0, j 1, eq_ix2 j⟩
  rw [addf_apply, mulf_apply, shapeCast_self, shapeCast_self, shapeCast_self, broadcastTo_col_apply,
    broadcastTo_1b_ab_apply, affine_apply]

/-- Rows r, …, r + T − 1 of `affine A S b` are `affine` of those rows of A and S with the same row b. -/
theorem affine_rows {M N T : ℕ} (A : FVec Ideal ⟨2, ![M, N]⟩ .f32) (S : FVec Ideal ⟨2, ![M, 1]⟩ .f32)
    (B : FVec Ideal ⟨2, ![1, N]⟩ .f32) (a : FVec Ideal ⟨2, ![T, N]⟩ .f32) (s : FVec Ideal ⟨2, ![T, 1]⟩ .f32)
    (b : FVec Ideal ⟨2, ![1, N]⟩ .f32) (r : ℕ)
    (ha : ∀ (p : Fin T) (q : Fin N) (hp : r + p.val < M), a (ix2 p q) = A (ix2 ⟨r + p.val, hp⟩ q))
    (hs : ∀ (p : Fin T) (hp : r + p.val < M), s (ix2 p (0 : Fin 1)) = S (ix2 ⟨r + p.val, hp⟩ (0 : Fin 1)))
    (hb : ∀ z, b z = B z)
    (y : (⟨2, ![T, N]⟩ : Shape).Idx) (i : (⟨2, ![M, N]⟩ : Shape).Idx)
    (hi0 : (i 0).val = r + (y 0).val) (hi1 : (i 1).val = (y 1).val) :
    affine a s b y = affine A S B i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [affine_apply, affine_apply, ha p q' (h0 ▸ p'.isLt), hs p (h0 ▸ p'.isLt), hb, ← hp']

/-- The same for the clamped form. -/
theorem affineRelu_rows {M N T : ℕ} (A : FVec Ideal ⟨2, ![M, N]⟩ .f32) (S : FVec Ideal ⟨2, ![M, 1]⟩ .f32)
    (B : FVec Ideal ⟨2, ![1, N]⟩ .f32) (a : FVec Ideal ⟨2, ![T, N]⟩ .f32) (s : FVec Ideal ⟨2, ![T, 1]⟩ .f32)
    (b : FVec Ideal ⟨2, ![1, N]⟩ .f32) (r : ℕ)
    (ha : ∀ (p : Fin T) (q : Fin N) (hp : r + p.val < M), a (ix2 p q) = A (ix2 ⟨r + p.val, hp⟩ q))
    (hs : ∀ (p : Fin T) (hp : r + p.val < M), s (ix2 p (0 : Fin 1)) = S (ix2 ⟨r + p.val, hp⟩ (0 : Fin 1)))
    (hb : ∀ z, b z = B z)
    (y : (⟨2, ![T, N]⟩ : Shape).Idx) (i : (⟨2, ![M, N]⟩ : Shape).Idx)
    (hi0 : (i 0).val = r + (y 0).val) (hi1 : (i 1).val = (y 1).val) :
    affineRelu a s b y = affineRelu A S B i :=
  congrArg (max · 0) (affine_rows A S B a s b r ha hs hb y i hi0 hi1)

end Cert.GcnTiles

end
-- ==== Proof.Stage0.lean ====
/-
  The first tiled stage: the node features times the first weight matrix, each row scaled by the node's normalisation
  factor. The stage walks the 50000 rows in ten bands of 5000. At band t it holds rows 5000·t … 5000·t + 4999 of the
  features and of the one-column factor, and the whole weight matrix, and writes those rows of the result. Row p of a
  scaled product depends only on row p of the features and of the factor, so what band t writes is the scaled product
  of the WHOLE arrays read at band t's place; the ten bands cover every row, so the array ends holding the scaled
  product of the arrays the stage was entered with.
-/
import proofs.«182121_j28802050687441_2_alg».proof.Proof.Gen.KernelIdeal.Frame
import proofs.«182121_j28802050687441_2_alg».proof.Proof.GcnTiles
import Idealize.ShloMosaic.Lib.Pipeline.Value

set_option maxRecDepth 16384

noncomputable section

namespace Cert.KernelIdeal.Stage0

open Idealize.ShloMosaic Idealize.ShloMosaic.TcCoe Idealize.ShloMosaic.ValueIdx Idealize.SL.Sem
open Cert.KernelIdeal Cert.KernelIdeal.Gen Cert.GcnTiles

variable (V : (c : Dev nD) → (b : Ref sig .tc) → Buf (Elt Ideal) ((c : Thread nD τ).loc b))

theorem origin : (![0, 0] : Fin 2 → Nat) = fun _ => 0 := funext fun a => by fin_cases a <;> rfl

/-- What the body stores is the scaled product of the three blocks it loaded. -/
theorem payload_eq (x0 : Vec Ideal S5000x128 .f32) (x1 : Vec Ideal S128x128 .f32) (x2 : Vec Ideal S5000x1 .f32) :
    k0_pay1 x0 x1 x2 = scaledProd x0 x1 x2 := by
  unfold k0_pay1
  exact matmul_mul_col_eq dot_S5000x128_S128x128_S5000x128_1_0_0_1_n_n rfl rfl rfl rfl rfl rfl x0 x1 x2 _ _

/-- Where each window's block sits at grid point t, relative to the output's band. -/
theorem band_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (1 : Fin 2) = 0 ∧ win0_3.index t (0 : Fin 2) ≤ 9 :=
  (by decide +kernel : ∀ t : Fin grid0.N, _)

/-- Every band is some grid point's. -/
theorem band_onto : ∀ q : Fin 10, ∃ t : Fin cfg0.N, win0_3.index t = ![q.val, 0] :=
  (by decide +kernel : ∀ q : Fin 10, ∃ t : Fin grid0.N, win0_3.index t = ![q.val, 0])

/-- What grid point t writes back is band t of the scaled product of the arrays as the stage finds them. -/
theorem written_eq (c : Dev nD) (t : Fin cfg0.N) :
    (dat0 V c).flushed 3 t = ((cfg0.win 3).blk t).view.read (Elt Ideal)
      (scaledProd (V c main_arg0) (V c main_arg2) (V c main_v15)) := by
  show (cfg0.win 3).cut (grid0.coords t) ((dat0 V c).after 3 t) = _
  rw [after0_3]
  unfold out0_3
  rw [View.canon_unit_zero origin]
  simp only [View.ld_unit_zero (S := S5000x128) origin, View.ld_unit_zero (S := S128x128) origin,
    View.ld_unit_zero (S := S5000x1) origin]
  rw [payload_eq]
  obtain ⟨e0, e1, e2, e3, e4, e5, e6, e7⟩ := band_facts t
  funext j
  show scaledProd (iblk0 V c 0 t) (iblk0 V c 1 t) (iblk0 V c 2 t) j
    = scaledProd (V c main_arg0) (V c main_arg2) (V c main_v15) (((cfg0.win 3).blk t).view.emb j)
  refine scaledProd_rows (V c main_arg0) (V c main_arg2) (V c main_v15) (iblk0 V c 0 t) (iblk0 V c 1 t) (iblk0 V c 2 t)
    (win0_3.index t (0 : Fin 2) * 5000) ?_ ?_ ?_ j (((cfg0.win 3).blk t).view.emb j) ?_ ?_
  · intro p k hp
    show V c main_arg0 (((cfg0.win 0).blk t).view.emb (ix2 p k)) = V c main_arg0 (ix2 ⟨win0_3.index t (0 : Fin 2) * 5000 + p.val, hp⟩ k)
    refine congrArg (V c main_arg0) ?_
    funext a; apply Fin.ext
    match a with
    | ⟨0, _⟩ => show win0_0.index t (0 : Fin 2) * 5000 + 1 * p.val = win0_3.index t (0 : Fin 2) * 5000 + p.val; omega
    | ⟨1, _⟩ => show win0_0.index t (1 : Fin 2) * 128 + 1 * k.val = k.val; omega
  · intro z
    show V c main_arg2 (((cfg0.win 1).blk t).view.emb z) = V c main_arg2 z
    refine congrArg (V c main_arg2) ?_
    funext a; apply Fin.ext
    match a with
    | ⟨0, _⟩ => show win0_1.index t (0 : Fin 2) * 128 + 1 * (z 0).val = (z 0).val; omega
    | ⟨1, _⟩ => show win0_1.index t (1 : Fin 2) * 128 + 1 * (z 1).val = (z 1).val; omega
  · intro p hp
    show V c main_v15 (((cfg0.win 2).blk t).view.emb (ix2 p (0 : Fin 1))) = V c main_v15 (ix2 ⟨win0_3.index t (0 : Fin 2) * 5000 + p.val, hp⟩ (0 : Fin 1))
    refine congrArg (V c main_v15) ?_
    funext a; apply Fin.ext
    match a with
    | ⟨0, _⟩ => show win0_2.index t (0 : Fin 2) * 5000 + 1 * p.val = win0_3.index t (0 : Fin 2) * 5000 + p.val; omega
    | ⟨1, _⟩ => show win0_2.index t (1 : Fin 2) * 1 + 1 * 0 = 0; omega
  · show win0_3.index t (0 : Fin 2) * 5000 + 1 * (j 0).val = win0_3.index t (0 : Fin 2) * 5000 + (j 0).val; omega
  · show win0_3.index t (1 : Fin 2) * 128 + 1 * (j 1).val = (j 1).val; omega

/-- An index of the array is in band t iff each coordinate is in the band's range on its axis. -/
theorem mem_band (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v16).slice (win0_3.rect t)).set ↔ _
  rw [View.set_slice_whole, Rect.mem_set_unit]
  exact Iff.rfl

/-- Every index of the array is in the band of the grid point numbered by its row divided by 5000. -/
theorem covered (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := band_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_band]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The stage's result array, after the stage, is the scaled product of the arrays it was entered with. -/
theorem result_eq (c : Dev nD) :
    (dat0 V c).arrAt 3 cfg0.N = scaledProd (V c main_arg0) (V c main_arg2) (V c main_v15) :=
  (dat0 V c).arrAt_eq_of_cover 3 _ (fun t _ => written_eq V c t) covered

end Cert.KernelIdeal.Stage0

end
-- ==== Proof.Stage1.lean ====
/-
  The second tiled stage: the aggregated messages, each row scaled by the node's normalisation factor, plus the first
  bias row, clamped at zero from below. Ten bands of 5000 rows; at band t the stage holds those rows of the
  aggregate and of the one-column factor and the whole bias row. Row p of the result depends only on row p of the
  aggregate and of the factor, so band t writes the whole-array function read at band t's place, and the bands cover
  every row.
-/
import proofs.«182121_j28802050687441_2_alg».proof.Proof.Gen.KernelIdeal.Frame
import proofs.«182121_j28802050687441_2_alg».proof.Proof.GcnTiles
import Idealize.ShloMosaic.Lib.Pipeline.Value

set_option maxRecDepth 16384

noncomputable section

namespace Cert.KernelIdeal.Stage1

open Idealize.ShloMosaic Idealize.ShloMosaic.TcCoe Idealize.ShloMosaic.ValueIdx Idealize.SL.Sem
open Cert.KernelIdeal Cert.KernelIdeal.Gen Cert.GcnTiles

variable (V : (c : Dev nD) → (b : Ref sig .tc) → Buf (Elt Ideal) ((c : Thread nD τ).loc b))

theorem origin : (![0, 0] : Fin 2 → Nat) = fun _ => 0 := funext fun a => by fin_cases a <;> rfl

/-- What the body stores is the clamped affine form (rows scaled by the column, the row added, clamped at zero) of the three blocks it loaded. -/
theorem payload_eq (x0 : Vec Ideal S5000x128 .f32) (x1 : Vec Ideal S5000x1 .f32) (x2 : Vec Ideal S1x128 .f32) :
    k1_pay1 x0 x1 x2 = affineRelu x0 x1 x2 := by
  have e := mul_col_add_row_eq x0 x1 x2 shapeCasts_S5000x128_S5000x128 shapeCasts_S5000x1_S5000x1
    broadcasts_S5000x1_S5000x128 shapeCasts_S1x128_S1x128 broadcasts_S1x128_S5000x128
  unfold k1_pay1
  funext j
  show max (addf (mulf (shapeCast S5000x128 x0 shapeCasts_S5000x128_S5000x128)
        (broadcastTo S5000x128 (shapeCast S5000x1 x1 shapeCasts_S5000x1_S5000x1) broadcasts_S5000x1_S5000x128))
      (broadcastTo S5000x128 (shapeCast S1x128 x2 shapeCasts_S1x128_S1x128) broadcasts_S1x128_S5000x128) j)
    (Ideal.ofBits .f32 0x00000000#32) = max (affine x0 x1 x2 j) 0
  rw [e, Ideal.ofBits_zero_f32]

/-- Where each window's block sits at grid point t, relative to the output's band. -/
theorem band_facts : ∀ t : Fin cfg1.N,
    win1_0.index t (0 : Fin 2) = win1_3.index t (0 : Fin 2) ∧ win1_0.index t (1 : Fin 2) = 0
    ∧ win1_1.index t (0 : Fin 2) = win1_3.index t (0 : Fin 2) ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 9 :=
  (by decide +kernel : ∀ t : Fin grid1.N, _)

/-- Every band is some grid point's. -/
theorem band_onto : ∀ q : Fin 10, ∃ t : Fin cfg1.N, win1_3.index t = ![q.val, 0] :=
  (by decide +kernel : ∀ q : Fin 10, ∃ t : Fin grid1.N, win1_3.index t = ![q.val, 0])

/-- What grid point t writes back is band t of the clamped affine form (rows scaled by the column, the row added, clamped at zero) of the arrays as the stage finds them. -/
theorem written_eq (c : Dev nD) (t : Fin cfg1.N) :
    (dat1 V c).flushed 3 t = ((cfg1.win 3).blk t).view.read (Elt Ideal)
      (affineRelu (V c main_v26) (V c main_v27) (V c main_v28)) := by
  show (cfg1.win 3).cut (grid1.coords t) ((dat1 V c).after 3 t) = _
  rw [after1_3]
  unfold out1_3
  rw [View.canon_unit_zero origin]
  simp only [View.ld_unit_zero (S := S5000x128) origin, View.ld_unit_zero (S := S5000x1) origin,
    View.ld_unit_zero (S := S1x128) origin]
  rw [payload_eq]
  obtain ⟨e0, e1, e2, e3, e4, e5, e6, e7⟩ := band_facts t
  funext j
  show affineRelu (iblk1 V c 0 t) (iblk1 V c 1 t) (iblk1 V c 2 t) j
    = affineRelu (V c main_v26) (V c main_v27) (V c main_v28) (((cfg1.win 3).blk t).view.emb j)
  refine affineRelu_rows (V c main_v26) (V c main_v27) (V c main_v28) (iblk1 V c 0 t) (iblk1 V c 1 t) (iblk1 V c 2 t)
    (win1_3.index t (0 : Fin 2) * 5000) ?_ ?_ ?_ j (((cfg1.win 3).blk t).view.emb j) ?_ ?_
  · intro p q hp
    show V c main_v26 (((cfg1.win 0).blk t).view.emb (ix2 p q)) = V c main_v26 (ix2 ⟨win1_3.index t (0 : Fin 2) * 5000 + p.val, hp⟩ q)
    refine congrArg (V c main_v26) ?_
    funext a; apply Fin.ext
    match a with
    | ⟨0, _⟩ => show win1_0.index t (0 : Fin 2) * 5000 + 1 * p.val = win1_3.index t (0 : Fin 2) * 5000 + p.val; omega
    | ⟨1, _⟩ => show win1_0.index t (1 : Fin 2) * 128 + 1 * q.val = q.val; omega
  · intro p hp
    show V c main_v27 (((cfg1.win 1).blk t).view.emb (ix2 p (0 : Fin 1))) = V c main_v27 (ix2 ⟨win1_3.index t (0 : Fin 2) * 5000 + p.val, hp⟩ (0 : Fin 1))
    refine congrArg (V c main_v27) ?_
    funext a; apply Fin.ext
    match a with
    | ⟨0, _⟩ => show win1_1.index t (0 : Fin 2) * 5000 + 1 * p.val = win1_3.index t (0 : Fin 2) * 5000 + p.val; omega
    | ⟨1, _⟩ => show win1_1.index t (1 : Fin 2) * 1 + 1 * 0 = 0; omega
  · intro z
    show V c main_v28 (((cfg1.win 2).blk t).view.emb z) = V c main_v28 z
    refine congrArg (V c main_v28) ?_
    funext a; apply Fin.ext
    match a with
    | ⟨0, _⟩ => show win1_2.index t (0 : Fin 2) * 1 + 1 * (z 0).val = (z 0).val; omega
    | ⟨1, _⟩ => show win1_2.index t (1 : Fin 2) * 128 + 1 * (z 1).val = (z 1).val; omega
  · show win1_3.index t (0 : Fin 2) * 5000 + 1 * (j 0).val = win1_3.index t (0 : Fin 2) * 5000 + (j 0).val; omega
  · show win1_3.index t (1 : Fin 2) * 128 + 1 * (j 1).val = (j 1).val; omega

/-- An index of the array is in band t iff each coordinate is in the band's range on its axis. -/
theorem mem_band (t : Fin cfg1.N) (i : S50000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v29).slice (win1_3.rect t)).set ↔ _
  rw [View.set_slice_whole, Rect.mem_set_unit]
  exact Iff.rfl

/-- Every index of the array is in the band of the grid point numbered by its row divided by 5000. -/
theorem covered (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  obtain ⟨t, ht⟩ := band_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_band]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- The stage's result array, after the stage, is the clamped affine form (rows scaled by the column, the row added, clamped at zero) of the arrays it was entered with. -/
theorem result_eq (c : Dev nD) :
    (dat1 V c).arrAt 3 cfg1.N = affineRelu (V c main_v26) (V c main_v27) (V c main_v28) :=
  (dat1 V c).arrAt_eq_of_cover 3 _ (fun t _ => written_eq V c t) covered

end Cert.KernelIdeal.Stage1

end
-- ==== Proof.Stage2.lean ====
/-
  The third tiled stage: the hidden features times the second weight matrix, each row scaled by the node's
  normalisation factor — the first stage's computation at 40 output columns. Ten bands of 5000 rows; band t writes the
  scaled product of the whole arrays read at band t's place, and the bands cover every row.
-/
import proofs.«182121_j28802050687441_2_alg».proof.Proof.Gen.KernelIdeal.Frame
import proofs.«182121_j28802050687441_2_alg».proof.Proof.GcnTiles
import Idealize.ShloMosaic.Lib.Pipeline.Value

set_option maxRecDepth 16384

noncomputable section

namespace Cert.KernelIdeal.Stage2

open Idealize.ShloMosaic Idealize.ShloMosaic.TcCoe Idealize.ShloMosaic.ValueIdx Idealize.SL.Sem
open Cert.KernelIdeal Cert.KernelIdeal.Gen Cert.GcnTiles

variable (V : (c : Dev nD) → (b : Ref sig .tc) → Buf (Elt Ideal) ((c : Thread nD τ).loc b))

theorem origin : (![0, 0] : Fin 2 → Nat) = fun _ => 0 := funext fun a => by fin_cases a <;> rfl

/-- What the body stores is the scaled product of the three blocks it loaded. -/
theorem payload_eq (x0 : Vec Ideal S5000x128 .f32) (x1 : Vec Ideal S128x40 .f32) (x2 : Vec Ideal S5000x1 .f32) :
    k2_pay1 x0 x1 x2 = scaledProd x0 x1 x2 := by
  unfold k2_pay1
  show mulf (F := Ideal) (matmul dot_S5000x128_S128x40_S5000x40_1_0_0_1_n_n none (shapeCast S5000x128 x0 shapeCasts_S5000x128_S5000x128) x1
      (constant S5000x40 .f32 0x00000000#32))
    (broadcastTo S5000x40 (shapeCast S5000x1 x2 shapeCasts_S5000x1_S5000x1) broadcasts_S5000x1_S5000x40) = _
  rw [shapeCast_self x0]
  exact matmul_mul_col_eq dot_S5000x128_S128x40_S5000x40_1_0_0_1_n_n rfl rfl rfl rfl rfl rfl x0 x1 x2 _ _

/-- Where each window's block sits at grid point t, relative to the output's band. -/
theorem band_facts : ∀ t : Fin cfg2.N,
    win2_0.index t (0 : Fin 2) = win2_3.index t (0 : Fin 2) ∧ win2_0.index t (1 : Fin 2) = 0
    ∧ win2_1.index t (0 : Fin 2) = 0 ∧ win2_1.index t (1 : Fin 2) = 0
    ∧ win2_2.index t (0 : Fin 2) = win2_3.index t (0 : Fin 2) ∧ win2_2.index t (1 : Fin 2) = 0
    ∧ win2_3.index t (1 : Fin 2) = 0 ∧ win2_3.index t (0 : Fin 2) ≤ 9 :=
  (by decide +kernel : ∀ t : Fin grid2.N, _)

/-- Every band is some grid point's. -/
theorem band_onto : ∀ q : Fin 10, ∃ t : Fin cfg2.N, win2_3.index t = ![q.val, 0] :=
  (by decide +kernel : ∀ q : Fin 10, ∃ t : Fin grid2.N, win2_3.index t = ![q.val, 0])

/-- What grid point t writes back is band t of the scaled product of the arrays as the stage finds them. -/
theorem written_eq (c : Dev nD) (t : Fin cfg2.N) :
    (dat2 V c).flushed 3 t = ((cfg2.win 3).blk t).view.read (Elt Ideal)
      (scaledProd (V c main_v29) (V c main_arg4) (V c main_v30)) := by
  show (cfg2.win 3).cut (grid2.coords t) ((dat2 V c).after 3 t) = _
  rw [after2_3]
  unfold out2_3
  rw [View.canon_unit_zero origin]
  simp only [View.ld_unit_zero (S := S5000x128) origin, View.ld_unit_zero (S := S128x40) origin,
    View.ld_unit_zero (S := S5000x1) origin]
  rw [payload_eq]
  obtain ⟨e0, e1, e2, e3, e4, e5, e6, e7⟩ := band_facts t
  funext j
  show scaledProd (iblk2 V c 0 t) (iblk2 V c 1 t) (iblk2 V c 2 t) j
    = scaledProd (V c main_v29) (V c main_arg4) (V c main_v30) (((cfg2.win 3).blk t).view.emb j)
  refine scaledProd_rows (V c main_v29) (V c main_arg4) (V c main_v30) (iblk2 V c 0 t) (iblk2 V c 1 t) (iblk2 V c 2 t)
    (win2_3.index t (0 : Fin 2) * 5000) ?_ ?_ ?_ j (((cfg2.win 3).blk t).view.emb j) ?_ ?_
  · intro p k hp
    show V c main_v29 (((cfg2.win 0).blk t).view.emb (ix2 p k)) = V c main_v29 (ix2 ⟨win2_3.index t (0 : Fin 2) * 5000 + p.val, hp⟩ k)
    refine congrArg (V c main_v29) ?_
    funext a; apply Fin.ext
    match a with
    | ⟨0, _⟩ => show win2_0.index t (0 : Fin 2) * 5000 + 1 * p.val = win2_3.index t (0 : Fin 2) * 5000 + p.val; omega
    | ⟨1, _⟩ => show win2_0.index t (1 : Fin 2) * 128 + 1 * k.val = k.val; omega
  · intro z
    show V c main_arg4 (((cfg2.win 1).blk t).view.emb z) = V c main_arg4 z
    refine congrArg (V c main_arg4) ?_
    funext a; apply Fin.ext
    match a with
    | ⟨0, _⟩ => show win2_1.index t (0 : Fin 2) * 128 + 1 * (z 0).val = (z 0).val; omega
    | ⟨1, _⟩ => show win2_1.index t (1 : Fin 2) * 40 + 1 * (z 1).val = (z 1).val; omega
  · intro p hp
    show V c main_v30 (((cfg2.win 2).blk t).view.emb (ix2 p (0 : Fin 1))) = V c main_v30 (ix2 ⟨win2_3.index t (0 : Fin 2) * 5000 + p.val, hp⟩ (0 : Fin 1))
    refine congrArg (V c main_v30) ?_
    funext a; apply Fin.ext
    match a with
    | ⟨0, _⟩ => show win2_2.index t (0 : Fin 2) * 5000 + 1 * p.val = win2_3.index t (0 : Fin 2) * 5000 + p.val; omega
    | ⟨1, _⟩ => show win2_2.index t (1 : Fin 2) * 1 + 1 * 0 = 0; omega
  · show win2_3.index t (0 : Fin 2) * 5000 + 1 * (j 0).val = win2_3.index t (0 : Fin 2) * 5000 + (j 0).val; omega
  · show win2_3.index t (1 : Fin 2) * 40 + 1 * (j 1).val = (j 1).val; omega

/-- An index of the array is in band t iff each coordinate is in the band's range on its axis. -/
theorem mem_band (t : Fin cfg2.N) (i : S50000x40.Idx) :
    i ∈ ((cfg2.win 3).blk t).view.set ↔ ∀ a : Fin 2, win2_3.index t a * S5000x40.size a ≤ (i a).val
      ∧ (i a).val < win2_3.index t a * S5000x40.size a + S5000x40.size a := by
  show i ∈ ((View.whole main_v31).slice (win2_3.rect t)).set ↔ _
  rw [View.set_slice_whole, Rect.mem_set_unit]
  exact Iff.rfl

/-- Every index of the array is in the band of the grid point numbered by its row divided by 5000. -/
theorem covered (i : S50000x40.Idx) :
    ∃ t : Fin cfg2.N, (cfg2.win 3).flush t = true ∧ i ∈ ((cfg2.win 3).blk t).view.set := by
  have hi0 : (i 0).val < 50000 := (i 0).isLt
  have hi1 : (i 1).val < 40 := (i 1).isLt
  obtain ⟨t, ht⟩ := band_onto ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_band]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 40 ≤ (i 1).val ∧ (i 1).val < win2_3.index t (1 : Fin 2) * 40 + 40; omega

/-- The stage's result array, after the stage, is the scaled product of the arrays it was entered with. -/
theorem result_eq (c : Dev nD) :
    (dat2 V c).arrAt 3 cfg2.N = scaledProd (V c main_v29) (V c main_arg4) (V c main_v30) :=
  (dat2 V c).arrAt_eq_of_cover 3 _ (fun t _ => written_eq V c t) covered

end Cert.KernelIdeal.Stage2

end
-- ==== Proof.Stage3.lean ====
/-
  The fourth tiled stage: the second round's aggregated messages, each row scaled by the node's normalisation factor,
  plus the second bias row (no clamp). Ten bands of 5000 rows; band t writes the whole-array function read at band t's
  place, and the bands cover every row.
-/
import proofs.«182121_j28802050687441_2_alg».proof.Proof.Gen.KernelIdeal.Frame
import proofs.«182121_j28802050687441_2_alg».proof.Proof.GcnTiles
import Idealize.ShloMosaic.Lib.Pipeline.Value

set_option maxRecDepth 16384

noncomputable section

namespace Cert.KernelIdeal.Stage3

open Idealize.ShloMosaic Idealize.ShloMosaic.TcCoe Idealize.ShloMosaic.ValueIdx Idealize.SL.Sem
open Cert.KernelIdeal Cert.KernelIdeal.Gen Cert.GcnTiles

variable (V : (c : Dev nD) → (b : Ref sig .tc) → Buf (Elt Ideal) ((c : Thread nD τ).loc b))

theorem origin : (![0, 0] : Fin 2 → Nat) = fun _ => 0 := funext fun a => by fin_cases a <;> rfl

/-- What the body stores is the affine form (rows scaled by the column, the row added) of the three blocks it loaded. -/
theorem payload_eq (x0 : Vec Ideal S5000x40 .f32) (x1 : Vec Ideal S5000x1 .f32) (x2 : Vec Ideal S1x40 .f32) :
    k3_pay1 x0 x1 x2 = affine x0 x1 x2 := by
  unfold k3_pay1
  exact mul_col_add_row_eq x0 x1 x2 shapeCasts_S5000x40_S5000x40 shapeCasts_S5000x1_S5000x1
    broadcasts_S5000x1_S5000x40 shapeCasts_S1x40_S1x40 broadcasts_S1x40_S5000x40

/-- Where each window's block sits at grid point t, relative to the output's band. -/
theorem band_facts : ∀ t : Fin cfg3.N,
    win3_0.index t (0 : Fin 2) = win3_3.index t (0 : Fin 2) ∧ win3_0.index t (1 : Fin 2) = 0
    ∧ win3_1.index t (0 : Fin 2) = win3_3.index t (0 : Fin 2) ∧ win3_1.index t (1 : Fin 2) = 0
    ∧ win3_2.index t (0 : Fin 2) = 0 ∧ win3_2.index t (1 : Fin 2) = 0
    ∧ win3_3.index t (1 : Fin 2) = 0 ∧ win3_3.index t (0 : Fin 2) ≤ 9 :=
  (by decide +kernel : ∀ t : Fin grid3.N, _)

/-- Every band is some grid point's. -/
theorem band_onto : ∀ q : Fin 10, ∃ t : Fin cfg3.N, win3_3.index t = ![q.val, 0] :=
  (by decide +kernel : ∀ q : Fin 10, ∃ t : Fin grid3.N, win3_3.index t = ![q.val, 0])

/-- What grid point t writes back is band t of the affine form (rows scaled by the column, the row added) of the arrays as the stage finds them. -/
theorem written_eq (c : Dev nD) (t : Fin cfg3.N) :
    (dat3 V c).flushed 3 t = ((cfg3.win 3).blk t).view.read (Elt Ideal)
      (affine (V c main_v41) (V c main_v42) (V c main_v43)) := by
  show (cfg3.win 3).cut (grid3.coords t) ((dat3 V c).after 3 t) = _
  rw [after3_3]
  unfold out3_3
  rw [View.canon_unit_zero origin]
  simp only [View.ld_unit_zero (S := S5000x40) origin, View.ld_unit_zero (S := S5000x1) origin,
    View.ld_unit_zero (S := S1x40) origin]
  rw [payload_eq]
  obtain ⟨e0, e1, e2, e3, e4, e5, e6, e7⟩ := band_facts t
  funext j
  show affine (iblk3 V c 0 t) (iblk3 V c 1 t) (iblk3 V c 2 t) j
    = affine (V c main_v41) (V c main_v42) (V c main_v43) (((cfg3.win 3).blk t).view.emb j)
  refine affine_rows (V c main_v41) (V c main_v42) (V c main_v43) (iblk3 V c 0 t) (iblk3 V c 1 t) (iblk3 V c 2 t)
    (win3_3.index t (0 : Fin 2) * 5000) ?_ ?_ ?_ j (((cfg3.win 3).blk t).view.emb j) ?_ ?_
  · intro p q hp
    show V c main_v41 (((cfg3.win 0).blk t).view.emb (ix2 p q)) = V c main_v41 (ix2 ⟨win3_3.index t (0 : Fin 2) * 5000 + p.val, hp⟩ q)
    refine congrArg (V c main_v41) ?_
    funext a; apply Fin.ext
    match a with
    | ⟨0, _⟩ => show win3_0.index t (0 : Fin 2) * 5000 + 1 * p.val = win3_3.index t (0 : Fin 2) * 5000 + p.val; omega
    | ⟨1, _⟩ => show win3_0.index t (1 : Fin 2) * 40 + 1 * q.val = q.val; omega
  · intro p hp
    show V c main_v42 (((cfg3.win 1).blk t).view.emb (ix2 p (0 : Fin 1))) = V c main_v42 (ix2 ⟨win3_3.index t (0 : Fin 2) * 5000 + p.val, hp⟩ (0 : Fin 1))
    refine congrArg (V c main_v42) ?_
    funext a; apply Fin.ext
    match a with
    | ⟨0, _⟩ => show win3_1.index t (0 : Fin 2) * 5000 + 1 * p.val = win3_3.index t (0 : Fin 2) * 5000 + p.val; omega
    | ⟨1, _⟩ => show win3_1.index t (1 : Fin 2) * 1 + 1 * 0 = 0; omega
  · intro z
    show V c main_v43 (((cfg3.win 2).blk t).view.emb z) = V c main_v43 z
    refine congrArg (V c main_v43) ?_
    funext a; apply Fin.ext
    match a with
    | ⟨0, _⟩ => show win3_2.index t (0 : Fin 2) * 1 + 1 * (z 0).val = (z 0).val; omega
    | ⟨1, _⟩ => show win3_2.index t (1 : Fin 2) * 40 + 1 * (z 1).val = (z 1).val; omega
  · show win3_3.index t (0 : Fin 2) * 5000 + 1 * (j 0).val = win3_3.index t (0 : Fin 2) * 5000 + (j 0).val; omega
  · show win3_3.index t (1 : Fin 2) * 40 + 1 * (j 1).val = (j 1).val; omega

/-- An index of the array is in band t iff each coordinate is in the band's range on its axis. -/
theorem mem_band (t : Fin cfg3.N) (i : S50000x40.Idx) :
    i ∈ ((cfg3.win 3).blk t).view.set ↔ ∀ a : Fin 2, win3_3.index t a * S5000x40.size a ≤ (i a).val
      ∧ (i a).val < win3_3.index t a * S5000x40.size a + S5000x40.size a := by
  show i ∈ ((View.whole main_v44).slice (win3_3.rect t)).set ↔ _
  rw [View.set_slice_whole, Rect.mem_set_unit]
  exact Iff.rfl

/-- Every index of the array is in the band of the grid point numbered by its row divided by 5000. -/
theorem covered (i : S50000x40.Idx) :
    ∃ t : Fin cfg3.N, (cfg3.win 3).flush t = true ∧ i ∈ ((cfg3.win 3).blk t).view.set := by
  have hi0 : (i 0).val < 50000 := (i 0).isLt
  have hi1 : (i 1).val < 40 := (i 1).isLt
  obtain ⟨t, ht⟩ := band_onto ⟨(i 0).val / 5000, by omega⟩
  have q0 : win3_3.index t (0 : Fin 2) = (i 0).val / 5000 := congrFun ht 0
  have q1 : win3_3.index t (1 : Fin 2) = 0 := congrFun ht 1
  refine ⟨t, flush3_3 t, ?_⟩
  rw [mem_band]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 40 ≤ (i 1).val ∧ (i 1).val < win3_3.index t (1 : Fin 2) * 40 + 40; omega

/-- The stage's result array, after the stage, is the affine form (rows scaled by the column, the row added) of the arrays it was entered with. -/
theorem result_eq (c : Dev nD) :
    (dat3 V c).arrAt 3 cfg3.N = affine (V c main_v41) (V c main_v42) (V c main_v43) :=
  (dat3 V c).arrAt_eq_of_cover 3 _ (fun t _ => written_eq V c t) covered

end Cert.KernelIdeal.Stage3

end
-- ==== Proof.LibWriteOnce.lean ====
/-
  A straight line of host operations in which every buffer is written at most once.

  When each operation of a list writes exactly one buffer, no buffer is written by two of them, and every operand of an
  operation is either never written or written earlier in the list, the fold of the operations' results over any starting
  contents is a fixed point at every written buffer: what the line leaves in an operation's result buffer is the operation's
  function of what the line leaves in its operands' buffers, and a buffer the line never writes holds what it held. Stated
  per kind of operation (no operand, one, two, n, three, four), with the side conditions `reference ∉ the buffers written from
  position k on`, which are decided on literal lists. This reads a long straight-line program one operation at a time, with
  no term ever holding the whole composition.
-/
import Idealize.ShloMosaic.Lib.StableHlo.Run

noncomputable section

/-! ## A straight line of operations in which every buffer is written at most once

Every operation of the reference's @main writes one buffer, no buffer is written twice, and every operand is written before
it is read. Then what the line leaves in an operation's result buffer is the operation's function of what the line leaves in
its operands' buffers, and a buffer the line never writes holds what it held. -/

namespace Cert.RefSSA

open Idealize.ShloMosaic Idealize.ShloMosaic.StableHlo

variable {τ : Topo} {sig : RefSig} {Val : EltTy → Type}

theorem after_app : ∀ (l₁ l₂ : List (HloOp τ sig Val)) (V : Valuation τ sig Val), after (l₁ ++ l₂) V = after l₂ (after l₁ V)
  | [], _, _ => rfl
  | op :: l₁, l₂, V => by rw [List.cons_append, after_cons, after_cons, after_app l₁ l₂]

/-- Position by position, the operation writes exactly the listed reference. -/
abbrev Writes (l : List (HloOp τ sig Val)) (wl : List (Ref sig .tc)) : Prop :=
  List.Forall₂ (fun op r => op.writes = {Proc.devRef (τ := τ) .tc r}) l wl

theorem writes_mem {l : List (HloOp τ sig Val)} {wl : List (Ref sig .tc)} (h : Writes l wl) {op : HloOp τ sig Val} (hop : op ∈ l) :
    ∃ r ∈ wl, op.writes = {Proc.devRef (τ := τ) .tc r} := by
  induction h with
  | nil => cases hop
  | @cons o r l' wl' hw _ ih =>
    rcases List.mem_cons.mp hop with rfl | hop
    · exact ⟨r, List.mem_cons.mpr (Or.inl rfl), hw⟩
    · obtain ⟨r', hr', e⟩ := ih hop
      exact ⟨r', List.mem_cons.mpr (Or.inr hr'), e⟩

/-- A reference that is not listed keeps its contents. -/
theorem after_keep {l : List (HloOp τ sig Val)} {wl : List (Ref sig .tc)} (h : Writes l wl) {r : Ref sig .tc} (hr : r ∉ wl)
    (V : Valuation τ sig Val) : after l V (Proc.devRef .tc r) = V (Proc.devRef .tc r) := by
  refine after_of_forall_not_mem l V fun op hop hb => ?_
  obtain ⟨r', hr', e⟩ := writes_mem h hop
  rw [e, Finset.mem_singleton] at hb
  exact hr (by rw [Proc.devRef_injective _ hb]; exact hr')

theorem after_take_drop (l : List (HloOp τ sig Val)) (k : ℕ) (V : Valuation τ sig Val) :
    after l V = after (l.drop k) (after (l.take k) V) := by
  rw [← after_app, List.take_append_drop]

theorem after_at {l : List (HloOp τ sig Val)} {k : ℕ} {op : HloOp τ sig Val} (hop : l[k]? = some op) (V : Valuation τ sig Val) :
    after l V = after (l.drop (k + 1)) (op.result (after (l.take k) V)) := by
  obtain ⟨hk, e⟩ := List.getElem?_eq_some_iff.mp hop
  rw [after_take_drop l k V, List.drop_eq_getElem_cons hk, e, after_cons]

section
variable {l : List (HloOp τ sig Val)} {wl : List (Ref sig .tc)} (h : Writes l wl) (V : Valuation τ sig Val) (k : ℕ)
include h

/-- An operand not written from position k on holds, at the end, what it held before position k. -/
theorem operand_eq {a : Ref sig .tc} (ha : a ∉ wl.drop k) :
    after l V (Proc.devRef .tc a) = after (l.take k) V (Proc.devRef .tc a) := by
  rw [after_take_drop l k V]
  exact after_keep (List.forall₂_drop k h) ha _

/-- The result of the operation at position k, not written afterwards, holds at the end what that operation left. -/
theorem result_eq {op : HloOp τ sig Val} (hop : l[k]? = some op) {y : Ref sig .tc} (hy : y ∉ wl.drop (k + 1)) :
    after l V (Proc.devRef .tc y) = op.result (after (l.take k) V) (Proc.devRef .tc y) := by
  rw [after_at hop V]
  exact after_keep (List.forall₂_drop (k + 1) h) hy _

theorem ssa_nullary {y : Ref sig .tc} {v : y.ty.Contents Val} {hy}
    (hop : l[k]? = some (nullary y v hy)) (hy' : y ∉ wl.drop (k + 1)) :
    after l V (Proc.devRef .tc y) = v := by
  rw [result_eq h V k hop hy', nullary_result]

theorem ssa_unary {x y : Ref sig .tc} {f : x.ty.Contents Val → y.ty.Contents Val} {hx hy}
    (hop : l[k]? = some (unary x y f hx hy)) (hy' : y ∉ wl.drop (k + 1)) (hx' : x ∉ wl.drop k)
    (vx : x.ty.Contents Val) (ex : after l V (Proc.devRef .tc x) = vx) :
    after l V (Proc.devRef .tc y) = f vx := by
  rw [result_eq h V k hop hy', unary_result, ← operand_eq h V k hx', ex]

theorem ssa_binary {a b y : Ref sig .tc} {f : a.ty.Contents Val → b.ty.Contents Val → y.ty.Contents Val} {ha hb hy}
    (hop : l[k]? = some (binary a b y f ha hb hy)) (hy' : y ∉ wl.drop (k + 1)) (ha' : a ∉ wl.drop k) (hb' : b ∉ wl.drop k)
    (va : a.ty.Contents Val) (vb : b.ty.Contents Val)
    (ea : after l V (Proc.devRef .tc a) = va) (eb : after l V (Proc.devRef .tc b) = vb) :
    after l V (Proc.devRef .tc y) = f va vb := by
  rw [result_eq h V k hop hy', binary_result, ← operand_eq h V k ha', ← operand_eq h V k hb', ea, eb]

theorem ssa_nary {n : ℕ} {xs : Fin n → Ref sig .tc} {y : Ref sig .tc}
    {f : ((i : Fin n) → (xs i).ty.Contents Val) → y.ty.Contents Val} {hxs hy}
    (hop : l[k]? = some (nary xs y f hxs hy)) (hy' : y ∉ wl.drop (k + 1)) (hx' : ∀ i, xs i ∉ wl.drop k)
    (vs : (i : Fin n) → (xs i).ty.Contents Val) (es : ∀ i, after l V (Proc.devRef .tc (xs i)) = vs i) :
    after l V (Proc.devRef .tc y) = f vs := by
  rw [result_eq h V k hop hy', nary_result]
  exact congrArg f (funext fun i => by rw [← operand_eq h V k (hx' i), es i])

theorem ssa_nary4 {x0 x1 x2 x3 y : Ref sig .tc}
    {f : ((i : Fin 4) → ((![x0, x1, x2, x3] : Fin 4 → Ref sig .tc) i).ty.Contents Val) → y.ty.Contents Val} {hxs hy}
    (hop : l[k]? = some (nary ![x0, x1, x2, x3] y f hxs hy)) (hy' : y ∉ wl.drop (k + 1))
    (h0 : x0 ∉ wl.drop k) (h1 : x1 ∉ wl.drop k) (h2 : x2 ∉ wl.drop k) (h3 : x3 ∉ wl.drop k)
    (v0 : x0.ty.Contents Val) (v1 : x1.ty.Contents Val) (v2 : x2.ty.Contents Val) (v3 : x3.ty.Contents Val)
    (e0 : after l V (Proc.devRef .tc x0) = v0) (e1 : after l V (Proc.devRef .tc x1) = v1)
    (e2 : after l V (Proc.devRef .tc x2) = v2) (e3 : after l V (Proc.devRef .tc x3) = v3) :
    after l V (Proc.devRef .tc y) = f (Fin.cons v0 (Fin.cons v1 (Fin.cons v2 (Fin.cons v3 (fun i => i.elim0))))) :=
  ssa_nary h V k hop hy' (fun i => by fin_cases i; exacts [h0, h1, h2, h3]) _ (fun i => by fin_cases i; exacts [e0, e1, e2, e3])

theorem ssa_nary3 {x0 x1 x2 y : Ref sig .tc}
    {f : ((i : Fin 3) → ((![x0, x1, x2] : Fin 3 → Ref sig .tc) i).ty.Contents Val) → y.ty.Contents Val} {hxs hy}
    (hop : l[k]? = some (nary ![x0, x1, x2] y f hxs hy)) (hy' : y ∉ wl.drop (k + 1))
    (h0 : x0 ∉ wl.drop k) (h1 : x1 ∉ wl.drop k) (h2 : x2 ∉ wl.drop k)
    (v0 : x0.ty.Contents Val) (v1 : x1.ty.Contents Val) (v2 : x2.ty.Contents Val)
    (e0 : after l V (Proc.devRef .tc x0) = v0) (e1 : after l V (Proc.devRef .tc x1) = v1)
    (e2 : after l V (Proc.devRef .tc x2) = v2) :
    after l V (Proc.devRef .tc y) = f (Fin.cons v0 (Fin.cons v1 (Fin.cons v2 (fun i => i.elim0)))) :=
  ssa_nary h V k hop hy' (fun i => by fin_cases i; exacts [h0, h1, h2]) _ (fun i => by fin_cases i; exacts [e0, e1, e2])

end

end Cert.RefSSA

end
-- ==== Proof.LibTypedRef.lean ====
/-
  Typed references: the two transports are inverse.

  A host function outlined by the tracer (a `where`, a `relu`, a `log_softmax`) is printed over typed references: each of
  its operations carries its operands from their buffers' own types to the values' types (`ofBuf`) and its result back
  (`toBuf`), both casts along the reference's type equation. Reading a chain of such operations back therefore leaves
  `ofBuf (toBuf v)` around every intermediate value; this is `v`, for any typed reference and any contents: the two
  casts are along one equation and its inverse.
-/
import Idealize.ShloMosaic.Lib.StableHlo

namespace Cert.Lib

open Idealize.ShloMosaic Idealize.ShloMosaic.StableHlo

variable {sig : RefSig} {Val : EltTy → Type} {T : BufTy}

/-- Contents carried to the buffer's own type and back are unchanged. -/
theorem ofBuf_toBuf (x : TRef sig T) (v : T.Contents Val) : x.ofBuf (x.toBuf v) = v := by
  obtain ⟨r, rfl, _, _⟩ := x
  rfl

/-- Contents of the buffer carried to the value's type and back are unchanged. -/
theorem toBuf_ofBuf (x : TRef sig T) (v : x.ref.ty.Contents Val) : x.toBuf (x.ofBuf v) = v := by
  obtain ⟨r, rfl, _, _⟩ := x
  rfl

end Cert.Lib
-- ==== Proof.KernelValue.lean ====
/-
  What the kernel program computes, as one function of its six arguments.

  The parts, named once: the source and target node ids of the edges with one self loop per node appended; a node's
  degree (the number of edges whose target it is — an edge whose target id is not a node's adds nowhere); the
  normalisation factor of a node, 1/√degree where the degree is positive and 0 elsewhere, as a vector and as a column;
  `spread`, one round of message passing (each edge reads its source's row, the source id wrapped once if negative and
  clamped into the array, and adds it into a zero array at its target's row); and the two layers — features times
  weights with rows scaled by the factor, spread along the edges, rows scaled by the factor again, bias added, the
  first layer clamped at zero.

  The program runs as ten segments. The contents of its buffers after each segment are a fold from the launch memory;
  the theorems below read that fold at one buffer per step: a stretch of host operations at a buffer it writes is the
  operations' term of the buffers it reads, at a buffer it does not write it changes nothing; a tiled stage writes its
  result array with its whole-array function of the arrays it was entered with and changes no other buffer. Read back
  from the last boundary, the result buffer holds `output` of the arguments.
-/
import proofs.«182121_j28802050687441_2_alg».proof.Proof.Gen.KernelIdeal.Frame
import proofs.«182121_j28802050687441_2_alg».proof.Proof.Stage0
import proofs.«182121_j28802050687441_2_alg».proof.Proof.Stage1
import proofs.«182121_j28802050687441_2_alg».proof.Proof.Stage2
import proofs.«182121_j28802050687441_2_alg».proof.Proof.Stage3
import Idealize.ShloMosaic.Lib.StableHlo.Run
import proofs.«182121_j28802050687441_2_alg».proof.Proof.LibWriteOnce
import proofs.«182121_j28802050687441_2_alg».proof.Proof.LibTypedRef

set_option maxRecDepth 16384

noncomputable section

namespace Cert.KernelIdeal.Net

open Idealize.ShloMosaic Idealize.ShloMosaic.TcCoe Idealize.SL.Sem
open Cert.KernelIdeal Cert.KernelIdeal.Gen Cert.GcnTiles

/-! ## The network's parts -/

/-- The edges' source ids, one self loop per node appended. -/
def srcIds (ei : IVec S2x800000 32) : IVec S850000 32 :=
  concatenate S850000 0 [⟨S800000, shapeCast S800000 (extractStridedSlice S1x800000 ![0, 0] ei slices_S2x800000_S1x800000_0_0)
    shapeCasts_S1x800000_S800000⟩, ⟨S50000, iotaInDim S50000 32 0⟩] concatenates_S800000_S50000_S850000_d0

/-- The edges' target ids, one self loop per node appended. -/
def dstIds (ei : IVec S2x800000 32) : IVec S850000 32 :=
  concatenate S850000 0 [⟨S800000, shapeCast S800000 (extractStridedSlice S1x800000 ![1, 0] ei slices_S2x800000_S1x800000_1_0)
    shapeCasts_S1x800000_S800000⟩, ⟨S50000, iotaInDim S50000 32 0⟩] concatenates_S800000_S50000_S850000_d0

/-- An id wrapped once if negative: 50000 added to it. -/
def wrapIds (I : IVec S850000 32) : IVec S850000 32 :=
  select (cmpi .slt I (broadcastInDim S850000 ![] bcast_S_S850000 (constantI S_ 32 0#32)))
    (addi I (broadcastInDim S850000 ![] bcast_S_S850000 (constantI S_ 32 50000#32))) I

/-- A vector of ids as one column. -/
def colIds (I : IVec S850000 32) : IVec S850000x1 32 := broadcastInDim S850000x1 ![0] bcast_S850000_S850000x1_0 I

/-- A node's degree: one added, from zero, for every edge whose target id it is. -/
def degree (ei : IVec S2x800000 32) : FVec Ideal S50000 .f32 :=
  Host.scatterAdd scatter_S50000_S850000x1_S850000_n_0_0_1
    (broadcastInDim S50000 ![] bcast_S_S50000 (constant S_ .f32 0x00000000#32)) (colIds (dstIds ei))
    (broadcastInDim S850000 ![] bcast_S_S850000 (constant S_ .f32 0x3F800000#32))

/-- A node's normalisation factor: 1/√degree where the degree is positive, 0 elsewhere. -/
def factor (ei : IVec S2x800000 32) : FVec Ideal S50000 .f32 :=
  select (cmpf .ogt (degree ei) (broadcastInDim S50000 ![] bcast_S_S50000 (constant S_ .f32 0x00000000#32)))
    (Host.rsqrt (degree ei)) (broadcastInDim S50000 ![] bcast_S_S50000 (id (constant S_ .f32 0x00000000#32)))

/-- The factor as one column. -/
def factorCol (ei : IVec S2x800000 32) : FVec Ideal S50000x1 .f32 := shapeCast S50000x1 (factor ei) shapeCasts_S50000_S50000x1

/-- One round of message passing on 128 columns: every edge adds its source's row at its target's row. -/
def spread128 (H : FVec Ideal S50000x128 .f32) (ei : IVec S2x800000 32) : FVec Ideal S50000x128 .f32 :=
  Host.scatterAdd scatter_S50000x128_S850000x1_S850000x128_1_0_0_1
    (broadcastInDim S50000x128 ![] bcast_S_S50000x128 (constant S_ .f32 0x00000000#32)) (colIds (dstIds ei))
    (Host.gather gather_S50000x128_S850000x1_S850000x128_1_0_n_n_0_1_1128 H (colIds (wrapIds (srcIds ei))))

/-- The same on 40 columns. -/
def spread40 (H : FVec Ideal S50000x40 .f32) (ei : IVec S2x800000 32) : FVec Ideal S50000x40 .f32 :=
  Host.scatterAdd scatter_S50000x40_S850000x1_S850000x40_1_0_0_1
    (broadcastInDim S50000x40 ![] bcast_S_S50000x40 (constant S_ .f32 0x00000000#32)) (colIds (dstIds ei))
    (Host.gather gather_S50000x40_S850000x1_S850000x40_1_0_n_n_0_1_140 H (colIds (wrapIds (srcIds ei))))

/-- The first layer's output. -/
def hidden (x : FVec Ideal S50000x128 .f32) (ei : IVec S2x800000 32) (w1 : FVec Ideal S128x128 .f32) (b1 : FVec Ideal S128 .f32) :
    FVec Ideal S50000x128 .f32 :=
  affineRelu (spread128 (scaledProd x w1 (factorCol ei)) ei) (factorCol ei) (shapeCast S1x128 b1 shapeCasts_S128_S1x128)

/-- The network's output. -/
def output (x : FVec Ideal S50000x128 .f32) (ei : IVec S2x800000 32) (w1 : FVec Ideal S128x128 .f32) (b1 : FVec Ideal S128 .f32)
    (w2 : FVec Ideal S128x40 .f32) (b2 : FVec Ideal S40 .f32) : FVec Ideal S50000x40 .f32 :=
  affine (spread40 (scaledProd (hidden x ei w1 b1) w2 (factorCol ei)) ei) (factorCol ei) (shapeCast S1x40 b2 shapeCasts_S40_S1x40)

/-! ## The boundaries' contents, one buffer at a time -/

variable (m : (ℓ : Loc nD τ sig) → Buf (Elt Ideal) ℓ) (ρ : Dev nD → PrngReg) (c : Dev nD)

/-- A buffer that no operation of a stretch writes holds after it what it held before. -/
macro "kept_by " ops:ident : tactic => `(tactic| exact StableHlo.after_of_forall_not_mem _ _ (List.forall_iff_forall_mem.mp (by
  simp only [$ops:ident, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide))))

/-! ### After the first stretch: ids, degree, its comparison and its reciprocal root -/

theorem W1_v5 : W1 m ρ c (Proc.devRef .tc main_v5) = srcIds (m ((c : Thread nD τ).loc main_arg1)) := by
  show StableHlo.after hostOps0 (W0 m ρ c) (Proc.devRef .tc main_v5) = _
  after_results; rfl
theorem W1_v6 : W1 m ρ c (Proc.devRef .tc main_v6) = dstIds (m ((c : Thread nD τ).loc main_arg1)) := by
  show StableHlo.after hostOps0 (W0 m ρ c) (Proc.devRef .tc main_v6) = _
  after_results; rfl
/-- The first seven operations of the first stretch leave the target ids in their buffer. -/
theorem ids_written : StableHlo.after (hostOps0.take (0+1+1+1+1+1+1+1)) (W0 m ρ c) (Proc.devRef .tc main_v6) = dstIds (m ((c : Thread nD τ).loc main_arg1)) := by
  simp only [hostOps0, List.take_succ_cons, List.take_zero]
  after_results; rfl
theorem W1_v12 : W1 m ρ c (Proc.devRef .tc main_v12) = cmpf .ogt (degree (m ((c : Thread nD τ).loc main_arg1))) (broadcastInDim S50000 ![] bcast_S_S50000 (constant (F := Ideal) S_ .f32 0x00000000#32)) := by
  have h6 := ids_written m ρ c
  show StableHlo.after hostOps0 (W0 m ρ c) (Proc.devRef .tc main_v12) = _
  rw [Cert.RefSSA.after_take_drop hostOps0 (0+1+1+1+1+1+1+1) (W0 m ρ c)]
  generalize StableHlo.after (hostOps0.take (0+1+1+1+1+1+1+1)) (W0 m ρ c) = V at h6 ⊢
  simp only [hostOps0, List.drop_succ_cons, List.drop_zero]
  after_results
  rw [h6]
  unfold degree colIds
  rfl
theorem W1_v13 : W1 m ρ c (Proc.devRef .tc main_v13) = Host.rsqrt (degree (m ((c : Thread nD τ).loc main_arg1))) := by
  have h6 := ids_written m ρ c
  show StableHlo.after hostOps0 (W0 m ρ c) (Proc.devRef .tc main_v13) = _
  rw [Cert.RefSSA.after_take_drop hostOps0 (0+1+1+1+1+1+1+1) (W0 m ρ c)]
  generalize StableHlo.after (hostOps0.take (0+1+1+1+1+1+1+1)) (W0 m ρ c) = V at h6 ⊢
  simp only [hostOps0, List.drop_succ_cons, List.drop_zero]
  after_results
  rw [h6]
  unfold degree colIds
  rfl
theorem W1_cst2 : W1 m ρ c (Proc.devRef .tc main_cst_2) = constant (F := Ideal) S_ .f32 0x00000000#32 := by
  show StableHlo.after hostOps0 (W0 m ρ c) (Proc.devRef .tc main_cst_2) = _
  after_results
theorem W1_arg0 : W1 m ρ c (Proc.devRef .tc main_arg0) = (m ((c : Thread nD τ).loc main_arg0)) := by
  show StableHlo.after hostOps0 (W0 m ρ c) (Proc.devRef .tc main_arg0) = _
  kept_by hostOps0
theorem W1_arg2 : W1 m ρ c (Proc.devRef .tc main_arg2) = (m ((c : Thread nD τ).loc main_arg2)) := by
  show StableHlo.after hostOps0 (W0 m ρ c) (Proc.devRef .tc main_arg2) = _
  kept_by hostOps0
theorem W1_arg3 : W1 m ρ c (Proc.devRef .tc main_arg3) = (m ((c : Thread nD τ).loc main_arg3)) := by
  show StableHlo.after hostOps0 (W0 m ρ c) (Proc.devRef .tc main_arg3) = _
  kept_by hostOps0
theorem W1_arg4 : W1 m ρ c (Proc.devRef .tc main_arg4) = (m ((c : Thread nD τ).loc main_arg4)) := by
  show StableHlo.after hostOps0 (W0 m ρ c) (Proc.devRef .tc main_arg4) = _
  kept_by hostOps0
theorem W1_arg5 : W1 m ρ c (Proc.devRef .tc main_arg5) = (m ((c : Thread nD τ).loc main_arg5)) := by
  show StableHlo.after hostOps0 (W0 m ρ c) (Proc.devRef .tc main_arg5) = _
  kept_by hostOps0

/-! ### After the call that picks the reciprocal root where the degree is positive: the factor -/
theorem W2_v14 : W2 m ρ c (Proc.devRef .tc main_v14) = factor (m ((c : Thread nD τ).loc main_arg1)) := by
  have h0 := W1_v12 m ρ c
  have h1 := W1_v13 m ρ c
  have h2 := W1_cst2 m ρ c
  show StableHlo.after hostOps0_1 (W1 m ρ c) (Proc.devRef .tc main_v14) = _
  generalize W1 m ρ c = V at h0 h1 h2 ⊢
  after_results
  simp only [Cert.Lib.ofBuf_toBuf]
  refine Eq.trans (?_ : _ = select (V (Proc.devRef .tc main_v12)) (V (Proc.devRef .tc main_v13))
    (broadcastInDim S50000 ![] bcast_S_S50000 (id (V (Proc.devRef .tc main_cst_2))))) ?_
  · rfl
  · rw [h0, h1, h2]
    unfold factor
    rfl
theorem W2_v5 : W2 m ρ c (Proc.devRef .tc main_v5) = srcIds (m ((c : Thread nD τ).loc main_arg1)) :=
  (by kept_by hostOps0_1 : W2 m ρ c (Proc.devRef .tc main_v5) = W1 m ρ c (Proc.devRef .tc main_v5)).trans (W1_v5 m ρ c)
theorem W2_v6 : W2 m ρ c (Proc.devRef .tc main_v6) = dstIds (m ((c : Thread nD τ).loc main_arg1)) :=
  (by kept_by hostOps0_1 : W2 m ρ c (Proc.devRef .tc main_v6) = W1 m ρ c (Proc.devRef .tc main_v6)).trans (W1_v6 m ρ c)
theorem W2_arg0 : W2 m ρ c (Proc.devRef .tc main_arg0) = (m ((c : Thread nD τ).loc main_arg0)) :=
  (by kept_by hostOps0_1 : W2 m ρ c (Proc.devRef .tc main_arg0) = W1 m ρ c (Proc.devRef .tc main_arg0)).trans (W1_arg0 m ρ c)
theorem W2_arg2 : W2 m ρ c (Proc.devRef .tc main_arg2) = (m ((c : Thread nD τ).loc main_arg2)) :=
  (by kept_by hostOps0_1 : W2 m ρ c (Proc.devRef .tc main_arg2) = W1 m ρ c (Proc.devRef .tc main_arg2)).trans (W1_arg2 m ρ c)
theorem W2_arg3 : W2 m ρ c (Proc.devRef .tc main_arg3) = (m ((c : Thread nD τ).loc main_arg3)) :=
  (by kept_by hostOps0_1 : W2 m ρ c (Proc.devRef .tc main_arg3) = W1 m ρ c (Proc.devRef .tc main_arg3)).trans (W1_arg3 m ρ c)
theorem W2_arg4 : W2 m ρ c (Proc.devRef .tc main_arg4) = (m ((c : Thread nD τ).loc main_arg4)) :=
  (by kept_by hostOps0_1 : W2 m ρ c (Proc.devRef .tc main_arg4) = W1 m ρ c (Proc.devRef .tc main_arg4)).trans (W1_arg4 m ρ c)
theorem W2_arg5 : W2 m ρ c (Proc.devRef .tc main_arg5) = (m ((c : Thread nD τ).loc main_arg5)) :=
  (by kept_by hostOps0_1 : W2 m ρ c (Proc.devRef .tc main_arg5) = W1 m ρ c (Proc.devRef .tc main_arg5)).trans (W1_arg5 m ρ c)
/-! ### After the reshape: the factor as a column, the first stage's third operand -/
theorem W3_v15 : W3 m ρ c (Proc.devRef .tc main_v15) = factorCol (m ((c : Thread nD τ).loc main_arg1)) := by
  have h := W2_v14 m ρ c
  show StableHlo.after hostOps0_2 (W2 m ρ c) (Proc.devRef .tc main_v15) = _
  generalize W2 m ρ c = V at h ⊢
  after_results
  calc _ = shapeCast S50000x1 (V (Proc.devRef .tc main_v14)) shapeCasts_S50000_S50000x1 := rfl
    _ = _ := by rw [h]; rfl
theorem W3_v5 : W3 m ρ c (Proc.devRef .tc main_v5) = srcIds (m ((c : Thread nD τ).loc main_arg1)) :=
  (by kept_by hostOps0_2 : W3 m ρ c (Proc.devRef .tc main_v5) = W2 m ρ c (Proc.devRef .tc main_v5)).trans (W2_v5 m ρ c)
theorem W3_v6 : W3 m ρ c (Proc.devRef .tc main_v6) = dstIds (m ((c : Thread nD τ).loc main_arg1)) :=
  (by kept_by hostOps0_2 : W3 m ρ c (Proc.devRef .tc main_v6) = W2 m ρ c (Proc.devRef .tc main_v6)).trans (W2_v6 m ρ c)
theorem W3_v14 : W3 m ρ c (Proc.devRef .tc main_v14) = factor (m ((c : Thread nD τ).loc main_arg1)) :=
  (by kept_by hostOps0_2 : W3 m ρ c (Proc.devRef .tc main_v14) = W2 m ρ c (Proc.devRef .tc main_v14)).trans (W2_v14 m ρ c)
theorem W3_arg0 : W3 m ρ c (Proc.devRef .tc main_arg0) = (m ((c : Thread nD τ).loc main_arg0)) :=
  (by kept_by hostOps0_2 : W3 m ρ c (Proc.devRef .tc main_arg0) = W2 m ρ c (Proc.devRef .tc main_arg0)).trans (W2_arg0 m ρ c)
theorem W3_arg2 : W3 m ρ c (Proc.devRef .tc main_arg2) = (m ((c : Thread nD τ).loc main_arg2)) :=
  (by kept_by hostOps0_2 : W3 m ρ c (Proc.devRef .tc main_arg2) = W2 m ρ c (Proc.devRef .tc main_arg2)).trans (W2_arg2 m ρ c)
theorem W3_arg3 : W3 m ρ c (Proc.devRef .tc main_arg3) = (m ((c : Thread nD τ).loc main_arg3)) :=
  (by kept_by hostOps0_2 : W3 m ρ c (Proc.devRef .tc main_arg3) = W2 m ρ c (Proc.devRef .tc main_arg3)).trans (W2_arg3 m ρ c)
theorem W3_arg4 : W3 m ρ c (Proc.devRef .tc main_arg4) = (m ((c : Thread nD τ).loc main_arg4)) :=
  (by kept_by hostOps0_2 : W3 m ρ c (Proc.devRef .tc main_arg4) = W2 m ρ c (Proc.devRef .tc main_arg4)).trans (W2_arg4 m ρ c)
theorem W3_arg5 : W3 m ρ c (Proc.devRef .tc main_arg5) = (m ((c : Thread nD τ).loc main_arg5)) :=
  (by kept_by hostOps0_2 : W3 m ρ c (Proc.devRef .tc main_arg5) = W2 m ρ c (Proc.devRef .tc main_arg5)).trans (W2_arg5 m ρ c)
/-! ### After the first tiled stage -/
theorem W4_v16 : W4 m ρ c (Proc.devRef .tc main_v16) = scaledProd (m ((c : Thread nD τ).loc main_arg0)) (m ((c : Thread nD τ).loc main_arg2)) (factorCol (m ((c : Thread nD τ).loc main_arg1))) := by
  refine (W4_arr m ρ c 3).trans ((Stage0.result_eq (V3 m ρ) c).trans ?_)
  rw [show V3 m ρ c main_arg0 = (m ((c : Thread nD τ).loc main_arg0)) from W3_arg0 m ρ c,
    show V3 m ρ c main_arg2 = (m ((c : Thread nD τ).loc main_arg2)) from W3_arg2 m ρ c,
    show V3 m ρ c main_v15 = factorCol (m ((c : Thread nD τ).loc main_arg1)) from W3_v15 m ρ c]
theorem W4_v5 : W4 m ρ c (Proc.devRef .tc main_v5) = srcIds (m ((c : Thread nD τ).loc main_arg1)) :=
  (W4_of_ne m ρ c main_v5 (by decide)).trans (W3_v5 m ρ c)
theorem W4_v6 : W4 m ρ c (Proc.devRef .tc main_v6) = dstIds (m ((c : Thread nD τ).loc main_arg1)) :=
  (W4_of_ne m ρ c main_v6 (by decide)).trans (W3_v6 m ρ c)
theorem W4_v14 : W4 m ρ c (Proc.devRef .tc main_v14) = factor (m ((c : Thread nD τ).loc main_arg1)) :=
  (W4_of_ne m ρ c main_v14 (by decide)).trans (W3_v14 m ρ c)
theorem W4_arg3 : W4 m ρ c (Proc.devRef .tc main_arg3) = (m ((c : Thread nD τ).loc main_arg3)) :=
  (W4_of_ne m ρ c main_arg3 (by decide)).trans (W3_arg3 m ρ c)
theorem W4_arg4 : W4 m ρ c (Proc.devRef .tc main_arg4) = (m ((c : Thread nD τ).loc main_arg4)) :=
  (W4_of_ne m ρ c main_arg4 (by decide)).trans (W3_arg4 m ρ c)
theorem W4_arg5 : W4 m ρ c (Proc.devRef .tc main_arg5) = (m ((c : Thread nD τ).loc main_arg5)) :=
  (W4_of_ne m ρ c main_arg5 (by decide)).trans (W3_arg5 m ρ c)
/-! ### After the first round of message passing -/
theorem W5_v26 : W5 m ρ c (Proc.devRef .tc main_v26) = spread128 (scaledProd (m ((c : Thread nD τ).loc main_arg0)) (m ((c : Thread nD τ).loc main_arg2)) (factorCol (m ((c : Thread nD τ).loc main_arg1)))) (m ((c : Thread nD τ).loc main_arg1)) := by
  have h0 := W4_v16 m ρ c
  have h1 := W4_v5 m ρ c
  have h2 := W4_v6 m ρ c
  show StableHlo.after hostOps1 (W4 m ρ c) (Proc.devRef .tc main_v26) = _
  generalize W4 m ρ c = V at h0 h1 h2 ⊢
  after_results
  rw [h0, h1, h2]
  unfold spread128 colIds wrapIds
  rfl
theorem W5_v27 : W5 m ρ c (Proc.devRef .tc main_v27) = factorCol (m ((c : Thread nD τ).loc main_arg1)) := by
  have h := W4_v14 m ρ c
  show StableHlo.after hostOps1 (W4 m ρ c) (Proc.devRef .tc main_v27) = _
  generalize W4 m ρ c = V at h ⊢
  after_results
  calc _ = shapeCast S50000x1 (V (Proc.devRef .tc main_v14)) shapeCasts_S50000_S50000x1 := rfl
    _ = _ := by rw [h]; rfl
theorem W5_v28 : W5 m ρ c (Proc.devRef .tc main_v28) = shapeCast S1x128 (m ((c : Thread nD τ).loc main_arg3)) shapeCasts_S128_S1x128 := by
  have h := W4_arg3 m ρ c
  show StableHlo.after hostOps1 (W4 m ρ c) (Proc.devRef .tc main_v28) = _
  generalize W4 m ρ c = V at h ⊢
  after_results
  calc _ = shapeCast S1x128 (V (Proc.devRef .tc main_arg3)) shapeCasts_S128_S1x128 := rfl
    _ = _ := by rw [h]
theorem W5_v5 : W5 m ρ c (Proc.devRef .tc main_v5) = srcIds (m ((c : Thread nD τ).loc main_arg1)) :=
  (by kept_by hostOps1 : W5 m ρ c (Proc.devRef .tc main_v5) = W4 m ρ c (Proc.devRef .tc main_v5)).trans (W4_v5 m ρ c)
theorem W5_v6 : W5 m ρ c (Proc.devRef .tc main_v6) = dstIds (m ((c : Thread nD τ).loc main_arg1)) :=
  (by kept_by hostOps1 : W5 m ρ c (Proc.devRef .tc main_v6) = W4 m ρ c (Proc.devRef .tc main_v6)).trans (W4_v6 m ρ c)
theorem W5_v14 : W5 m ρ c (Proc.devRef .tc main_v14) = factor (m ((c : Thread nD τ).loc main_arg1)) :=
  (by kept_by hostOps1 : W5 m ρ c (Proc.devRef .tc main_v14) = W4 m ρ c (Proc.devRef .tc main_v14)).trans (W4_v14 m ρ c)
theorem W5_arg4 : W5 m ρ c (Proc.devRef .tc main_arg4) = (m ((c : Thread nD τ).loc main_arg4)) :=
  (by kept_by hostOps1 : W5 m ρ c (Proc.devRef .tc main_arg4) = W4 m ρ c (Proc.devRef .tc main_arg4)).trans (W4_arg4 m ρ c)
theorem W5_arg5 : W5 m ρ c (Proc.devRef .tc main_arg5) = (m ((c : Thread nD τ).loc main_arg5)) :=
  (by kept_by hostOps1 : W5 m ρ c (Proc.devRef .tc main_arg5) = W4 m ρ c (Proc.devRef .tc main_arg5)).trans (W4_arg5 m ρ c)
/-! ### After the second tiled stage: the hidden features -/
theorem W6_v29 : W6 m ρ c (Proc.devRef .tc main_v29) = hidden (m ((c : Thread nD τ).loc main_arg0)) (m ((c : Thread nD τ).loc main_arg1)) (m ((c : Thread nD τ).loc main_arg2)) (m ((c : Thread nD τ).loc main_arg3)) := by
  refine (W6_arr m ρ c 3).trans ((Stage1.result_eq (V5 m ρ) c).trans ?_)
  rw [show V5 m ρ c main_v26 = spread128 (scaledProd (m ((c : Thread nD τ).loc main_arg0)) (m ((c : Thread nD τ).loc main_arg2)) (factorCol (m ((c : Thread nD τ).loc main_arg1)))) (m ((c : Thread nD τ).loc main_arg1)) from W5_v26 m ρ c,
    show V5 m ρ c main_v27 = factorCol (m ((c : Thread nD τ).loc main_arg1)) from W5_v27 m ρ c,
    show V5 m ρ c main_v28 = shapeCast S1x128 (m ((c : Thread nD τ).loc main_arg3)) shapeCasts_S128_S1x128 from W5_v28 m ρ c]
  unfold hidden
  rfl
theorem W6_v5 : W6 m ρ c (Proc.devRef .tc main_v5) = srcIds (m ((c : Thread nD τ).loc main_arg1)) :=
  (W6_of_ne m ρ c main_v5 (by decide)).trans (W5_v5 m ρ c)
theorem W6_v6 : W6 m ρ c (Proc.devRef .tc main_v6) = dstIds (m ((c : Thread nD τ).loc main_arg1)) :=
  (W6_of_ne m ρ c main_v6 (by decide)).trans (W5_v6 m ρ c)
theorem W6_v14 : W6 m ρ c (Proc.devRef .tc main_v14) = factor (m ((c : Thread nD τ).loc main_arg1)) :=
  (W6_of_ne m ρ c main_v14 (by decide)).trans (W5_v14 m ρ c)
theorem W6_arg4 : W6 m ρ c (Proc.devRef .tc main_arg4) = (m ((c : Thread nD τ).loc main_arg4)) :=
  (W6_of_ne m ρ c main_arg4 (by decide)).trans (W5_arg4 m ρ c)
theorem W6_arg5 : W6 m ρ c (Proc.devRef .tc main_arg5) = (m ((c : Thread nD τ).loc main_arg5)) :=
  (W6_of_ne m ρ c main_arg5 (by decide)).trans (W5_arg5 m ρ c)
/-! ### After the reshape before the third stage -/
theorem W7_v30 : W7 m ρ c (Proc.devRef .tc main_v30) = factorCol (m ((c : Thread nD τ).loc main_arg1)) := by
  have h := W6_v14 m ρ c
  show StableHlo.after hostOps2 (W6 m ρ c) (Proc.devRef .tc main_v30) = _
  generalize W6 m ρ c = V at h ⊢
  after_results
  calc _ = shapeCast S50000x1 (V (Proc.devRef .tc main_v14)) shapeCasts_S50000_S50000x1 := rfl
    _ = _ := by rw [h]; rfl
theorem W7_v29 : W7 m ρ c (Proc.devRef .tc main_v29) = hidden (m ((c : Thread nD τ).loc main_arg0)) (m ((c : Thread nD τ).loc main_arg1)) (m ((c : Thread nD τ).loc main_arg2)) (m ((c : Thread nD τ).loc main_arg3)) :=
  (by kept_by hostOps2 : W7 m ρ c (Proc.devRef .tc main_v29) = W6 m ρ c (Proc.devRef .tc main_v29)).trans (W6_v29 m ρ c)
theorem W7_v5 : W7 m ρ c (Proc.devRef .tc main_v5) = srcIds (m ((c : Thread nD τ).loc main_arg1)) :=
  (by kept_by hostOps2 : W7 m ρ c (Proc.devRef .tc main_v5) = W6 m ρ c (Proc.devRef .tc main_v5)).trans (W6_v5 m ρ c)
theorem W7_v6 : W7 m ρ c (Proc.devRef .tc main_v6) = dstIds (m ((c : Thread nD τ).loc main_arg1)) :=
  (by kept_by hostOps2 : W7 m ρ c (Proc.devRef .tc main_v6) = W6 m ρ c (Proc.devRef .tc main_v6)).trans (W6_v6 m ρ c)
theorem W7_v14 : W7 m ρ c (Proc.devRef .tc main_v14) = factor (m ((c : Thread nD τ).loc main_arg1)) :=
  (by kept_by hostOps2 : W7 m ρ c (Proc.devRef .tc main_v14) = W6 m ρ c (Proc.devRef .tc main_v14)).trans (W6_v14 m ρ c)
theorem W7_arg4 : W7 m ρ c (Proc.devRef .tc main_arg4) = (m ((c : Thread nD τ).loc main_arg4)) :=
  (by kept_by hostOps2 : W7 m ρ c (Proc.devRef .tc main_arg4) = W6 m ρ c (Proc.devRef .tc main_arg4)).trans (W6_arg4 m ρ c)
theorem W7_arg5 : W7 m ρ c (Proc.devRef .tc main_arg5) = (m ((c : Thread nD τ).loc main_arg5)) :=
  (by kept_by hostOps2 : W7 m ρ c (Proc.devRef .tc main_arg5) = W6 m ρ c (Proc.devRef .tc main_arg5)).trans (W6_arg5 m ρ c)
/-! ### After the third tiled stage -/
theorem W8_v31 : W8 m ρ c (Proc.devRef .tc main_v31) = scaledProd (hidden (m ((c : Thread nD τ).loc main_arg0)) (m ((c : Thread nD τ).loc main_arg1)) (m ((c : Thread nD τ).loc main_arg2)) (m ((c : Thread nD τ).loc main_arg3))) (m ((c : Thread nD τ).loc main_arg4)) (factorCol (m ((c : Thread nD τ).loc main_arg1))) := by
  refine (W8_arr m ρ c 3).trans ((Stage2.result_eq (V7 m ρ) c).trans ?_)
  rw [show V7 m ρ c main_v29 = hidden (m ((c : Thread nD τ).loc main_arg0)) (m ((c : Thread nD τ).loc main_arg1)) (m ((c : Thread nD τ).loc main_arg2)) (m ((c : Thread nD τ).loc main_arg3)) from W7_v29 m ρ c,
    show V7 m ρ c main_arg4 = (m ((c : Thread nD τ).loc main_arg4)) from W7_arg4 m ρ c,
    show V7 m ρ c main_v30 = factorCol (m ((c : Thread nD τ).loc main_arg1)) from W7_v30 m ρ c]
theorem W8_v5 : W8 m ρ c (Proc.devRef .tc main_v5) = srcIds (m ((c : Thread nD τ).loc main_arg1)) :=
  (W8_of_ne m ρ c main_v5 (by decide)).trans (W7_v5 m ρ c)
theorem W8_v6 : W8 m ρ c (Proc.devRef .tc main_v6) = dstIds (m ((c : Thread nD τ).loc main_arg1)) :=
  (W8_of_ne m ρ c main_v6 (by decide)).trans (W7_v6 m ρ c)
theorem W8_v14 : W8 m ρ c (Proc.devRef .tc main_v14) = factor (m ((c : Thread nD τ).loc main_arg1)) :=
  (W8_of_ne m ρ c main_v14 (by decide)).trans (W7_v14 m ρ c)
theorem W8_arg5 : W8 m ρ c (Proc.devRef .tc main_arg5) = (m ((c : Thread nD τ).loc main_arg5)) :=
  (W8_of_ne m ρ c main_arg5 (by decide)).trans (W7_arg5 m ρ c)
/-! ### After the second round of message passing -/
set_option maxHeartbeats 1000000 in
theorem W9_v41 : W9 m ρ c (Proc.devRef .tc main_v41) = spread40 (scaledProd (hidden (m ((c : Thread nD τ).loc main_arg0)) (m ((c : Thread nD τ).loc main_arg1)) (m ((c : Thread nD τ).loc main_arg2)) (m ((c : Thread nD τ).loc main_arg3))) (m ((c : Thread nD τ).loc main_arg4)) (factorCol (m ((c : Thread nD τ).loc main_arg1)))) (m ((c : Thread nD τ).loc main_arg1)) := by
  have h0 := W8_v31 m ρ c
  have h1 := W8_v5 m ρ c
  have h2 := W8_v6 m ρ c
  show StableHlo.after hostOps3 (W8 m ρ c) (Proc.devRef .tc main_v41) = _
  generalize W8 m ρ c = V at h0 h1 h2 ⊢
  after_results
  rw [h0, h1, h2]
  unfold spread40 colIds wrapIds
  rfl
theorem W9_v42 : W9 m ρ c (Proc.devRef .tc main_v42) = factorCol (m ((c : Thread nD τ).loc main_arg1)) := by
  have h := W8_v14 m ρ c
  show StableHlo.after hostOps3 (W8 m ρ c) (Proc.devRef .tc main_v42) = _
  generalize W8 m ρ c = V at h ⊢
  after_results
  calc _ = shapeCast S50000x1 (V (Proc.devRef .tc main_v14)) shapeCasts_S50000_S50000x1 := rfl
    _ = _ := by rw [h]; rfl
theorem W9_v43 : W9 m ρ c (Proc.devRef .tc main_v43) = shapeCast S1x40 (m ((c : Thread nD τ).loc main_arg5)) shapeCasts_S40_S1x40 := by
  have h := W8_arg5 m ρ c
  show StableHlo.after hostOps3 (W8 m ρ c) (Proc.devRef .tc main_v43) = _
  generalize W8 m ρ c = V at h ⊢
  after_results
  calc _ = shapeCast S1x40 (V (Proc.devRef .tc main_arg5)) shapeCasts_S40_S1x40 := rfl
    _ = _ := by rw [h]
/-! ### After the fourth tiled stage: the result -/
theorem W10_v44 : W10 m ρ c (Proc.devRef .tc main_v44) = output (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W10_arr m ρ c 3).trans ((Stage3.result_eq (V9 m ρ) c).trans ?_)
  rw [show V9 m ρ c main_v41 = spread40 (scaledProd (hidden (m ((c : Thread nD τ).loc main_arg0)) (m ((c : Thread nD τ).loc main_arg1)) (m ((c : Thread nD τ).loc main_arg2)) (m ((c : Thread nD τ).loc main_arg3))) (m ((c : Thread nD τ).loc main_arg4)) (factorCol (m ((c : Thread nD τ).loc main_arg1)))) (m ((c : Thread nD τ).loc main_arg1)) from W9_v41 m ρ c,
    show V9 m ρ c main_v42 = factorCol (m ((c : Thread nD τ).loc main_arg1)) from W9_v42 m ρ c,
    show V9 m ρ c main_v43 = shapeCast S1x40 (m ((c : Thread nD τ).loc main_arg5)) shapeCasts_S40_S1x40 from W9_v43 m ρ c]
  unfold output
  rfl

end Cert.KernelIdeal.Net

end
-- ==== Proof.RefValue.lean ====
/-
  What the reference program computes, as one function of its six arguments, with its parts named.

  The ids, the wrap of a negative id and the column layout are the kernel program's. The reference's degree counts an
  edge at its WRAPPED target id; its normalisation factor is 1/√degree where the degree is positive and 0 elsewhere;
  every edge carries the weight factor (wrapped source) · factor (wrapped target), each read at the id clamped into the
  array; one round gathers the source rows of a matrix, scales each edge's row by the edge's weight and adds it into a
  zero array at the edge's (unwrapped) target row; a layer is features times weights, one round, plus the bias row, and
  the first layer is clamped at zero. The program's run ends with its result buffer at exactly this term.
-/
import proofs.«182121_j28802050687441_2_alg».proof.Proof.RefRun
import Idealize.ShloMosaic.PureOps.Ideal

set_option maxRecDepth 16384

noncomputable section

namespace Cert.ReferenceIdeal.Net

open Idealize.ShloMosaic Idealize.ShloMosaic.TcCoe Idealize.SL.Sem
open Cert.ReferenceIdeal Cert.ReferenceIdeal.Gen

/-- The edges' source ids, one self loop per node appended. -/
def srcIds (ei : IVec S2x800000 32) : IVec S850000 32 :=
  concatenate S850000 0 [⟨S800000, shapeCast S800000 (extractStridedSlice S1x800000 ![0, 0] ei slices_S2x800000_S1x800000_0_0)
    shapeCasts_S1x800000_S800000⟩, ⟨S50000, iotaInDim S50000 32 0⟩] concatenates_S800000_S50000_S850000_d0

/-- The edges' target ids, one self loop per node appended. -/
def dstIds (ei : IVec S2x800000 32) : IVec S850000 32 :=
  concatenate S850000 0 [⟨S800000, shapeCast S800000 (extractStridedSlice S1x800000 ![1, 0] ei slices_S2x800000_S1x800000_1_0)
    shapeCasts_S1x800000_S800000⟩, ⟨S50000, iotaInDim S50000 32 0⟩] concatenates_S800000_S50000_S850000_d0

/-- An id wrapped once if negative: 50000 added to it. -/
def wrapIds (I : IVec S850000 32) : IVec S850000 32 :=
  select (cmpi .slt I (broadcastInDim S850000 ![] bcast_S_S850000 (constantI S_ 32 0#32)))
    (addi I (broadcastInDim S850000 ![] bcast_S_S850000 (constantI S_ 32 50000#32))) I

/-- A vector of ids as one column. -/
def colIds (I : IVec S850000 32) : IVec S850000x1 32 := broadcastInDim S850000x1 ![0] bcast_S850000_S850000x1_0 I

/-- A node's degree over the target ids `T`: one added, from zero, for every edge whose id in `T` it is. -/
def degreeOver (T : IVec S850000 32) : FVec Ideal S50000 .f32 :=
  Host.scatterAdd scatter_S50000_S850000x1_S850000_n_0_0_1
    (broadcastInDim S50000 ![] bcast_S_S50000 (constant S_ .f32 0x00000000#32)) (colIds T)
    (broadcastInDim S850000 ![] bcast_S_S850000 (constant S_ .f32 0x3F800000#32))

/-- The normalisation factor from a degree: 1/√degree where the degree is positive, 0 elsewhere. -/
def factorOf (d : FVec Ideal S50000 .f32) : FVec Ideal S50000 .f32 :=
  select (cmpf (F := Ideal) .ogt d (broadcastInDim S50000 ![] bcast_S_S50000 (constant S_ .f32 0x00000000#32)))
    (Host.rsqrt d) (broadcastInDim S50000 ![] bcast_S_S50000 (id (constant S_ .f32 0x00000000#32)))

/-- The reference's factor: from the degree over the WRAPPED target ids. -/
def factor (ei : IVec S2x800000 32) : FVec Ideal S50000 .f32 := factorOf (degreeOver (wrapIds (dstIds ei)))

/-- An edge's weight: the factor at its wrapped source times the factor at its wrapped target. -/
def edgeWeight (ei : IVec S2x800000 32) : FVec Ideal S850000 .f32 :=
  mulf (Host.gather gather_S50000_S850000x1_S850000_n_0_n_n_0_1_1 (factor ei) (colIds (wrapIds (srcIds ei))))
    (Host.gather gather_S50000_S850000x1_S850000_n_0_n_n_0_1_1 (factor ei) (colIds (wrapIds (dstIds ei))))

/-- One weighted round on 128 columns. -/
def round128 (H : FVec Ideal S50000x128 .f32) (ei : IVec S2x800000 32) : FVec Ideal S50000x128 .f32 :=
  Host.scatterAdd scatter_S50000x128_S850000x1_S850000x128_1_0_0_1
    (broadcastInDim S50000x128 ![] bcast_S_S50000x128 (constant S_ .f32 0x00000000#32)) (colIds (dstIds ei))
    (mulf (Host.gather gather_S50000x128_S850000x1_S850000x128_1_0_n_n_0_1_1128 H (colIds (wrapIds (srcIds ei))))
      (broadcastInDim S850000x128 ![0, 1] bcast_S850000x1_S850000x128_0_1
        (broadcastInDim S850000x1 ![0] bcast_S850000_S850000x1_0 (edgeWeight ei))))

/-- One weighted round on 40 columns. -/
def round40 (H : FVec Ideal S50000x40 .f32) (ei : IVec S2x800000 32) : FVec Ideal S50000x40 .f32 :=
  Host.scatterAdd scatter_S50000x40_S850000x1_S850000x40_1_0_0_1
    (broadcastInDim S50000x40 ![] bcast_S_S50000x40 (constant S_ .f32 0x00000000#32)) (colIds (dstIds ei))
    (mulf (Host.gather gather_S50000x40_S850000x1_S850000x40_1_0_n_n_0_1_140 H (colIds (wrapIds (srcIds ei))))
      (broadcastInDim S850000x40 ![0, 1] bcast_S850000x1_S850000x40_0_1
        (broadcastInDim S850000x1 ![0] bcast_S850000_S850000x1_0 (edgeWeight ei))))

/-- The first layer's output. -/
def hidden (x : FVec Ideal S50000x128 .f32) (ei : IVec S2x800000 32) (w1 : FVec Ideal S128x128 .f32) (b1 : FVec Ideal S128 .f32) :
    FVec Ideal S50000x128 .f32 :=
  maximumf (addf (round128 (Host.dotGeneral dot_S50000x128_S128x128_S50000x128_1_0_0_1_n_n none x w1) ei)
      (broadcastInDim S50000x128 ![0, 1] bcast_S1x128_S50000x128_0_1 (broadcastInDim S1x128 ![1] bcast_S128_S1x128_1 b1)))
    (broadcastInDim S50000x128 ![] bcast_S_S50000x128 (constant S_ .f32 0x00000000#32))

/-- The network's output. -/
def output (x : FVec Ideal S50000x128 .f32) (ei : IVec S2x800000 32) (w1 : FVec Ideal S128x128 .f32) (b1 : FVec Ideal S128 .f32)
    (w2 : FVec Ideal S128x40 .f32) (b2 : FVec Ideal S40 .f32) : FVec Ideal S50000x40 .f32 :=
  addf (round40 (Host.dotGeneral dot_S50000x128_S128x40_S50000x40_1_0_0_1_n_n none (hidden x ei w1 b1) w2) ei)
    (broadcastInDim S50000x40 ![0, 1] bcast_S1x40_S50000x40_0_1 (broadcastInDim S1x40 ![1] bcast_S40_S1x40_1 b2))

/-- The term the program's run ends with at its result buffer is `output` of the arguments. -/
theorem result_eq (m : (ℓ : Loc nD τ sig) → Buf (Elt Ideal) ℓ) (c : Dev nD) :
    Cert.ReferenceIdeal.ValueP.res_main_v84 (F := Ideal) m c
      = output (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.ValueP.res_main_v84 output hidden round40 round128 edgeWeight factor factorOf degreeOver colIds wrapIds
    srcIds dstIds
  rfl

end Cert.ReferenceIdeal.Net

end
-- ==== Proof.TargetIds.lean ====
/-
  What the precondition says of the target ids, and what follows for the wrap.

  The precondition's last conjunct is "every entry of row 1 of the edge list is ≥ 0" (signed). The target ids are that
  row followed by one self loop per node, node n's self loop carrying the id n < 50000; so every target id is ≥ 0,
  and an id that is ≥ 0 is left alone by the wrap (which adds 50000 to NEGATIVE ids only). Hence the wrapped target
  ids are the target ids, and the reference's degree — which counts an edge at its wrapped target — counts it at its
  target, as the kernel's does.
-/
import proofs.«182121_j28802050687441_2_alg».proof.Proof.RefValue
import proofs.«182121_j28802050687441_2_alg».proof.Proof.Gen.Pre_finite_inputs
import Idealize.ShloMosaic.Lib.ReduceAll
import Idealize.ShloMosaic.Lib.Pipeline.Value
import Idealize.ShloMosaic.Lib.ValueIdx
import Idealize.ShloMosaic.Lib.Affine

set_option maxRecDepth 16384

noncomputable section

namespace Cert.ReferenceIdeal.Net

open Idealize.ShloMosaic Idealize.ShloMosaic.ValueIdx
open Cert.ReferenceIdeal Cert.ReferenceIdeal.Gen

instance : Subsingleton Cert.Pre_finite_inputs.S_.Idx := ⟨fun a b => funext fun d => d.elim0⟩

/-- A signed word that is ≥ 0 by the word comparison is a nonnegative integer. -/
theorem toInt_nonneg_of_sge {w : BitVec 32} (h : IntOp.cmpi .sge w 0#32 = 1#1) : 0 ≤ w.toInt := by
  have e : IntOp.cmpi .sge w 0#32 = BitVec.ofBool ((0#32).sle w) := rfl
  have hb : (0#32).sle w = true := by
    cases hc : (0#32).sle w
    · rw [e, hc] at h; exact absurd h (by decide)
    · rfl
  have := BitVec.sle_iff_toInt_le.mp hb
  simpa using this

/-- The precondition, read at row 1 of the edge list: every entry is ≥ 0. -/
theorem row_nonneg [Cert.Pre_finite_inputs.Facts] (a0 : FVec Ideal Cert.Pre_finite_inputs.S50000x128 .f32)
    (a1 : IVec Cert.Pre_finite_inputs.S2x800000 32) (a2 : FVec Ideal Cert.Pre_finite_inputs.S128x128 .f32)
    (a3 : FVec Ideal Cert.Pre_finite_inputs.S128 .f32) (a4 : FVec Ideal Cert.Pre_finite_inputs.S128x40 .f32)
    (a5 : FVec Ideal Cert.Pre_finite_inputs.S40 .f32)
    (h : Cert.Pre_finite_inputs.fn (F := Ideal) a0 a1 a2 a3 a4 a5 = fun _ => 1#1) (e : Cert.Pre_finite_inputs.S800000.Idx) :
    0 ≤ (shapeCast Cert.Pre_finite_inputs.S800000
      (extractStridedSlice Cert.Pre_finite_inputs.S1x800000 ![1, 0] a1 Cert.Pre_finite_inputs.Facts.slices_S2x800000_S1x800000_1_0)
      Cert.Pre_finite_inputs.Facts.shapeCasts_S1x800000_S800000 e).toInt := by
  have h0 := congrFun h ix0
  unfold Cert.Pre_finite_inputs.fn at h0
  dsimp only at h0
  unfold Cert.Pre_finite_inputs.fn_part1 at h0
  dsimp only at h0
  have h1 := (IntOp.andi_eq_one.mp h0).2
  have h2 := Host.reduce_andi_all _ _ _ _ ix0 h1 e
  exact toInt_nonneg_of_sge h2

/-- Every target id is ≥ 0 when every entry of row 1 of the edge list is. -/
theorem dstIds_nonneg (a1 : IVec S2x800000 32)
    (hrow : ∀ e : S800000.Idx, 0 ≤ (shapeCast S800000 (extractStridedSlice S1x800000 ![1, 0] a1 slices_S2x800000_S1x800000_1_0)
      shapeCasts_S1x800000_S800000 e).toInt) (j : S850000.Idx) : 0 ≤ (dstIds a1 j).toInt := by
  unfold dstIds
  have hlt : (j 0).val < 850000 := (j 0).isLt
  by_cases hj : (j 0).val < 800000
  · rw [concatenate_pair_apply_left (t := S850000) (s₁ := S800000) (s₂ := S50000) (0 : Fin 1) _ _
      concatenates_S800000_S50000_S850000_d0 j rfl (ix1 (⟨(j 0).val, hj⟩ : Fin 800000))
      (fun b => by obtain rfl : b = 0 := Subsingleton.elim _ _; rfl)]
    exact hrow _
  · rw [concatenate_pair_apply_right (t := S850000) (s₁ := S800000) (s₂ := S50000) (0 : Fin 1) _ _
      concatenates_S800000_S50000_S850000_d0 j rfl rfl
      (ix1 (⟨(j 0).val - 800000, by omega⟩ : Fin 50000)) (fun b hb => absurd (Subsingleton.elim _ _) hb)
      (by show (j 0).val - 800000 + 800000 = (j 0).val; omega)]
    show 0 ≤ (BitVec.ofNat 32 ((j 0).val - 800000)).toInt
    have hn : ((j 0).val - 800000) % 2 ^ 32 = (j 0).val - 800000 := Nat.mod_eq_of_lt (by omega)
    unfold BitVec.toInt
    rw [BitVec.toNat_ofNat, hn]
    split <;> omega

/-- Ids that are all ≥ 0 are left alone by the wrap. -/
theorem wrapIds_eq (I : IVec S850000 32) (h : ∀ j, 0 ≤ (I j).toInt) : wrapIds I = I := by
  funext j
  unfold wrapIds
  rw [select_apply]
  have hc : cmpi .slt I (broadcastInDim S850000 ![] bcast_S_S850000 (constantI S_ 32 0#32)) j = 0#1 := by
    show IntOp.cmpi .slt (I j) 0#32 = 0#1
    have e : IntOp.cmpi .slt (I j) 0#32 = BitVec.ofBool ((I j).slt 0#32) := rfl
    rw [e]
    have hf : (I j).slt 0#32 = false := by
      cases hs : (I j).slt 0#32
      · rfl
      · have := BitVec.slt_iff_toInt_lt.mp hs
        have h0 := h j
        simp at this
        omega
    rw [hf]; rfl
  rw [hc]; rfl

/-- Under the precondition the wrapped target ids are the target ids. -/
theorem wrap_dstIds [Cert.Pre_finite_inputs.Facts] (a0 : FVec Ideal S50000x128 .f32) (a1 : IVec S2x800000 32)
    (a2 : FVec Ideal S128x128 .f32) (a3 : FVec Ideal S128 .f32) (a4 : FVec Ideal S128x40 .f32) (a5 : FVec Ideal S40 .f32)
    (h : Cert.Pre_finite_inputs.fn (F := Ideal) a0 a1 a2 a3 a4 a5 = fun _ => 1#1) :
    wrapIds (dstIds a1) = dstIds a1 :=
  wrapIds_eq _ (dstIds_nonneg a1 (fun e => row_nonneg a0 a1 a2 a3 a4 a5 h e))

end Cert.ReferenceIdeal.Net

end
-- ==== Proof.LibSegment.lean ====
/-
  Rows picked out of an array by a column of integer indices, and rows added into an array at a column of
  integer indices, read at an index.

  A column `idx : [M, 1]` of integers names, for each of `M` edges, one of `N` rows.
  * Picking (`x[idx]`, a `stablehlo.gather` with one collapsed axis): edge `e` reads row `idx[e, 0]`, the integer
    taken signed and clamped into `[0, N - 1]` — for a flat array `[N]` (`gather_entries_apply`) and for an array
    of rows `[N, D]` (`gather_rows_apply`).
  * Adding (`zeros.at[idx].add(upd)`, a `stablehlo.scatter` whose body adds): at the exact extended reals, row `n`
    of the result is the operand's row plus the sum of the updates of exactly those edges whose integer, taken
    signed and NOT clamped, is `n`; an edge whose integer is outside `[0, N)` contributes nowhere — for a flat
    array (`scatterAdd_entries_apply`) and for rows (`scatterAdd_rows_apply`).
  Both are stated for any extents, over the dimension numbers spelt out as `entryDims`, `rowDims`, `entryAddDims`,
  `rowAddDims`; a program's own record of the same numbers is one of these by `rfl`.
-/
import Idealize.ShloMosaic.PureOps.Ideal
import Idealize.ShloMosaic.Lib.ValueIdx

noncomputable section

open scoped BigOperators

namespace Cert.LibSegment

open Idealize.ShloMosaic Idealize.ShloMosaic.ValueIdx

variable {α : Type}

/-- The entry `(e, 0)` of a column `[M, 1]`. -/
abbrev colIdx {M : Nat} (e : Fin M) : (⟨2, ![M, 1]⟩ : Shape).Idx := ix2 e (⟨0, Nat.one_pos⟩ : Fin 1)

/-- An integer word taken signed and clamped into `[0, N - 1]`: the row a gather reads. -/
def clampRow (N : Nat) (hN : 0 < N) {w : Nat} (v : BitVec w) : Fin N := ⟨min v.toInt.toNat (N - 1), by omega⟩

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

/-! ## Picking entries of a flat array -/

/-- The dimension numbers of `x[idx]` for `x : [N]`, `idx : [M, 1]`, result `[M]`. -/
abbrev entryDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- Edge `e` of `x[idx]` is `x` at the clamped integer `idx[e, 0]`. -/
theorem gather_entries_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (entryDims N M wf) x idx (ix1 e) = x (ix1 (clampRow N hN (idx (colIdx e)))) := by
  unfold Host.gather
  congr 1
  funext a
  obtain rfl : a = 0 := Subsingleton.elim _ _
  refine Fin.ext ?_
  show (entryDims N M wf).start (ix1 e) idx 0 + (entryDims N M wf).batchCoord (ix1 e) 0
    + (entryDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entryDims N M wf).startIndexMap from List.mem_singleton.mpr rfl)]
  have hsi : (entryDims N M wf).siIdx (ix1 e) ⟨List.idxOf (0 : Fin 1) (entryDims N M wf).startIndexMap,
      List.idxOf_lt_length_iff.2 (List.mem_singleton.mpr rfl)⟩ = colIdx e := by
    funext b; refine Fin.ext ?_
    match b with
    | ⟨0, _⟩ => rfl
    | ⟨1, _⟩ => rfl
  rw [hsi]
  rfl

/-! ## Picking rows -/

/-- The dimension numbers of `x[idx]` for `x : [N, D]`, `idx : [M, 1]`, result `[M, D]`: whole rows. -/
abbrev rowDims (N D M : Nat) (wf : GatherDims.WF ⟨2, ![N, D]⟩ ⟨2, ![M, 1]⟩ ⟨2, ![M, D]⟩ [1] [0] [] [0] [] 1 ![1, D]) :
    GatherDims ⟨2, ![N, D]⟩ ⟨2, ![M, 1]⟩ ⟨2, ![M, D]⟩ where
  offsetDims := [1]
  collapsedSliceDims := [0]
  operandBatchingDims := []
  startIndicesBatchingDims := []
  startIndexMap := [0]
  indexVectorDim := 1
  sliceSizes := ![1, D]
  wf := wf

/-- Entry `(e, j)` of the picked rows is `x` at row (the clamped integer `idx[e, 0]`), column `j`. -/
theorem gather_rows_apply {N D M w : Nat} (hN : 0 < N)
    (wf : GatherDims.WF ⟨2, ![N, D]⟩ ⟨2, ![M, 1]⟩ ⟨2, ![M, D]⟩ [1] [0] [] [0] [] 1 ![1, D])
    (x : (⟨2, ![N, D]⟩ : Shape).Idx → α) (idx : IVec ⟨2, ![M, 1]⟩ w) (e : Fin M) (j : Fin D) :
    Host.gather (rowDims N D M wf) x idx (ix2 e j) = x (ix2 (clampRow N hN (idx (colIdx e))) j) := by
  unfold Host.gather
  congr 1
  funext a
  refine Fin.ext ?_
  match a with
  | ⟨0, _⟩ =>
    show (rowDims N D M wf).start (ix2 e j) idx 0 + (rowDims N D M wf).batchCoord (ix2 e j) 0
      + (rowDims N D M wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D M wf).startIndexMap from List.mem_singleton.mpr rfl)]
    have hsi : (rowDims N D M wf).siIdx (ix2 e j) ⟨List.idxOf (0 : Fin 2) (rowDims N D M wf).startIndexMap,
        List.idxOf_lt_length_iff.2 (List.mem_singleton.mpr rfl)⟩ = colIdx e := by
      funext b; refine Fin.ext ?_
      match b with
      | ⟨0, _⟩ => rfl
      | ⟨1, _⟩ => rfl
    rw [hsi]
    rfl
  | ⟨1, _⟩ =>
    show (rowDims N D M wf).start (ix2 e j) idx 1 + (rowDims N D M wf).batchCoord (ix2 e j) 1
      + (rowDims N D M wf).offCoord (ix2 e j) 1 = j.val
    rw [GatherDims.batchCoord_eq_zero _ _ _ List.not_mem_nil]
    have hs : (rowDims N D M wf).start (ix2 e j) idx 1 = 0 := by
      unfold GatherDims.start
      rw [dif_neg (show (1 : Fin 2) ∉ [(0 : Fin 2)] from by decide)]
    have hk : (1 : Fin 2) ∈ (rowDims N D M wf).sKept :=
      show (1 : Fin 2) ∈ (List.finRange 2).filter (· ∉ [(0 : Fin 2)] ++ []) from by decide
    rw [hs]
    unfold GatherDims.offCoord
    rw [dif_pos hk]
    simp only [Nat.zero_add, Nat.add_zero]
    rfl

/-! ## Adding entries into a flat array -/

/-- The dimension numbers of `x.at[idx].add(upd)` for `x : [N]`, `idx : [M, 1]`, `upd : [M]`. -/
abbrev entryAddDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Where edge `e`'s update lands: at its integer, signed. -/
theorem entryAdd_pos {N M w : Nat} (wf : ScatterDims.WF ⟨1, ![N]⟩ ⟨2, ![M, 1]⟩ ⟨1, ![M]⟩ [] [0] [0] 1)
    (idx : IVec ⟨2, ![M, 1]⟩ w) (e : Fin M) (a : Fin 1) :
    (entryAddDims N M wf).start (ix1 e) idx a + ((entryAddDims N M wf).window (ix1 e) a : Int)
      = (idx (colIdx e)).toInt := by
  obtain rfl : a = 0 := Subsingleton.elim _ _
  have hw : (entryAddDims N M wf).window (ix1 e) 0 = 0 := by
    unfold ScatterDims.window
    have hk : (0 : Fin 1) ∉ (entryAddDims N M wf).sKept :=
      show (0 : Fin 1) ∉ (List.finRange 1).filter (· ∉ [(0 : Fin 1)]) from by decide
    rw [dif_neg hk]
  rw [hw]
  unfold ScatterDims.start
  rw [dif_pos (show (0 : Fin 1) ∈ (entryAddDims N M wf).scatterDimsToOperandDims from List.mem_singleton.mpr rfl)]
  have hsi : (entryAddDims N M wf).siIdx (ix1 e) ⟨List.idxOf (0 : Fin 1) (entryAddDims N M wf).scatterDimsToOperandDims,
      List.idxOf_lt_length_iff.2 (List.mem_singleton.mpr rfl)⟩ = colIdx e := by
    funext b; refine Fin.ext ?_
    match b with
    | ⟨0, _⟩ => rfl
    | ⟨1, _⟩ => rfl
  rw [hsi]
  simp

/-- Edge `e`'s update lands on entry `n` exactly when its integer, signed, is `n`. -/
theorem entryAdd_resultIdx_iff {N M w : Nat} (wf : ScatterDims.WF ⟨1, ![N]⟩ ⟨2, ![M, 1]⟩ ⟨1, ![M]⟩ [] [0] [0] 1)
    (idx : IVec ⟨2, ![M, 1]⟩ w) (e : Fin M) (n : Fin N) :
    (entryAddDims N M wf).resultIdx? (ix1 e) idx = some (ix1 n) ↔ (idx (colIdx e)).toInt = (n.val : Int) := by
  unfold ScatterDims.resultIdx?
  constructor
  · intro h
    split at h
    · next hb =>
      have h0 := congrArg Fin.val (congrFun (Option.some.inj h) 0)
      have h1 := (hb 0).1
      simp only [entryAdd_pos] at h0 h1
      have h2 : (idx (colIdx e)).toInt.toNat = n.val := h0
      omega
    · exact absurd h (by simp)
  · intro h
    have hb : ∀ a, 0 ≤ (entryAddDims N M wf).start (ix1 e) idx a + ((entryAddDims N M wf).window (ix1 e) a : Int)
        ∧ (entryAddDims N M wf).start (ix1 e) idx a + ((entryAddDims N M wf).window (ix1 e) a : Int)
          < ((⟨1, ![N]⟩ : Shape).size a : Int) := by
      intro a
      obtain rfl : a = 0 := Subsingleton.elim _ _
      rw [entryAdd_pos, h]
      exact ⟨Int.natCast_nonneg _, by exact_mod_cast n.isLt⟩
    rw [dif_pos hb]
    congr 1
    funext a
    obtain rfl : a = 0 := Subsingleton.elim _ _
    refine Fin.ext ?_
    show ((entryAddDims N M wf).start (ix1 e) idx 0 + ((entryAddDims N M wf).window (ix1 e) 0 : Int)).toNat = n.val
    rw [entryAdd_pos, h]
    simp

/-- Entry `n` after the additions: the operand's entry plus the updates of the edges whose integer is `n`. -/
theorem scatterAdd_entries_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal) (n : Fin N) :
    Ideal.hostScatterAdd (entryAddDims N M wf) x idx upd (ix1 n)
      = x (ix1 n) + ∑ e ∈ Finset.univ.filter (fun e : Fin M => (idx (colIdx e)).toInt = (n.val : Int)), upd (ix1 e) := by
  unfold Ideal.hostScatterAdd
  congr 1
  rw [Finset.sum_filter, Finset.sum_filter]
  refine Fintype.sum_equiv idxEquiv1 _ _ (fun i => ?_)
  rw [eq_ix1 i]
  exact if_congr (entryAdd_resultIdx_iff wf idx (i 0) n) rfl rfl

/-- The same for the host operation as a program prints it. -/
theorem hostScatterAdd_entries_apply {N M w : Nat} {φ : FTy}
    (wf : ScatterDims.WF ⟨1, ![N]⟩ ⟨2, ![M, 1]⟩ ⟨1, ![M]⟩ [] [0] [0] 1)
    (x : FVec Ideal ⟨1, ![N]⟩ φ) (idx : IVec ⟨2, ![M, 1]⟩ w) (upd : FVec Ideal ⟨1, ![M]⟩ φ) (n : Fin N) :
    Host.scatterAdd (F := Ideal) (entryAddDims N M wf) x idx upd (ix1 n)
      = x (ix1 n) + ∑ e ∈ Finset.univ.filter (fun e : Fin M => (idx (colIdx e)).toInt = (n.val : Int)), upd (ix1 e) := by
  unfold Host.scatterAdd
  rw [Ideal.hostScatterAdd_def]
  exact scatterAdd_entries_apply wf x idx upd n

/-! ## Adding rows -/

/-- The dimension numbers of `x.at[idx].add(upd)` for `x : [N, D]`, `idx : [M, 1]`, `upd : [M, D]`: whole rows. -/
abbrev rowAddDims (N D M : Nat) (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ where
  updateWindowDims := [1]
  insertedWindowDims := [0]
  scatterDimsToOperandDims := [0]
  indexVectorDim := 1
  wf := wf

/-- Where entry `(e, c)` of the updates lands, row coordinate: at edge `e`'s integer, signed. -/
theorem rowAdd_pos0 {N D M w : Nat} (wf : ScatterDims.WF ⟨2, ![N, D]⟩ ⟨2, ![M, 1]⟩ ⟨2, ![M, D]⟩ [1] [0] [0] 1)
    (idx : IVec ⟨2, ![M, 1]⟩ w) (e : Fin M) (c : Fin D) :
    (rowAddDims N D M wf).start (ix2 e c) idx 0 + ((rowAddDims N D M wf).window (ix2 e c) 0 : Int)
      = (idx (colIdx e)).toInt := by
  have hw : (rowAddDims N D M wf).window (ix2 e c) 0 = 0 := by
    unfold ScatterDims.window
    have hk : (0 : Fin 2) ∉ (rowAddDims N D M wf).sKept :=
      show (0 : Fin 2) ∉ (List.finRange 2).filter (· ∉ [(0 : Fin 2)]) from by decide
    rw [dif_neg hk]
  rw [hw]
  unfold ScatterDims.start
  rw [dif_pos (show (0 : Fin 2) ∈ (rowAddDims N D M wf).scatterDimsToOperandDims from List.mem_singleton.mpr rfl)]
  have hsi : (rowAddDims N D M wf).siIdx (ix2 e c) ⟨List.idxOf (0 : Fin 2) (rowAddDims N D M wf).scatterDimsToOperandDims,
      List.idxOf_lt_length_iff.2 (List.mem_singleton.mpr rfl)⟩ = colIdx e := by
    funext b; refine Fin.ext ?_
    match b with
    | ⟨0, _⟩ => rfl
    | ⟨1, _⟩ => rfl
  rw [hsi]
  simp

/-- Where entry `(e, c)` of the updates lands, column coordinate: at `c`. -/
theorem rowAdd_pos1 {N D M w : Nat} (wf : ScatterDims.WF ⟨2, ![N, D]⟩ ⟨2, ![M, 1]⟩ ⟨2, ![M, D]⟩ [1] [0] [0] 1)
    (idx : IVec ⟨2, ![M, 1]⟩ w) (e : Fin M) (c : Fin D) :
    (rowAddDims N D M wf).start (ix2 e c) idx 1 + ((rowAddDims N D M wf).window (ix2 e c) 1 : Int) = (c.val : Int) := by
  have hs : (rowAddDims N D M wf).start (ix2 e c) idx 1 = 0 := by
    unfold ScatterDims.start
    rw [dif_neg (show (1 : Fin 2) ∉ [(0 : Fin 2)] from by decide)]
  have hw : (rowAddDims N D M wf).window (ix2 e c) 1 = c.val := by
    unfold ScatterDims.window
    have hk : (1 : Fin 2) ∈ (rowAddDims N D M wf).sKept :=
      show (1 : Fin 2) ∈ (List.finRange 2).filter (· ∉ [(0 : Fin 2)]) from by decide
    rw [dif_pos hk]
    rfl
  rw [hs, hw]
  simp

/-- Entry `(e, c)` of the updates lands on `(n, j)` exactly when edge `e`'s integer, signed, is `n` and `c = j`. -/
theorem rowAdd_resultIdx_iff {N D M w : Nat} (wf : ScatterDims.WF ⟨2, ![N, D]⟩ ⟨2, ![M, 1]⟩ ⟨2, ![M, D]⟩ [1] [0] [0] 1)
    (idx : IVec ⟨2, ![M, 1]⟩ w) (e : Fin M) (c : Fin D) (n : Fin N) (j : Fin D) :
    (rowAddDims N D M wf).resultIdx? (ix2 e c) idx = some (ix2 n j)
      ↔ (idx (colIdx e)).toInt = (n.val : Int) ∧ c = j := by
  unfold ScatterDims.resultIdx?
  constructor
  · intro h
    split at h
    · next hb =>
      have h0 := congrArg Fin.val (congrFun (Option.some.inj h) 0)
      have h1 := congrArg Fin.val (congrFun (Option.some.inj h) 1)
      have h2 := (hb 0).1
      simp only [rowAdd_pos0] at h0 h2
      simp only [rowAdd_pos1] at h1
      have h3 : (idx (colIdx e)).toInt.toNat = n.val := h0
      have h4 : ((c.val : Int)).toNat = j.val := h1
      refine ⟨by omega, Fin.ext (by simpa using h4)⟩
    · exact absurd h (by simp)
  · rintro ⟨h, rfl⟩
    have hb : ∀ a, 0 ≤ (rowAddDims N D M wf).start (ix2 e c) idx a + ((rowAddDims N D M wf).window (ix2 e c) a : Int)
        ∧ (rowAddDims N D M wf).start (ix2 e c) idx a + ((rowAddDims N D M wf).window (ix2 e c) a : Int)
          < ((⟨2, ![N, D]⟩ : Shape).size a : Int) := by
      intro a
      match a with
      | ⟨0, _⟩ =>
        show 0 ≤ (rowAddDims N D M wf).start (ix2 e c) idx 0 + ((rowAddDims N D M wf).window (ix2 e c) 0 : Int)
          ∧ (rowAddDims N D M wf).start (ix2 e c) idx 0 + ((rowAddDims N D M wf).window (ix2 e c) 0 : Int) < (N : Int)
        rw [rowAdd_pos0, h]
        exact ⟨Int.natCast_nonneg _, by exact_mod_cast n.isLt⟩
      | ⟨1, _⟩ =>
        show 0 ≤ (rowAddDims N D M wf).start (ix2 e c) idx 1 + ((rowAddDims N D M wf).window (ix2 e c) 1 : Int)
          ∧ (rowAddDims N D M wf).start (ix2 e c) idx 1 + ((rowAddDims N D M wf).window (ix2 e c) 1 : Int) < (D : Int)
        rw [rowAdd_pos1]
        exact ⟨Int.natCast_nonneg _, by exact_mod_cast c.isLt⟩
    rw [dif_pos hb]
    congr 1
    funext a
    refine Fin.ext ?_
    match a with
    | ⟨0, _⟩ =>
      show ((rowAddDims N D M wf).start (ix2 e c) idx 0 + ((rowAddDims N D M wf).window (ix2 e c) 0 : Int)).toNat = n.val
      rw [rowAdd_pos0, h]; simp
    | ⟨1, _⟩ =>
      show ((rowAddDims N D M wf).start (ix2 e c) idx 1 + ((rowAddDims N D M wf).window (ix2 e c) 1 : Int)).toNat = c.val
      rw [rowAdd_pos1]; simp

/-- Entry `(n, j)` after the additions: the operand's entry plus column `j` of the updates of the edges whose
    integer is `n`. -/
theorem scatterAdd_rows_apply {N D M w : Nat} (wf : ScatterDims.WF ⟨2, ![N, D]⟩ ⟨2, ![M, 1]⟩ ⟨2, ![M, D]⟩ [1] [0] [0] 1)
    (x : (⟨2, ![N, D]⟩ : Shape).Idx → EReal) (idx : IVec ⟨2, ![M, 1]⟩ w) (upd : (⟨2, ![M, D]⟩ : Shape).Idx → EReal)
    (n : Fin N) (j : Fin D) :
    Ideal.hostScatterAdd (rowAddDims N D M wf) x idx upd (ix2 n j)
      = x (ix2 n j) + ∑ e ∈ Finset.univ.filter (fun e : Fin M => (idx (colIdx e)).toInt = (n.val : Int)), upd (ix2 e j) := by
  unfold Ideal.hostScatterAdd
  congr 1
  rw [Finset.sum_filter, Finset.sum_filter, sum_idx2]
  refine Finset.sum_congr rfl (fun e _ => ?_)
  by_cases hA : (idx (colIdx e)).toInt = (n.val : Int)
  · rw [if_pos hA]
    rw [Finset.sum_eq_single j]
    · rw [if_pos ((rowAdd_resultIdx_iff wf idx e j n j).mpr ⟨hA, rfl⟩)]
    · intro c _ hc
      rw [if_neg (fun h => hc ((rowAdd_resultIdx_iff wf idx e c n j).mp h).2)]
    · intro h; exact absurd (Finset.mem_univ j) h
  · rw [if_neg hA]
    refine Finset.sum_eq_zero (fun c _ => ?_)
    rw [if_neg (fun h => hA ((rowAdd_resultIdx_iff wf idx e c n j).mp h).1)]

/-- The same for the host operation as a program prints it. -/
theorem hostScatterAdd_rows_apply {N D M w : Nat} {φ : FTy}
    (wf : ScatterDims.WF ⟨2, ![N, D]⟩ ⟨2, ![M, 1]⟩ ⟨2, ![M, D]⟩ [1] [0] [0] 1)
    (x : FVec Ideal ⟨2, ![N, D]⟩ φ) (idx : IVec ⟨2, ![M, 1]⟩ w) (upd : FVec Ideal ⟨2, ![M, D]⟩ φ) (n : Fin N) (j : Fin D) :
    Host.scatterAdd (F := Ideal) (rowAddDims N D M wf) x idx upd (ix2 n j)
      = x (ix2 n j) + ∑ e ∈ Finset.univ.filter (fun e : Fin M => (idx (colIdx e)).toInt = (n.val : Int)), upd (ix2 e j) := by
  unfold Host.scatterAdd
  rw [Ideal.hostScatterAdd_def]
  exact scatterAdd_rows_apply wf x idx upd n j

end Cert.LibSegment

end
-- ==== Proof.LibAggregate.lean ====
/-
  Sums over edges and sums over features exchange, for real entries.

  A graph layer adds, into node `n`, the rows `a e` of the edges `e` of a set `S` (those that point at `n`), each scaled
  by a weight `c e`. Multiplying the result by a matrix column `w` afterwards,

      ∑ k, (z + ∑ e ∈ S, a e k * c e) * w k,

  or multiplying every row by the column first and adding up the scaled products,

      z + ∑ e ∈ S, (∑ k, a e k * w k) * c e,

  is the same number when `z = 0` and every `a e k`, `c e`, `w k` is a real: then both are finite sums of reals, where
  multiplication distributes over addition and the order of summation is free. On the extended reals this needs the
  entries to be real — with an infinite weight the inner sums could be `+∞ + -∞` — which is why the statement carries
  the three hypotheses. Also here: a finite sum of reals is the real sum (`coe_sum`), so it is a real (`sum_real`);
  products and the larger of two reals are reals.
-/
import Idealize.ShloMosaic.PureOps.Ideal

noncomputable section

open scoped BigOperators

namespace Cert.LibAggregate

/-- The real sum, read as an extended real, is the sum of the terms read as extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is a real. -/
theorem sum_real {ι : Type*} (s : Finset ι) (f : ι → EReal) (h : ∀ i ∈ s, ∃ r : ℝ, f i = r) : ∃ r : ℝ, ∑ i ∈ s, f i = r := by
  classical
  induction s using Finset.induction_on with
  | empty => exact ⟨0, by simp⟩
  | insert a s ha ih =>
    obtain ⟨r, hr⟩ := ih (fun i hi => h i (Finset.mem_insert_of_mem hi))
    obtain ⟨q, hq⟩ := h a (Finset.mem_insert_self a s)
    exact ⟨q + r, by rw [Finset.sum_insert ha, hr, hq, EReal.coe_add]⟩

/-- A product of reals is a real. -/
theorem mul_real {x y : EReal} (hx : ∃ r : ℝ, x = r) (hy : ∃ r : ℝ, y = r) : ∃ r : ℝ, x * y = r := by
  obtain ⟨a, rfl⟩ := hx; obtain ⟨b, rfl⟩ := hy; exact ⟨a * b, (EReal.coe_mul a b).symm⟩

/-- A sum of two reals is a real. -/
theorem add_real {x y : EReal} (hx : ∃ r : ℝ, x = r) (hy : ∃ r : ℝ, y = r) : ∃ r : ℝ, x + y = r := by
  obtain ⟨a, rfl⟩ := hx; obtain ⟨b, rfl⟩ := hy; exact ⟨a + b, (EReal.coe_add a b).symm⟩

/-- The larger of two reals is a real. -/
theorem max_real {x y : EReal} (hx : ∃ r : ℝ, x = r) (hy : ∃ r : ℝ, y = r) : ∃ r : ℝ, max x y = r := by
  rcases le_total x y with h | h
  · rw [max_eq_right h]; exact hy
  · rw [max_eq_left h]; exact hx

/-- Edges first, then the column — or the column first, then the edges: the same, for real entries. -/
theorem edges_then_column {E K : Type*} [Fintype K] (S : Finset E) (a : E → K → EReal) (c : E → EReal) (w : K → EReal)
    (ha : ∀ e k, ∃ r : ℝ, a e k = r) (hc : ∀ e, ∃ r : ℝ, c e = r) (hw : ∀ k, ∃ r : ℝ, w k = r) :
    ∑ k, (0 + ∑ e ∈ S, a e k * c e) * w k = 0 + ∑ e ∈ S, (∑ k, a e k * w k) * c e := by
  choose A hA using ha
  choose C hC using hc
  choose W hW using hw
  simp only [hA, hC, hW, zero_add, ← EReal.coe_mul, ← coe_sum]
  refine congrArg _ ?_
  simp only [Finset.sum_mul]
  rw [Finset.sum_comm]
  exact Finset.sum_congr rfl fun e _ => Finset.sum_congr rfl fun k _ => by ring

end Cert.LibAggregate

end
-- ==== Proof.LibGraphRound.lean ====
/-
  One round of message passing, read at an index, and its exchange with a matrix product.

  The edges of the graph are numbered by `Fin M`. Edge `e` has a source row, named by the integer `rowcol (e, 0)`
  taken signed and clamped into the array, a target row, named by the integer `colcol (e, 0)` taken signed (an edge
  whose target is outside the array contributes nowhere), and a weight `nrm e`. One round `agg H` gathers the source
  rows of the node features `H` (N × D), scales each by its edge's weight, and adds them into a zero array at the target
  rows. Entry (n, j) of the result is

      0 + ∑ over the edges e whose target is n of H (source e, j) · nrm e          (`agg_apply`).

  When the features, the weights of the edges and a matrix `W` (D × D') are real, aggregating and then multiplying by
  `W` is multiplying by `W` and then aggregating (`matProd_agg`): both are finite sums of products of reals, in which
  the product distributes and the two sums exchange.
-/
import proofs.«182121_j28802050687441_2_alg».proof.Proof.LibSegment
import proofs.«182121_j28802050687441_2_alg».proof.Proof.LibMatProd
import proofs.«182121_j28802050687441_2_alg».proof.Proof.LibAggregate
import Idealize.ShloMosaic.Lib.Pipeline.Value
import Idealize.ShloMosaic.Lib.ValueIdx
import Idealize.ShloMosaic.PureOps.Ideal.Laws

noncomputable section

open scoped BigOperators

namespace Cert.Graph

open Idealize.ShloMosaic Idealize.ShloMosaic.ValueIdx Cert.LibSegment Cert.LibMatProd Cert.LibAggregate

variable {α : Type}

/-- A vector `[a]` laid out as a column `[a, 1]` reads, at (p, u), the vector at p. -/
theorem bcast_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) :=
  broadcastInDim_apply _ h x _ (ix1 p) (fun ax => match ax with
    | ⟨0, _⟩ => by
      show p.val = if a = 1 then 0 else p.val
      split
      · have := p.isLt; omega
      · rfl)

/-- A column `[a, 1]` repeated along the rows to `[a, b]` reads, at (p, c), the column at p. -/
theorem bcast_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) :=
  broadcastInDim_apply _ h v _ (ix2 p (0 : Fin 1)) (fun ax => match ax with
    | ⟨0, _⟩ => by
      show p.val = if a = 1 then 0 else p.val
      split
      · have := p.isLt; omega
      · rfl
    | ⟨1, _⟩ => by
      show (0 : ℕ) = if (1 : ℕ) = 1 then 0 else c.val
      rw [if_pos rfl])

/-- One round of message passing: gather the source rows, scale by the edge weights, add at the target rows. -/
def agg {N D M : ℕ} (wfg : GatherDims.WF ⟨2, ![N, D]⟩ ⟨2, ![M, 1]⟩ ⟨2, ![M, D]⟩ [1] [0] [] [0] [] 1 ![1, D])
    (wfs : ScatterDims.WF ⟨2, ![N, D]⟩ ⟨2, ![M, 1]⟩ ⟨2, ![M, D]⟩ [1] [0] [0] 1)
    (hz : (⟨0, ![]⟩ : Shape).BroadcastsInDim ⟨2, ![N, D]⟩ ![])
    (hc : (⟨1, ![M]⟩ : Shape).BroadcastsInDim ⟨2, ![M, 1]⟩ ![0])
    (hr : (⟨2, ![M, 1]⟩ : Shape).BroadcastsInDim ⟨2, ![M, D]⟩ ![0, 1])
    (H : FVec Ideal ⟨2, ![N, D]⟩ .f32) (rowcol colcol : IVec ⟨2, ![M, 1]⟩ 32) (nrm : FVec Ideal ⟨1, ![M]⟩ .f32) :
    FVec Ideal ⟨2, ![N, D]⟩ .f32 :=
  Host.scatterAdd (F := Ideal) (rowAddDims N D M wfs)
    (broadcastInDim ⟨2, ![N, D]⟩ ![] hz (constant (F := Ideal) ⟨0, ![]⟩ .f32 0x00000000#32)) colcol
    (mulf (Host.gather (rowDims N D M wfg) H rowcol)
      (broadcastInDim ⟨2, ![M, D]⟩ ![0, 1] hr (broadcastInDim ⟨2, ![M, 1]⟩ ![0] hc nrm)))

/-- Entry (n, j) after one round: the sum, over the edges whose target is n, of the source row's entry j times the
    edge's weight. -/
theorem agg_apply {N D M : ℕ} (hN : 0 < N) (wfg : GatherDims.WF ⟨2, ![N, D]⟩ ⟨2, ![M, 1]⟩ ⟨2, ![M, D]⟩ [1] [0] [] [0] [] 1 ![1, D])
    (wfs : ScatterDims.WF ⟨2, ![N, D]⟩ ⟨2, ![M, 1]⟩ ⟨2, ![M, D]⟩ [1] [0] [0] 1)
    (hz : (⟨0, ![]⟩ : Shape).BroadcastsInDim ⟨2, ![N, D]⟩ ![])
    (hc : (⟨1, ![M]⟩ : Shape).BroadcastsInDim ⟨2, ![M, 1]⟩ ![0])
    (hr : (⟨2, ![M, 1]⟩ : Shape).BroadcastsInDim ⟨2, ![M, D]⟩ ![0, 1])
    (H : FVec Ideal ⟨2, ![N, D]⟩ .f32) (rowcol colcol : IVec ⟨2, ![M, 1]⟩ 32) (nrm : FVec Ideal ⟨1, ![M]⟩ .f32)
    (n : Fin N) (j : Fin D) :
    agg wfg wfs hz hc hr H rowcol colcol nrm (ix2 n j)
      = 0 + ∑ e ∈ Finset.univ.filter (fun e : Fin M => (colcol (colIdx e)).toInt = (n.val : Int)),
          H (ix2 (clampRow N hN (rowcol (colIdx e))) j) * nrm (ix1 e) := by
  unfold agg
  rw [hostScatterAdd_rows_apply]
  refine congrArg₂ (· + ·) ?_ (Finset.sum_congr rfl fun e _ => ?_)
  · rw [broadcastInDim_apply _ hz _ (ix2 n j) ix0 (fun a => a.elim0)]
    exact Ideal.ofBits_zero_f32
  · rw [mulf_apply, gather_rows_apply hN, bcast_a1_ab_apply, bcast_a_a1_apply]

/-- Aggregating and then multiplying by a matrix is multiplying and then aggregating, for real entries. -/
theorem matProd_agg {N D D' M : ℕ} (hN : 0 < N)
    (wfg : GatherDims.WF ⟨2, ![N, D]⟩ ⟨2, ![M, 1]⟩ ⟨2, ![M, D]⟩ [1] [0] [] [0] [] 1 ![1, D])
    (wfs : ScatterDims.WF ⟨2, ![N, D]⟩ ⟨2, ![M, 1]⟩ ⟨2, ![M, D]⟩ [1] [0] [0] 1)
    (hz : (⟨0, ![]⟩ : Shape).BroadcastsInDim ⟨2, ![N, D]⟩ ![])
    (hr : (⟨2, ![M, 1]⟩ : Shape).BroadcastsInDim ⟨2, ![M, D]⟩ ![0, 1])
    (wfg' : GatherDims.WF ⟨2, ![N, D']⟩ ⟨2, ![M, 1]⟩ ⟨2, ![M, D']⟩ [1] [0] [] [0] [] 1 ![1, D'])
    (wfs' : ScatterDims.WF ⟨2, ![N, D']⟩ ⟨2, ![M, 1]⟩ ⟨2, ![M, D']⟩ [1] [0] [0] 1)
    (hz' : (⟨0, ![]⟩ : Shape).BroadcastsInDim ⟨2, ![N, D']⟩ ![])
    (hr' : (⟨2, ![M, 1]⟩ : Shape).BroadcastsInDim ⟨2, ![M, D']⟩ ![0, 1])
    (hc : (⟨1, ![M]⟩ : Shape).BroadcastsInDim ⟨2, ![M, 1]⟩ ![0])
    (X : FVec Ideal ⟨2, ![N, D]⟩ .f32) (W : FVec Ideal ⟨2, ![D, D']⟩ .f32)
    (rowcol colcol : IVec ⟨2, ![M, 1]⟩ 32) (nrm : FVec Ideal ⟨1, ![M]⟩ .f32)
    (hX : ∀ i, ∃ r : ℝ, X i = r) (hW : ∀ i, ∃ r : ℝ, W i = r) (hn : ∀ i, ∃ r : ℝ, nrm i = r) :
    matProd (agg wfg wfs hz hc hr X rowcol colcol nrm) W = agg wfg' wfs' hz' hc hr' (matProd X W) rowcol colcol nrm := by
  funext i
  obtain ⟨n, j, rfl⟩ : ∃ (n : Fin N) (j : Fin D'), i = ix2 n j := ⟨i 0, i 1, eq_ix2 i⟩
  rw [matProd_apply, agg_apply hN]
  simp only [agg_apply hN, matProd_apply]
  exact edges_then_column _ (fun e k => X (ix2 (clampRow N hN (rowcol (colIdx e))) k)) (fun e => nrm (ix1 e))
    (fun k => W (ix2 k j)) (fun e k => hX _) (fun e => hn _) (fun k => hW _)

end Cert.Graph

end
-- ==== Proof.LibColumn.lean ====
/-
  Layout operations on a COLUMN, read at an index: a vector `[a]` viewed as a one-column matrix `[a, 1]`, a
  one-column matrix broadcast along its rows to `[a, b]`, and a `[1, 1, a]` array viewed as one row `[1, a]`.
  (The row forms — `[1, b] → [a, b]`, a leading unit axis added or dropped — are in the library; these are their
  column counterparts, which every row reduction that keeps its axis meets.) Also: the comparison of two row
  indices below `2^32`, as 32-bit words, is the comparison of the indices.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a]` array cast to `[1, a]` reads, at `(u, i)`, the operand at `(0, 0, i)`. -/
theorem shapeCast_11a_1a_apply {a : ℕ} (x : (⟨3, ![1, 1, a]⟩ : Shape).Idx → α) (h : (⟨3, ![1, 1, a]⟩ : Shape).ShapeCasts ⟨2, ![1, a]⟩)
    (u : Fin 1) (i : Fin a) : shapeCast ⟨2, ![1, a]⟩ x h (ix2 u i) = x (ix3 (0 : Fin 1) (0 : Fin 1) i) :=
  shapeCast_apply x h _ _ (by
    have hu : u.val = 0 := by omega
    rw [Shape.rowMajor_val_three, Shape.rowMajor_val_two]
    show (0 * 1 + 0) * a + i.val = u.val * a + i.val
    rw [hu])

/-- Two indices below `2^32` are equal exactly when their 32-bit words are: the word of the comparison is `1` on
    the diagonal and `0` off it. -/
theorem cmpi_eq_ofNat {n : ℕ} (hn : n ≤ 2 ^ 32) (l k : Fin n) :
    IntOp.cmpi .eq (BitVec.ofNat 32 l.val) (BitVec.ofNat 32 k.val) = if l = k then 1#1 else 0#1 := by
  have hl : l.val < 2 ^ 32 := lt_of_lt_of_le l.isLt hn
  have hk : k.val < 2 ^ 32 := lt_of_lt_of_le k.isLt hn
  have hiff : BitVec.ofNat 32 l.val = BitVec.ofNat 32 k.val ↔ l = k := by
    constructor
    · intro h
      have h' := congrArg BitVec.toNat h
      rw [BitVec.toNat_ofNat, BitVec.toNat_ofNat, Nat.mod_eq_of_lt hl, Nat.mod_eq_of_lt hk] at h'
      exact Fin.ext h'
    · rintro rfl; rfl
  unfold IntOp.cmpi
  by_cases h : l = k
  · subst h; simp
  · have hne : ¬ BitVec.ofNat 32 l.val = BitVec.ofNat 32 k.val := fun e => h (hiff.mp e)
    have hb : (BitVec.ofNat 32 l.val == BitVec.ofNat 32 k.val) = false := beq_eq_false_iff_ne.mpr hne
    rw [if_neg h]
    show BitVec.ofBool (BitVec.ofNat 32 l.val == BitVec.ofNat 32 k.val) = 0#1
    rw [hb]
    rfl

end Cert.LibColumn
-- ==== Proof.LibScaleSum.lean ====
/-
  A finite nonnegative factor across a finite sum of extended reals, over an abstract index type. On the extended
  reals multiplication does not distribute over addition in general (an infinite factor against terms of both
  signs), but a factor that is nonnegative and not `⊤` does distribute, whatever the signs of the terms and even
  when some of them are infinite. So a scale applied to every term of a sum, or to one operand of every product in
  a sum of products, may be applied once to the total, with no finiteness assumption on the terms.
-/
import Mathlib.Data.EReal.Operations
import Mathlib.Data.EReal.Inv
import Mathlib.Algebra.BigOperators.Group.Finset.Basic

namespace Cert.LibScaleSum

/-- A common right factor `c` with `0 ≤ c`, `c ≠ ⊤` moves across a finite sum of extended reals of any sign. -/
theorem sum_mul_of_nonneg_of_ne_top {ι : Type*} (s : Finset ι) (f : ι → EReal) {c : EReal} (hc : 0 ≤ c)
    (hc' : c ≠ ⊤) : ∑ i ∈ s, f i * c = (∑ i ∈ s, f i) * c := by
  classical
  induction s using Finset.induction_on with
  | empty => simp
  | insert a s ha ih =>
    rw [Finset.sum_insert ha, Finset.sum_insert ha, ih, EReal.right_distrib_of_nonneg_of_ne_top hc hc']

/-- A sum of products whose left operands are all scaled by `c` (`0 ≤ c`, `c ≠ ⊤`) is the sum of the products,
    scaled once: `∑ i, (a i * c) * b i = (∑ i, a i * b i) * c`. -/
theorem sum_scaled_mul {ι : Type*} (s : Finset ι) (a b : ι → EReal) {c : EReal} (hc : 0 ≤ c) (hc' : c ≠ ⊤) :
    ∑ i ∈ s, (a i * c) * b i = (∑ i ∈ s, a i * b i) * c := by
  rw [← sum_mul_of_nonneg_of_ne_top s _ hc hc']
  exact Finset.sum_congr rfl fun i _ => mul_right_comm (a i) c (b i)

end Cert.LibScaleSum
-- ==== Proof.GcnLaw.lean ====
/-
  The two facts about extended reals that join the two arrangements of a graph-convolution round.

  A round sends to node n the sum, over the edges e that end at n, of a message a e. With the symmetric normalisation
  each message carries the factor d (source of e) · d n, where d is the reciprocal square root of a degree. One
  arrangement multiplies every message by both factors before the sum; the other multiplies by d (source of e) before
  the sum and by d n once after it. On the extended reals a common factor moves across a sum only when it is
  nonnegative and not ⊤ (an infinite factor against terms of both signs does not distribute), so the first fact is
  that the normalisation factor, "1/√deg where deg > 0, else 0", always is: the reciprocal square root of a positive
  extended real is a nonnegative real (and 0 at ⊤). The second is the exchange itself, with no assumption on the
  messages.
-/
import proofs.«182121_j28802050687441_2_alg».proof.Proof.LibScaleSum
import Idealize.ShloMosaic.PureOps.Ideal

noncomputable section

open scoped BigOperators

namespace Cert.GcnLaw

open Idealize.ShloMosaic

/-- The reciprocal square root of a positive extended real is nonnegative and not ⊤: `(√r)⁻¹` at a positive real,
    `0` at `⊤`. -/
theorem rsqrt_bounds {d : EReal} (h : 0 < d) : 0 ≤ Ideal.rsqrt d ∧ Ideal.rsqrt d ≠ ⊤ := by
  induction d using EReal.rec with
  | bot => exact absurd h not_lt_bot
  | top => exact ⟨le_of_eq Ideal.rsqrt_top.symm, by rw [Ideal.rsqrt_top]; exact EReal.zero_ne_top⟩
  | coe r =>
    have hr : 0 < r := by exact_mod_cast h
    rw [Ideal.rsqrt_coe, if_neg (not_lt.mpr hr.le), if_neg hr.ne']
    exact ⟨by exact_mod_cast inv_nonneg.mpr (Real.sqrt_nonneg r), EReal.coe_ne_top _⟩

/-- The normalisation factor "1/√d where d > 0, else 0" is nonnegative and not ⊤, whatever d is. -/
theorem gate_bounds (d : EReal) :
    0 ≤ Scalar.select (Ideal.cmp .ogt d 0) (Ideal.rsqrt d) (0 : EReal)
      ∧ Scalar.select (Ideal.cmp .ogt d 0) (Ideal.rsqrt d) (0 : EReal) ≠ ⊤ := by
  by_cases h : (0 : EReal) < d
  · have e : Ideal.cmp .ogt d 0 = 1 := by unfold Ideal.cmp; simp [h]
    rw [e]; unfold Scalar.select; rw [if_pos rfl]; exact rsqrt_bounds h
  · have e : Ideal.cmp .ogt d 0 = 0 := by unfold Ideal.cmp; simp [h]
    rw [e]; unfold Scalar.select; rw [if_neg (by decide)]; exact ⟨le_refl _, EReal.zero_ne_top⟩

/-- One round in its two arrangements: the factor `c` of the target node (nonnegative, not ⊤) applied once to the
    total, or inside every term beside the source's factor `d e`. Nothing is assumed of the messages `a e`. -/
theorem round_eq {ι : Type*} (s : Finset ι) (a d : ι → EReal) (c b : EReal) (hc : 0 ≤ c) (hc' : c ≠ ⊤) :
    (0 + ∑ e ∈ s, a e * d e) * c + b = (0 + ∑ e ∈ s, a e * (d e * c)) + b := by
  rw [zero_add, zero_add, ← LibScaleSum.sum_mul_of_nonneg_of_ne_top s _ hc hc']
  exact congrArg (· + b) (Finset.sum_congr rfl fun e _ => mul_assoc _ _ _)

end Cert.GcnLaw

end
-- ==== Proof.GcnLayer.lean ====
/-
  One graph-convolution layer, entry by entry, in its two arrangements.

  The nodes are numbered by Fin N and the edges by Fin M; an edge's source row is its source id clamped into the array, it
  lands at the node whose number its target id is (nowhere if there is none), and φ is a nonnegative, finite factor
  per node. With P = H · W:

  * kernel arrangement: scale row r of P by φ r, let every edge add its source's row at its target's row (from zero),
    scale row n of the total by φ n, add the bias;
  * reference arrangement: let every edge add its source's row of P times the edge's weight φ (source) · φ (target')
    at its target's row (from zero), add the bias — where target' is the edge's target id read by the gather (clamped).

  For an edge that lands at n the clamped target is n itself, so entry (n, f) is, in both, the bias plus a sum over the
  edges landing at n, and the two sums differ by where the common factor φ n stands: `GcnLaw.round_eq`.
-/
import proofs.«182121_j28802050687441_2_alg».proof.Proof.LibGraphRound
import proofs.«182121_j28802050687441_2_alg».proof.Proof.LibColumn
import proofs.«182121_j28802050687441_2_alg».proof.Proof.GcnTiles
import proofs.«182121_j28802050687441_2_alg».proof.Proof.GcnLaw

noncomputable section

open scoped BigOperators

namespace Cert.GcnLayer

open Idealize.ShloMosaic Idealize.ShloMosaic.ValueIdx Cert.LibSegment Cert.LibMatProd Cert.LibColumn Cert.Graph Cert.GcnTiles

/-- An id that, read signed, is the number of node n is clamped to n. -/
theorem clampRow_of_toInt {N : ℕ} (hN : 0 < N) (v : BitVec 32) (n : Fin N) (h : v.toInt = (n.val : Int)) :
    clampRow N hN v = n := by
  apply Fin.ext
  show min v.toInt.toNat (N - 1) = n.val
  have := n.isLt
  rw [h]; simp; omega

/-- Entry (n, f) of a layer before its bias and activation, in the two arrangements. -/
theorem layer_entry {N K D M : ℕ} (hN : 0 < N)
    (wfg : GatherDims.WF ⟨2, ![N, D]⟩ ⟨2, ![M, 1]⟩ ⟨2, ![M, D]⟩ [1] [0] [] [0] [] 1 ![1, D])
    (wfs : ScatterDims.WF ⟨2, ![N, D]⟩ ⟨2, ![M, 1]⟩ ⟨2, ![M, D]⟩ [1] [0] [0] 1)
    (wfe : GatherDims.WF ⟨1, ![N]⟩ ⟨2, ![M, 1]⟩ ⟨1, ![M]⟩ [] [0] [] [0] [] 1 ![1])
    (hz : (⟨0, ![]⟩ : Shape).BroadcastsInDim ⟨2, ![N, D]⟩ ![])
    (hc : (⟨1, ![M]⟩ : Shape).BroadcastsInDim ⟨2, ![M, 1]⟩ ![0])
    (hr : (⟨2, ![M, 1]⟩ : Shape).BroadcastsInDim ⟨2, ![M, D]⟩ ![0, 1])
    (hcc : (⟨1, ![N]⟩ : Shape).ShapeCasts ⟨2, ![N, 1]⟩)
    (H : FVec Ideal ⟨2, ![N, K]⟩ .f32) (W : FVec Ideal ⟨2, ![K, D]⟩ .f32) (φ : FVec Ideal ⟨1, ![N]⟩ .f32)
    (srcCol dstCol : IVec ⟨2, ![M, 1]⟩ 32)
    (hφ : ∀ r : Fin N, 0 ≤ φ (ix1 r) ∧ φ (ix1 r) ≠ ⊤) (n : Fin N) (f : Fin D) (b : EReal) :
    Host.scatterAdd (F := Ideal) (rowAddDims N D M wfs)
        (broadcastInDim ⟨2, ![N, D]⟩ ![] hz (constant (F := Ideal) ⟨0, ![]⟩ .f32 0x00000000#32)) dstCol
        (Host.gather (rowDims N D M wfg) (scaledProd H W (shapeCast ⟨2, ![N, 1]⟩ φ hcc)) srcCol) (ix2 n f)
      * shapeCast ⟨2, ![N, 1]⟩ φ hcc (ix2 n (0 : Fin 1)) + b
    = agg wfg wfs hz hc hr (matProd H W) srcCol dstCol
        (mulf (Host.gather (entryDims N M wfe) φ srcCol) (Host.gather (entryDims N M wfe) φ dstCol)) (ix2 n f) + b := by
  rw [hostScatterAdd_rows_apply, agg_apply hN, broadcastInDim_apply _ hz _ (ix2 n f) ix0 (fun a => a.elim0),
    constant_apply, Ideal.ofBits_zero_f32, shapeCast_a_a1_apply]
  have e1 : ∀ e : Fin M, Host.gather (rowDims N D M wfg) (scaledProd H W (shapeCast ⟨2, ![N, 1]⟩ φ hcc)) srcCol (ix2 e f)
      = matProd H W (ix2 (clampRow N hN (srcCol (colIdx e))) f) * φ (ix1 (clampRow N hN (srcCol (colIdx e)))) := fun e => by
    rw [gather_rows_apply hN, scaledProd_apply, shapeCast_a_a1_apply, matProd_apply]
  have e2 : ∀ e ∈ Finset.univ.filter (fun e : Fin M => (dstCol (colIdx e)).toInt = (n.val : Int)),
      matProd H W (ix2 (clampRow N hN (srcCol (colIdx e))) f)
        * mulf (Host.gather (entryDims N M wfe) φ srcCol) (Host.gather (entryDims N M wfe) φ dstCol) (ix1 e)
      = matProd H W (ix2 (clampRow N hN (srcCol (colIdx e))) f)
        * (φ (ix1 (clampRow N hN (srcCol (colIdx e)))) * φ (ix1 n)) := fun e he => by
    rw [mulf_apply, gather_entries_apply hN, gather_entries_apply hN,
      clampRow_of_toInt hN _ n (Finset.mem_filter.mp he).2]
  rw [Finset.sum_congr rfl (fun e _ => e1 e), Finset.sum_congr rfl e2]
  exact GcnLaw.round_eq _ (fun e => matProd H W (ix2 (clampRow N hN (srcCol (colIdx e))) f))
    (fun e => φ (ix1 (clampRow N hN (srcCol (colIdx e))))) (φ (ix1 n)) b (hφ n).1 (hφ n).2

/-- The same with each program's own dimension records in place of the generic ones (each is the generic record). -/
theorem layer_entry_at {N K D M : ℕ} (hN : 0 < N)
    (wfg : GatherDims.WF ⟨2, ![N, D]⟩ ⟨2, ![M, 1]⟩ ⟨2, ![M, D]⟩ [1] [0] [] [0] [] 1 ![1, D])
    (wfs : ScatterDims.WF ⟨2, ![N, D]⟩ ⟨2, ![M, 1]⟩ ⟨2, ![M, D]⟩ [1] [0] [0] 1)
    (wfe : GatherDims.WF ⟨1, ![N]⟩ ⟨2, ![M, 1]⟩ ⟨1, ![M]⟩ [] [0] [] [0] [] 1 ![1])
    (hz : (⟨0, ![]⟩ : Shape).BroadcastsInDim ⟨2, ![N, D]⟩ ![])
    (hc : (⟨1, ![M]⟩ : Shape).BroadcastsInDim ⟨2, ![M, 1]⟩ ![0])
    (hr : (⟨2, ![M, 1]⟩ : Shape).BroadcastsInDim ⟨2, ![M, D]⟩ ![0, 1])
    (hcc : (⟨1, ![N]⟩ : Shape).ShapeCasts ⟨2, ![N, 1]⟩)
    (dsK dsR : ScatterDims ⟨2, ![N, D]⟩ ⟨2, ![M, 1]⟩ ⟨2, ![M, D]⟩)
    (hdsK : dsK = rowAddDims N D M wfs) (hdsR : dsR = rowAddDims N D M wfs)
    (dgK dgR : GatherDims ⟨2, ![N, D]⟩ ⟨2, ![M, 1]⟩ ⟨2, ![M, D]⟩)
    (hdgK : dgK = rowDims N D M wfg) (hdgR : dgR = rowDims N D M wfg)
    (deR : GatherDims ⟨1, ![N]⟩ ⟨2, ![M, 1]⟩ ⟨1, ![M]⟩) (hdeR : deR = entryDims N M wfe)
    (H : FVec Ideal ⟨2, ![N, K]⟩ .f32) (W : FVec Ideal ⟨2, ![K, D]⟩ .f32) (φ : FVec Ideal ⟨1, ![N]⟩ .f32)
    (srcCol dstCol : IVec ⟨2, ![M, 1]⟩ 32)
    (hφ : ∀ r : Fin N, 0 ≤ φ (ix1 r) ∧ φ (ix1 r) ≠ ⊤) (n : Fin N) (f : Fin D) (b : EReal) :
    Host.scatterAdd (F := Ideal) dsK
        (broadcastInDim ⟨2, ![N, D]⟩ ![] hz (constant (F := Ideal) ⟨0, ![]⟩ .f32 0x00000000#32)) dstCol
        (Host.gather dgK (scaledProd H W (shapeCast ⟨2, ![N, 1]⟩ φ hcc)) srcCol) (ix2 n f)
      * shapeCast ⟨2, ![N, 1]⟩ φ hcc (ix2 n (0 : Fin 1)) + b
    = Host.scatterAdd (F := Ideal) dsR
        (broadcastInDim ⟨2, ![N, D]⟩ ![] hz (constant (F := Ideal) ⟨0, ![]⟩ .f32 0x00000000#32)) dstCol
        (mulf (Host.gather dgR (matProd H W) srcCol)
          (broadcastInDim ⟨2, ![M, D]⟩ ![0, 1] hr (broadcastInDim ⟨2, ![M, 1]⟩ ![0] hc
            (mulf (Host.gather deR φ srcCol) (Host.gather deR φ dstCol))))) (ix2 n f) + b := by
  subst hdsK hdsR hdgK hdgR hdeR
  exact layer_entry hN wfg wfs wfe hz hc hr hcc H W φ srcCol dstCol hφ n f b

/-- A one-row matrix repeated down the rows by the host reads, at (p, q), its entry (0, q). -/
theorem bcast_row_apply {M N : ℕ} (v : FVec Ideal ⟨2, ![1, N]⟩ .f32)
    (h : (⟨2, ![1, N]⟩ : Shape).BroadcastsInDim ⟨2, ![M, N]⟩ ![0, 1]) (p : Fin M) (q : Fin N) :
    broadcastInDim ⟨2, ![M, N]⟩ ![0, 1] h v (ix2 p q) = v (ix2 (0 : Fin 1) q) :=
  broadcastInDim_apply _ h v _ (ix2 (0 : Fin 1) q) (fun ax => match ax with
    | ⟨0, _⟩ => by
      show (0 : ℕ) = if (1 : ℕ) = 1 then 0 else p.val
      rw [if_pos rfl]
    | ⟨1, _⟩ => by
      show q.val = if N = 1 then 0 else q.val
      split
      · have := q.isLt; omega
      · rfl)

/-- A vector laid out as one row by the host reads, at (u, q), the vector at q. -/
theorem bcast_vec_row_apply {N : ℕ} (b : FVec Ideal ⟨1, ![N]⟩ .f32)
    (h : (⟨1, ![N]⟩ : Shape).BroadcastsInDim ⟨2, ![1, N]⟩ ![1]) (u : Fin 1) (q : Fin N) :
    broadcastInDim ⟨2, ![1, N]⟩ ![1] h b (ix2 u q) = b (ix1 q) :=
  broadcastInDim_apply _ h b _ (ix1 q) (fun ax => match ax with
    | ⟨0, _⟩ => by
      show q.val = if N = 1 then 0 else q.val
      split
      · have := q.isLt; omega
      · rfl)

end Cert.GcnLayer

end
-- ==== Proof.Bridge.lean ====
/-
  The two programs compute one function when every target id is non-negative.

  Both build the same id arrays from the edge list. When wrapping the target ids changes nothing, the reference's degree —
  counted at the wrapped target ids — is the kernel's, and so is its normalisation factor, which is nonnegative and
  finite at every node. Then each layer agrees entry by entry (the two arrangements of one round, `GcnLayer`), the
  first one under the same clamp at zero, and the second layer is applied to equal hidden features.
-/
import proofs.«182121_j28802050687441_2_alg».proof.Proof.KernelValue
import proofs.«182121_j28802050687441_2_alg».proof.Proof.RefValue
import proofs.«182121_j28802050687441_2_alg».proof.Proof.GcnLayer

set_option maxRecDepth 16384

noncomputable section

namespace Cert.Bridge

open Idealize.ShloMosaic Idealize.ShloMosaic.ValueIdx Cert.LibSegment Cert.LibMatProd Cert.LibColumn Cert.GcnTiles

variable (x : FVec Ideal ⟨2, ![50000, 128]⟩ .f32) (ei : IVec ⟨2, ![2, 800000]⟩ 32)
  (w1 : FVec Ideal ⟨2, ![128, 128]⟩ .f32) (b1 : FVec Ideal ⟨1, ![128]⟩ .f32)
  (w2 : FVec Ideal ⟨2, ![128, 40]⟩ .f32) (b2 : FVec Ideal ⟨1, ![40]⟩ .f32)

/-! ## The id arrays are the same terms in the two programs -/

theorem srcIds_eq : Cert.ReferenceIdeal.Net.srcIds ei = Cert.KernelIdeal.Net.srcIds ei := rfl
theorem dstIds_eq : Cert.ReferenceIdeal.Net.dstIds ei = Cert.KernelIdeal.Net.dstIds ei := rfl
theorem colIds_eq (I : IVec ⟨1, ![850000]⟩ 32) : Cert.ReferenceIdeal.Net.colIds I = Cert.KernelIdeal.Net.colIds I := rfl
theorem wrapIds_eq (I : IVec ⟨1, ![850000]⟩ 32) : Cert.ReferenceIdeal.Net.wrapIds I = Cert.KernelIdeal.Net.wrapIds I := rfl

/-! ## The factor -/

/-- The factor built from a degree vector d reads, at node r, "1/√(d r) where d r > 0, else 0". -/
theorem gate_at {N : ℕ} (d : FVec Ideal ⟨1, ![N]⟩ .f32) (hb : (⟨0, ![]⟩ : Shape).BroadcastsInDim ⟨1, ![N]⟩ ![]) (r : Fin N) :
    select (cmpf (F := Ideal) .ogt d (broadcastInDim ⟨1, ![N]⟩ ![] hb (constant ⟨0, ![]⟩ .f32 0x00000000#32))) (Host.rsqrt d)
        (broadcastInDim ⟨1, ![N]⟩ ![] hb (id (constant (F := Ideal) ⟨0, ![]⟩ .f32 0x00000000#32))) (ix1 r)
      = Scalar.select (Ideal.cmp .ogt (d (ix1 r)) 0) (Ideal.rsqrt (d (ix1 r))) (0 : EReal) := by
  rw [select_apply, cmpf_apply, broadcastInDim_apply _ hb _ (ix1 r) ix0 (fun a => a.elim0),
    broadcastInDim_apply _ hb _ (ix1 r) ix0 (fun a => a.elim0)]
  simp only [id_eq, constant_apply, Ideal.ofBits_zero_f32, Ideal.cmpf_def, Host.rsqrt, Ideal.hostUnary_rsqrt_def]

/-- The kernel's factor is nonnegative and finite at every node. -/
theorem factor_bounds (r : Fin 50000) : 0 ≤ Cert.KernelIdeal.Net.factor ei (ix1 r) ∧ Cert.KernelIdeal.Net.factor ei (ix1 r) ≠ ⊤ := by
  have e : Cert.KernelIdeal.Net.factor ei (ix1 r)
      = Scalar.select (Ideal.cmp .ogt (Cert.KernelIdeal.Net.degree ei (ix1 r)) 0) (Ideal.rsqrt (Cert.KernelIdeal.Net.degree ei (ix1 r))) (0 : EReal) := by
    unfold Cert.KernelIdeal.Net.factor
    exact gate_at (Cert.KernelIdeal.Net.degree ei) _ r
  rw [e]; exact GcnLaw.gate_bounds _

/-- When wrapping the target ids changes nothing, the reference's factor is the kernel's. -/
theorem factor_eq (hw : Cert.ReferenceIdeal.Net.wrapIds (Cert.ReferenceIdeal.Net.dstIds ei) = Cert.ReferenceIdeal.Net.dstIds ei) : Cert.ReferenceIdeal.Net.factor ei = Cert.KernelIdeal.Net.factor ei := by
  unfold Cert.ReferenceIdeal.Net.factor
  rw [hw, dstIds_eq]
  rfl

/-! ## The first layer -/

theorem hidden_eq (hw : Cert.ReferenceIdeal.Net.wrapIds (Cert.ReferenceIdeal.Net.dstIds ei) = Cert.ReferenceIdeal.Net.dstIds ei) :
    Cert.ReferenceIdeal.Net.hidden x ei w1 b1 = Cert.KernelIdeal.Net.hidden x ei w1 b1 := by
  funext i
  obtain ⟨n, f, rfl⟩ : ∃ (n : Fin 50000) (f : Fin 128), i = ix2 n f := ⟨i 0, i 1, eq_ix2 i⟩
  have L := GcnLayer.layer_entry_at (N := 50000) (K := 128) (D := 128) (M := 850000) (by decide)
    (by decide) (by decide) (by decide) (by decide) (by decide) (by decide) (by decide)
    Cert.KernelIdeal.scatter_S50000x128_S850000x1_S850000x128_1_0_0_1 Cert.ReferenceIdeal.scatter_S50000x128_S850000x1_S850000x128_1_0_0_1 rfl rfl
    Cert.KernelIdeal.gather_S50000x128_S850000x1_S850000x128_1_0_n_n_0_1_1128 Cert.ReferenceIdeal.gather_S50000x128_S850000x1_S850000x128_1_0_n_n_0_1_1128 rfl rfl
    Cert.ReferenceIdeal.gather_S50000_S850000x1_S850000_n_0_n_n_0_1_1 rfl
    x w1 (Cert.KernelIdeal.Net.factor ei) (Cert.KernelIdeal.Net.colIds (Cert.KernelIdeal.Net.wrapIds (Cert.KernelIdeal.Net.srcIds ei))) (Cert.KernelIdeal.Net.colIds (Cert.KernelIdeal.Net.dstIds ei)) (factor_bounds ei) n f (b1 (ix1 f))
  unfold Cert.ReferenceIdeal.Net.hidden Cert.KernelIdeal.Net.hidden
  rw [maximumf_apply, addf_apply, affineRelu_apply, GcnLayer.bcast_row_apply, GcnLayer.bcast_vec_row_apply,
    broadcastInDim_apply _ _ _ (ix2 n f) ix0 (fun a => a.elim0), constant_apply, Ideal.ofBits_zero_f32,
    shapeCast_a_1a_apply, host_dot_eq _ rfl rfl rfl rfl rfl rfl x w1]
  refine congrArg (max · 0) ?_
  unfold Cert.ReferenceIdeal.Net.round128 Cert.ReferenceIdeal.Net.edgeWeight
  rw [factor_eq ei hw, hw, srcIds_eq, dstIds_eq]
  simp only [colIds_eq, wrapIds_eq]
  exact L.symm

/-! ## The second layer -/

theorem output_eq (hw : Cert.ReferenceIdeal.Net.wrapIds (Cert.ReferenceIdeal.Net.dstIds ei) = Cert.ReferenceIdeal.Net.dstIds ei) :
    Cert.ReferenceIdeal.Net.output x ei w1 b1 w2 b2 = Cert.KernelIdeal.Net.output x ei w1 b1 w2 b2 := by
  funext i
  obtain ⟨n, f, rfl⟩ : ∃ (n : Fin 50000) (f : Fin 40), i = ix2 n f := ⟨i 0, i 1, eq_ix2 i⟩
  have L := GcnLayer.layer_entry_at (N := 50000) (K := 128) (D := 40) (M := 850000) (by decide)
    (by decide) (by decide) (by decide) (by decide) (by decide) (by decide) (by decide)
    Cert.KernelIdeal.scatter_S50000x40_S850000x1_S850000x40_1_0_0_1 Cert.ReferenceIdeal.scatter_S50000x40_S850000x1_S850000x40_1_0_0_1 rfl rfl
    Cert.KernelIdeal.gather_S50000x40_S850000x1_S850000x40_1_0_n_n_0_1_140 Cert.ReferenceIdeal.gather_S50000x40_S850000x1_S850000x40_1_0_n_n_0_1_140 rfl rfl
    Cert.ReferenceIdeal.gather_S50000_S850000x1_S850000_n_0_n_n_0_1_1 rfl
    (Cert.KernelIdeal.Net.hidden x ei w1 b1) w2 (Cert.KernelIdeal.Net.factor ei) (Cert.KernelIdeal.Net.colIds (Cert.KernelIdeal.Net.wrapIds (Cert.KernelIdeal.Net.srcIds ei))) (Cert.KernelIdeal.Net.colIds (Cert.KernelIdeal.Net.dstIds ei)) (factor_bounds ei) n f (b2 (ix1 f))
  unfold Cert.ReferenceIdeal.Net.output Cert.KernelIdeal.Net.output
  rw [hidden_eq x ei w1 b1 hw, addf_apply, affine_apply, GcnLayer.bcast_row_apply, GcnLayer.bcast_vec_row_apply,
    shapeCast_a_1a_apply, host_dot_eq _ rfl rfl rfl rfl rfl rfl (Cert.KernelIdeal.Net.hidden x ei w1 b1) w2]
  unfold Cert.ReferenceIdeal.Net.round40 Cert.ReferenceIdeal.Net.edgeWeight
  rw [factor_eq ei hw, hw, srcIds_eq, dstIds_eq]
  simp only [colIds_eq, wrapIds_eq]
  exact L.symm

end Cert.Bridge

end
-- ==== Proof.lean ====
/-
  Two layers of graph convolution with symmetric normalisation, in two arrangements, are one function of the inputs
  when every target node id of the edge list is non-negative.

  Both programs append one self loop per node to the edge list, count each node's degree (one per edge whose target id it
  is), and take as the node's factor φ = 1/√degree (0 where the degree is not positive). A layer sends to node n the sum,
  over the edges e that end at n, of row (source of e) of H · W times φ (source of e) · φ (n), and adds a bias; the first
  layer is clamped at zero. The reference multiplies every edge's row by both factors before the sum. The kernel scales
  the rows of H · W by φ once in a tiled stage before the edges are walked, and scales the total by φ n in a second
  tiled stage after it, where it also adds the bias (and clamps): four tiled stages in all, each walking the 50000
  rows in ten bands of 5000.

  Entry by entry the two differ by where the common factor φ n stands relative to a finite sum of extended reals, and
  φ n is nonnegative and finite whatever the degree is, so it moves across the sum with no assumption on the features
  or weights (`GcnLaw`, `GcnLayer`). One thing does need the precondition: the reference counts an edge's degree at its
  target id WRAPPED (50000 added to a negative id), the kernel at the id itself; for non-negative target ids the wrap
  changes nothing (`TargetIds`). The finiteness of the float inputs is not used.

  The frames of the two kernel programs are the generated ones; the reference's frame is its run with the result
  dropped; the ideal pass rewrote nothing, so the kernel's idealization is its own text. For the value claim the
  kernel program's run is stated with its result named (`KernelRun`) and the result walked back through the program's
  ten segments to one function of the arguments (`KernelValue`, over the four stages' whole-array functions
  `Stage0`–`Stage3`); the reference's run ends at its one long term, which is the same parts composed (`RefValue`);
  and the two functions agree (`Bridge`).
-/
import proofs.«182121_j28802050687441_2_alg».proof.Defs
import proofs.«182121_j28802050687441_2_alg».proof.Proof.Gen.Kernel
import proofs.«182121_j28802050687441_2_alg».proof.Proof.Gen.Kernel.Skeleton
import proofs.«182121_j28802050687441_2_alg».proof.Proof.Gen.Kernel.Launch
import proofs.«182121_j28802050687441_2_alg».proof.Proof.Gen.Kernel.Points
import proofs.«182121_j28802050687441_2_alg».proof.Proof.Gen.Kernel.Frame
import proofs.«182121_j28802050687441_2_alg».proof.Proof.Gen.KernelIdeal
import proofs.«182121_j28802050687441_2_alg».proof.Proof.Gen.KernelIdeal.Skeleton
import proofs.«182121_j28802050687441_2_alg».proof.Proof.Gen.KernelIdeal.Launch
import proofs.«182121_j28802050687441_2_alg».proof.Proof.Gen.KernelIdeal.Points
import proofs.«182121_j28802050687441_2_alg».proof.Proof.Gen.KernelIdeal.Frame
import proofs.«182121_j28802050687441_2_alg».proof.Proof.Gen.ReferenceIdeal
import proofs.«182121_j28802050687441_2_alg».proof.Proof.Gen.Pre_finite_inputs
import proofs.«182121_j28802050687441_2_alg».proof.Proof.KernelRun
import proofs.«182121_j28802050687441_2_alg».proof.Proof.KernelValue
import proofs.«182121_j28802050687441_2_alg».proof.Proof.RefRun
import proofs.«182121_j28802050687441_2_alg».proof.Proof.RefValue
import proofs.«182121_j28802050687441_2_alg».proof.Proof.TargetIds
import proofs.«182121_j28802050687441_2_alg».proof.Proof.Bridge
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel (hKernel := Cert.Kernel.Gen.facts) (hPre_finite_inputs := Cert.Pre_finite_inputs.Gen.facts) :=
  fun m ρ _ => Cert.Kernel.Gen.frame m ρ

/-- The idealized kernel program runs and leaves its arguments as launched. -/
theorem frame_kernelIdeal :
    Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments as launched: its run, the result dropped. -/
theorem frame_reference :
    Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- From memories that agree on the arguments and satisfy the precondition, both programs end with the network's
    output of the arguments at their result buffers. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' hpre hagree
  refine ⟨fun c => Cert.KernelIdeal.Net.output (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Net.W10_v44 m ρ c), (h c).2⟩) (Cert.KernelIdeal.Named.run_result m ρ)
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5⟩ := hagree c
    rw [Cert.ReferenceIdeal.Net.result_eq m' c, e0, e1, e2, e3, e4, e5]
    exact Cert.Bridge.output_eq _ _ _ _ _ _ (Cert.ReferenceIdeal.Net.wrap_dstIds _ _ _ _ _ _ (hpre c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
